-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S327680x79 : Shape := ⟨2, ![327680, 79]⟩
abbrev S2x1310720 : Shape := ⟨2, ![2, 1310720]⟩
abbrev S79x138 : Shape := ⟨2, ![79, 138]⟩
abbrev S138 : Shape := ⟨1, ![138]⟩
abbrev S138x138 : Shape := ⟨2, ![138, 138]⟩
abbrev S138x128 : Shape := ⟨2, ![138, 128]⟩
abbrev S128 : Shape := ⟨1, ![128]⟩
abbrev S128x128 : Shape := ⟨2, ![128, 128]⟩
abbrev S_ : Shape := ⟨0, ![]⟩

class Facts : Prop where
  bcast_S_S327680x79 : S_.BroadcastsInDim S327680x79 (![] : Fin 0 → Fin S327680x79.rank)
  reducesTo_S327680x79_S_d0_1 : S327680x79.ReducesTo [0, 1] S_
  h_S_ : 0 < S_.numel
  bcast_S_S79x138 : S_.BroadcastsInDim S79x138 (![] : Fin 0 → Fin S79x138.rank)
  reducesTo_S79x138_S_d0_1 : S79x138.ReducesTo [0, 1] S_
  bcast_S_S138 : S_.BroadcastsInDim S138 (![] : Fin 0 → Fin S138.rank)
  reducesTo_S138_S_d0 : S138.ReducesTo [0] S_
  bcast_S_S138x138 : S_.BroadcastsInDim S138x138 (![] : Fin 0 → Fin S138x138.rank)
  reducesTo_S138x138_S_d0_1 : S138x138.ReducesTo [0, 1] S_
  bcast_S_S138x128 : S_.BroadcastsInDim S138x128 (![] : Fin 0 → Fin S138x128.rank)
  reducesTo_S138x128_S_d0_1 : S138x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part7 {F : FTy → Type} [FloatOps F] (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  main_v123

def fn_part6 {F : FTy → Type} [FloatOps F] (main_arg22 : FVec F S138x128 .f32) (main_arg23 : FVec F S128 .f32) (main_arg24 : FVec F S128x128 .f32) (main_arg25 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S138x128 .f32 := Host.absf main_arg22
  let main_cst_40 : FVec F S_ .f32 := constant S_ .f32 0x7F800000#32
  let main_v105 : FVec F S138x128 .f32 := broadcastInDim S138x128 ![] bcast_S_S138x128 main_cst_40
  let main_v106 : IVec S138x128 1 := cmpf .olt main_v104 main_v105
  let main_c_41 : IVec S_ 1 := constantI S_ 1 1#1
  let main_v107 : IVec S_ 1 := (fun x v => Host.reduce IntOp.andi x v reducesTo_S138x128_S_d0_1 h_S_) main_v106 main_c_41
  let main_v108 : IVec S_ 1 := andi main_v103 main_v107
  let main_v109 : FVec F S128 .f32 := Host.absf main_arg23
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg25
  fn_part7 (F := F) main_v118 main_v119

def fn_part5 {F : FTy → Type} [FloatOps F] (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) (main_v83 : IVec S_ 1) (main_v84 : FVec F S138x138 .f32) (main_cst_32 : FVec F S_ .f32) : IVec S_ 1 :=
  let main_v85 : FVec F S138x138 .f32 := broadcastInDim S138x138 ![] bcast_S_S138x138 main_cst_32
  let main_v86 : IVec S138x138 1 := cmpf .olt main_v84 main_v85
  let main_c_33 : IVec S_ 1 := constantI S_ 1 1#1
  let main_v87 : IVec S_ 1 := (fun x v => Host.reduce IntOp.andi x v reducesTo_S138x138_S_d0_1 h_S_) main_v86 main_c_33
  let main_v88 : IVec S_ 1 := andi main_v83 main_v87
  let main_v89 : FVec F S138 .f32 := Host.absf main_arg19
  let main_cst_34 : FVec F S_ .f32 := constant S_ .f32 0x7F800000#32
  let main_v90 : FVec F S138 .f32 := broadcastInDim S138 ![] bcast_S_S138 main_cst_34
  let main_v91 : IVec S138 1 := cmpf .olt main_v89 main_v90
  let main_c_35 : IVec S_ 1 := constantI S_ 1 1#1
  let main_v92 : IVec S_ 1 := (fun x v => Host.reduce IntOp.andi x v reducesTo_S138_S_d0 h_S_) main_v91 main_c_35
  let main_v93 : IVec S_ 1 := andi main_v88 main_v92
  let main_v94 : FVec F S138x128 .f32 := Host.absf main_arg20
  let main_cst_36 : FVec F S_ .f32 := constant S_ .f32 0x7F800000#32
  let main_v95 : FVec F S138x128 .f32 := broadcastInDim S138x128 ![] bcast_S_S138x128 main_cst_36
  let main_v96 : IVec S138x128 1 := cmpf .olt main_v94 main_v95
  let main_c_37 : IVec S_ 1 := constantI S_ 1 1#1
  let main_v97 : IVec S_ 1 := (fun x v => Host.reduce IntOp.andi x v reducesTo_S138x128_S_d0_1 h_S_) main_v96 main_c_37
  let main_v98 : IVec S_ 1 := andi main_v93 main_v97
  let main_v99 : FVec F S128 .f32 := Host.absf main_arg21
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg22 main_arg23 main_arg24 main_arg25 main_v98 main_v101 main_c_39

def fn_part4 {F : FTy → Type} [FloatOps F] (main_arg15 : FVec F S138 .f32) (main_arg16 : FVec F S138x138 .f32) (main_arg17 : FVec F S138 .f32) (main_arg18 : FVec F S138x138 .f32) (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S138 .f32 := Host.absf main_arg15
  let main_cst_26 : FVec F S_ .f32 := constant S_ .f32 0x7F800000#32
  let main_v70 : FVec F S138 .f32 := broadcastInDim S138 ![] bcast_S_S138 main_cst_26
  let main_v71 : IVec S138 1 := cmpf .olt main_v69 main_v70
  let main_c_27 : IVec S_ 1 := constantI S_ 1 1#1
  let main_v72 : IVec S_ 1 := (fun x v => Host.reduce IntOp.andi x v reducesTo_S138_S_d0 h_S_) main_v71 main_c_27
  let main_v73 : IVec S_ 1 := andi main_v68 main_v72
  let main_v74 : FVec F S138x138 .f32 := Host.absf main_arg16
  let main_cst_28 : FVec F S_ .f32 := constant S_ .f32 0x7F800000#32
  let main_v75 : FVec F S138x138 .f32 := broadcastInDim S138x138 ![] bcast_S_S138x138 main_cst_28
  let main_v76 : IVec S138x138 1 := cmpf .olt main_v74 main_v75
  let main_c_29 : IVec S_ 1 := constantI S_ 1 1#1
  let main_v77 : IVec S_ 1 := (fun x v => Host.reduce IntOp.andi x v reducesTo_S138x138_S_d0_1 h_S_) main_v76 main_c_29
  let main_v78 : IVec S_ 1 := andi main_v73 main_v77
  let main_v79 : FVec F S138 .f32 := Host.absf main_arg17
  let main_cst_30 : FVec F S_ .f32 := constant S_ .f32 0x7F800000#32
  let main_v80 : FVec F S138 .f32 := broadcastInDim S138 ![] bcast_S_S138 main_cst_30
  let main_v81 : IVec S138 1 := cmpf .olt main_v79 main_v80
  let main_c_31 : IVec S_ 1 := constantI S_ 1 1#1
  let main_v82 : IVec S_ 1 := (fun x v => Host.reduce IntOp.andi x v reducesTo_S138_S_d0 h_S_) main_v81 main_c_31
  let main_v83 : IVec S_ 1 := andi main_v78 main_v82
  let main_v84 : FVec F S138x138 .f32 := Host.absf main_arg18
  let main_cst_32 : FVec F S_ .f32 := constant S_ .f32 0x7F800000#32
  fn_part5 (F := F) main_arg19 main_arg20 main_arg21 main_arg22 main_arg23 main_arg24 main_arg25 main_v83 main_v84 main_cst_32

def fn_part3 {F : FTy → Type} [FloatOps F] (main_arg12 : FVec F S138x138 .f32) (main_arg13 : FVec F S138 .f32) (main_arg14 : FVec F S138x138 .f32) (main_arg15 : FVec F S138 .f32) (main_arg16 : FVec F S138x138 .f32) (main_arg17 : FVec F S138 .f32) (main_arg18 : FVec F S138x138 .f32) (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) (main_v48 : IVec S_ 1) (main_v49 : FVec F S138 .f32) (main_v50 : FVec F S138 .f32) : IVec S_ 1 :=
  let main_v51 : IVec S138 1 := cmpf .olt main_v49 main_v50
  let main_c_19 : IVec S_ 1 := constantI S_ 1 1#1
  let main_v52 : IVec S_ 1 := (fun x v => Host.reduce IntOp.andi x v reducesTo_S138_S_d0 h_S_) main_v51 main_c_19
  let main_v53 : IVec S_ 1 := andi main_v48 main_v52
  let main_v54 : FVec F S138x138 .f32 := Host.absf main_arg12
  let main_cst_20 : FVec F S_ .f32 := constant S_ .f32 0x7F800000#32
  let main_v55 : FVec F S138x138 .f32 := broadcastInDim S138x138 ![] bcast_S_S138x138 main_cst_20
  let main_v56 : IVec S138x138 1 := cmpf .olt main_v54 main_v55
  let main_c_21 : IVec S_ 1 := constantI S_ 1 1#1
  let main_v57 : IVec S_ 1 := (fun x v => Host.reduce IntOp.andi x v reducesTo_S138x138_S_d0_1 h_S_) main_v56 main_c_21
  let main_v58 : IVec S_ 1 := andi main_v53 main_v57
  let main_v59 : FVec F S138 .f32 := Host.absf main_arg13
  let main_cst_22 : FVec F S_ .f32 := constant S_ .f32 0x7F800000#32
  let main_v60 : FVec F S138 .f32 := broadcastInDim S138 ![] bcast_S_S138 main_cst_22
  let main_v61 : IVec S138 1 := cmpf .olt main_v59 main_v60
  let main_c_23 : IVec S_ 1 := constantI S_ 1 1#1
  let main_v62 : IVec S_ 1 := (fun x v => Host.reduce IntOp.andi x v reducesTo_S138_S_d0 h_S_) main_v61 main_c_23
  let main_v63 : IVec S_ 1 := andi main_v58 main_v62
  let main_v64 : FVec F S138x138 .f32 := Host.absf main_arg14
  let main_cst_24 : FVec F S_ .f32 := constant S_ .f32 0x7F800000#32
  let main_v65 : FVec F S138x138 .f32 := broadcastInDim S138x138 ![] bcast_S_S138x138 main_cst_24
  let main_v66 : IVec S138x138 1 := cmpf .olt main_v64 main_v65
  let main_c_25 : IVec S_ 1 := constantI S_ 1 1#1
  let main_v67 : IVec S_ 1 := (fun x v => Host.reduce IntOp.andi x v reducesTo_S138x138_S_d0_1 h_S_) main_v66 main_c_25
  fn_part4 (F := F) main_arg15 main_arg16 main_arg17 main_arg18 main_arg19 main_arg20 main_arg21 main_arg22 main_arg23 main_arg24 main_arg25 main_v63 main_v67

def fn_part2 {F : FTy → Type} [FloatOps F] (main_arg8 : FVec F S138x138 .f32) (main_arg9 : FVec F S138 .f32) (main_arg10 : FVec F S138x138 .f32) (main_arg11 : FVec F S138 .f32) (main_arg12 : FVec F S138x138 .f32) (main_arg13 : FVec F S138 .f32) (main_arg14 : FVec F S138x138 .f32) (main_arg15 : FVec F S138 .f32) (main_arg16 : FVec F S138x138 .f32) (main_arg17 : FVec F S138 .f32) (main_arg18 : FVec F S138x138 .f32) (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) (main_v33 : IVec S_ 1) : IVec S_ 1 :=
  let main_v34 : FVec F S138x138 .f32 := Host.absf main_arg8
  let main_cst_12 : FVec F S_ .f32 := constant S_ .f32 0x7F800000#32
  let main_v35 : FVec F S138x138 .f32 := broadcastInDim S138x138 ![] bcast_S_S138x138 main_cst_12
  let main_v36 : IVec S138x138 1 := cmpf .olt main_v34 main_v35
  let main_c_13 : IVec S_ 1 := constantI S_ 1 1#1
  let main_v37 : IVec S_ 1 := (fun x v => Host.reduce IntOp.andi x v reducesTo_S138x138_S_d0_1 h_S_) main_v36 main_c_13
  let main_v38 : IVec S_ 1 := andi main_v33 main_v37
  let main_v39 : FVec F S138 .f32 := Host.absf main_arg9
  let main_cst_14 : FVec F S_ .f32 := constant S_ .f32 0x7F800000#32
  let main_v40 : FVec F S138 .f32 := broadcastInDim S138 ![] bcast_S_S138 main_cst_14
  let main_v41 : IVec S138 1 := cmpf .olt main_v39 main_v40
  let main_c_15 : IVec S_ 1 := constantI S_ 1 1#1
  let main_v42 : IVec S_ 1 := (fun x v => Host.reduce IntOp.andi x v reducesTo_S138_S_d0 h_S_) main_v41 main_c_15
  let main_v43 : IVec S_ 1 := andi main_v38 main_v42
  let main_v44 : FVec F S138x138 .f32 := Host.absf main_arg10
  let main_cst_16 : FVec F S_ .f32 := constant S_ .f32 0x7F800000#32
  let main_v45 : FVec F S138x138 .f32 := broadcastInDim S138x138 ![] bcast_S_S138x138 main_cst_16
  let main_v46 : IVec S138x138 1 := cmpf .olt main_v44 main_v45
  let main_c_17 : IVec S_ 1 := constantI S_ 1 1#1
  let main_v47 : IVec S_ 1 := (fun x v => Host.reduce IntOp.andi x v reducesTo_S138x138_S_d0_1 h_S_) main_v46 main_c_17
  let main_v48 : IVec S_ 1 := andi main_v43 main_v47
  let main_v49 : FVec F S138 .f32 := Host.absf main_arg11
  let main_cst_18 : FVec F S_ .f32 := constant S_ .f32 0x7F800000#32
  let main_v50 : FVec F S138 .f32 := broadcastInDim S138 ![] bcast_S_S138 main_cst_18
  fn_part3 (F := F) main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg5 : FVec F S138 .f32) (main_arg6 : FVec F S138x138 .f32) (main_arg7 : FVec F S138 .f32) (main_arg8 : FVec F S138x138 .f32) (main_arg9 : FVec F S138 .f32) (main_arg10 : FVec F S138x138 .f32) (main_arg11 : FVec F S138 .f32) (main_arg12 : FVec F S138x138 .f32) (main_arg13 : FVec F S138 .f32) (main_arg14 : FVec F S138x138 .f32) (main_arg15 : FVec F S138 .f32) (main_arg16 : FVec F S138x138 .f32) (main_arg17 : FVec F S138 .f32) (main_arg18 : FVec F S138x138 .f32) (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) (main_v13 : IVec S_ 1) (main_v16 : IVec S79x138 1) : IVec S_ 1 :=
  let main_c_5 : IVec S_ 1 := constantI S_ 1 1#1
  let main_v17 : IVec S_ 1 := (fun x v => Host.reduce IntOp.andi x v reducesTo_S79x138_S_d0_1 h_S_) main_v16 main_c_5
  let main_v18 : IVec S_ 1 := andi main_v13 main_v17
  let main_v19 : FVec F S138 .f32 := Host.absf main_arg5
  let main_cst_6 : FVec F S_ .f32 := constant S_ .f32 0x7F800000#32
  let main_v20 : FVec F S138 .f32 := broadcastInDim S138 ![] bcast_S_S138 main_cst_6
  let main_v21 : IVec S138 1 := cmpf .olt main_v19 main_v20
  let main_c_7 : IVec S_ 1 := constantI S_ 1 1#1
  let main_v22 : IVec S_ 1 := (fun x v => Host.reduce IntOp.andi x v reducesTo_S138_S_d0 h_S_) main_v21 main_c_7
  let main_v23 : IVec S_ 1 := andi main_v18 main_v22
  let main_v24 : FVec F S138x138 .f32 := Host.absf main_arg6
  let main_cst_8 : FVec F S_ .f32 := constant S_ .f32 0x7F800000#32
  let main_v25 : FVec F S138x138 .f32 := broadcastInDim S138x138 ![] bcast_S_S138x138 main_cst_8
  let main_v26 : IVec S138x138 1 := cmpf .olt main_v24 main_v25
  let main_c_9 : IVec S_ 1 := constantI S_ 1 1#1
  let main_v27 : IVec S_ 1 := (fun x v => Host.reduce IntOp.andi x v reducesTo_S138x138_S_d0_1 h_S_) main_v26 main_c_9
  let main_v28 : IVec S_ 1 := andi main_v23 main_v27
  let main_v29 : FVec F S138 .f32 := Host.absf main_arg7
  let main_cst_10 : FVec F S_ .f32 := constant S_ .f32 0x7F800000#32
  let main_v30 : FVec F S138 .f32 := broadcastInDim S138 ![] bcast_S_S138 main_cst_10
  let main_v31 : IVec S138 1 := cmpf .olt main_v29 main_v30
  let main_c_11 : IVec S_ 1 := constantI S_ 1 1#1
  let main_v32 : IVec S_ 1 := (fun x v => Host.reduce IntOp.andi x v reducesTo_S138_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S327680x79 .f32) (main_arg1 : IVec S2x1310720 32) (main_arg2 : FVec F S79x138 .f32) (main_arg3 : FVec F S138 .f32) (main_arg4 : FVec F S79x138 .f32) (main_arg5 : FVec F S138 .f32) (main_arg6 : FVec F S138x138 .f32) (main_arg7 : FVec F S138 .f32) (main_arg8 : FVec F S138x138 .f32) (main_arg9 : FVec F S138 .f32) (main_arg10 : FVec F S138x138 .f32) (main_arg11 : FVec F S138 .f32) (main_arg12 : FVec F S138x138 .f32) (main_arg13 : FVec F S138 .f32) (main_arg14 : FVec F S138x138 .f32) (main_arg15 : FVec F S138 .f32) (main_arg16 : FVec F S138x138 .f32) (main_arg17 : FVec F S138 .f32) (main_arg18 : FVec F S138x138 .f32) (main_arg19 : FVec F S138 .f32) (main_arg20 : FVec F S138x128 .f32) (main_arg21 : FVec F S128 .f32) (main_arg22 : FVec F S138x128 .f32) (main_arg23 : FVec F S128 .f32) (main_arg24 : FVec F S128x128 .f32) (main_arg25 : FVec F S128 .f32) : IVec S_ 1 :=
  let main_v0 : FVec F S327680x79 .f32 := Host.absf main_arg0
  let main_cst : FVec F S_ .f32 := constant S_ .f32 0x7F800000#32
  let main_v1 : FVec F S327680x79 .f32 := broadcastInDim S327680x79 ![] bcast_S_S327680x79 main_cst
  let main_v2 : IVec S327680x79 1 := cmpf .olt main_v0 main_v1
  let main_c : IVec S_ 1 := constantI S_ 1 1#1
  let main_v3 : IVec S_ 1 := (fun x v => Host.reduce IntOp.andi x v reducesTo_S327680x79_S_d0_1 h_S_) main_v2 main_c
  let main_v4 : FVec F S79x138 .f32 := Host.absf main_arg2
  let main_cst_0 : FVec F S_ .f32 := constant S_ .f32 0x7F800000#32
  let main_v5 : FVec F S79x138 .f32 := broadcastInDim S79x138 ![] bcast_S_S79x138 main_cst_0
  let main_v6 : IVec S79x138 1 := cmpf .olt main_v4 main_v5
  let main_c_1 : IVec S_ 1 := constantI S_ 1 1#1
  let main_v7 : IVec S_ 1 := (fun x v => Host.reduce IntOp.andi x v reducesTo_S79x138_S_d0_1 h_S_) main_v6 main_c_1
  let main_v8 : IVec S_ 1 := andi main_v3 main_v7
  let main_v9 : FVec F S138 .f32 := Host.absf main_arg3
  let main_cst_2 : FVec F S_ .f32 := constant S_ .f32 0x7F800000#32
  let main_v10 : FVec F S138 .f32 := broadcastInDim S138 ![] bcast_S_S138 main_cst_2
  let main_v11 : IVec S138 1 := cmpf .olt main_v9 main_v10
  let main_c_3 : IVec S_ 1 := constantI S_ 1 1#1
  let main_v12 : IVec S_ 1 := (fun x v => Host.reduce IntOp.andi x v reducesTo_S138_S_d0 h_S_) main_v11 main_c_3
  let main_v13 : IVec S_ 1 := andi main_v8 main_v12
  let main_v14 : FVec F S79x138 .f32 := Host.absf main_arg4
  let main_cst_4 : FVec F S_ .f32 := constant S_ .f32 0x7F800000#32
  let main_v15 : FVec F S79x138 .f32 := broadcastInDim S79x138 ![] bcast_S_S79x138 main_cst_4
  let main_v16 : IVec S79x138 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S327680x79 : Shape := ⟨2, ![327680, 79]⟩
abbrev S2x1310720 : Shape := ⟨2, ![2, 1310720]⟩
abbrev S79x138 : Shape := ⟨2, ![79, 138]⟩
abbrev S138 : Shape := ⟨1, ![138]⟩
abbrev S138x138 : Shape := ⟨2, ![138, 138]⟩
abbrev S138x128 : Shape := ⟨2, ![138, 128]⟩
abbrev S128 : Shape := ⟨1, ![128]⟩
abbrev S128x128 : Shape := ⟨2, ![128, 128]⟩
abbrev S1x1310720 : Shape := ⟨2, ![1, 1310720]⟩
abbrev S1310720 : Shape := ⟨1, ![1310720]⟩
abbrev S_ : Shape := ⟨0, ![]⟩
abbrev S1310720x1 : Shape := ⟨2, ![1310720, 1]⟩
abbrev S1310720x79 : Shape := ⟨2, ![1310720, 79]⟩
abbrev S1x138 : Shape := ⟨2, ![1, 138]⟩
abbrev S327680x138 : Shape := ⟨2, ![327680, 138]⟩
abbrev S4096x79 : Shape := ⟨2, ![4096, 79]⟩
abbrev S4096x138 : Shape := ⟨2, ![4096, 138]⟩
abbrev S1310720x138 : Shape := ⟨2, ![1310720, 138]⟩
abbrev S1x128 : Shape := ⟨2, ![1, 128]⟩
abbrev S327680x128 : Shape := ⟨2, ![327680, 128]⟩
abbrev S4096x128 : Shape := ⟨2, ![4096, 128]⟩
abbrev S8192x40x128 : Shape := ⟨3, ![8192, 40, 128]⟩
abbrev S8192x45x128 : Shape := ⟨3, ![8192, 45, 128]⟩

abbrev nBuf : Space → Nat
  | .hbm => 102
  | .vmem => 48
  | .smem => 0
  | _ => 0

abbrev bufTy : (tb : Table) → Fin (tcTables nBuf tb) → BufTy
  | .hbm, ⟨0, _⟩ => ⟨S327680x79, .f32⟩
  | .hbm, ⟨1, _⟩ => ⟨S2x1310720, .i32⟩
  | .hbm, ⟨2, _⟩ => ⟨S79x138, .f32⟩
  | .hbm, ⟨3, _⟩ => ⟨S138, .f32⟩
  | .hbm, ⟨4, _⟩ => ⟨S79x138, .f32⟩
  | .hbm, ⟨5, _⟩ => ⟨S138, .f32⟩
  | .hbm, ⟨6, _⟩ => ⟨S138x138, .f32⟩
  | .hbm, ⟨7, _⟩ => ⟨S138, .f32⟩
  | .hbm, ⟨8, _⟩ => ⟨S138x138, .f32⟩
  | .hbm, ⟨9, _⟩ => ⟨S138, .f32⟩
  | .hbm, ⟨10, _⟩ => ⟨S138x138, .f32⟩
  | .hbm, ⟨11, _⟩ => ⟨S138, .f32⟩
  | .hbm, ⟨12, _⟩ => ⟨S138x138, .f32⟩
  | .hbm, ⟨13, _⟩ => ⟨S138, .f32⟩
  | .hbm, ⟨14, _⟩ => ⟨S138x138, .f32⟩
  | .hbm, ⟨15, _⟩ => ⟨S138, .f32⟩
  | .hbm, ⟨16, _⟩ => ⟨S138x138, .f32⟩
  | .hbm, ⟨17, _⟩ => ⟨S138, .f32⟩
  | .hbm, ⟨18, _⟩ => ⟨S138x138, .f32⟩
  | .hbm, ⟨19, _⟩ => ⟨S138, .f32⟩
  | .hbm, ⟨20, _⟩ => ⟨S138x128, .f32⟩
  | .hbm, ⟨21, _⟩ => ⟨S128, .f32⟩
  | .hbm, ⟨22, _⟩ => ⟨S138x128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S1x1310720, .i32⟩
  | .hbm, ⟨27, _⟩ => ⟨S1310720, .i32⟩
  | .hbm, ⟨28, _⟩ => ⟨S1x1310720, .i32⟩
  | .hbm, ⟨29, _⟩ => ⟨S1310720, .i32⟩
  | .hbm, ⟨30, _⟩ => ⟨S_, .i32⟩
  | .hbm, ⟨31, _⟩ => ⟨S1310720, .i32⟩
  | .hbm, ⟨32, _⟩ => ⟨S1310720, .i1⟩
  | .hbm, ⟨33, _⟩ => ⟨S_, .i32⟩
  | .hbm, ⟨34, _⟩ => ⟨S1310720, .i32⟩
  | .hbm, ⟨35, _⟩ => ⟨S1310720, .i32⟩
  | .hbm, ⟨36, _⟩ => ⟨S1310720, .i32⟩
  | .hbm, ⟨37, _⟩ => ⟨S1310720x1, .i32⟩
  | .hbm, ⟨38, _⟩ => ⟨S1310720x79, .f32⟩
  | .hbm, ⟨39, _⟩ => ⟨S_, .f32⟩
  | .hbm, ⟨40, _⟩ => ⟨S327680x79, .f32⟩
  | .hbm, ⟨41, _⟩ => ⟨S1310720x1, .i32⟩
  | .hbm, ⟨42, _⟩ => ⟨S327680x79, .f32⟩
  | .hbm, ⟨43, _⟩ => ⟨S1x138, .f32⟩
  | .hbm, ⟨44, _⟩ => ⟨S1x138, .f32⟩
  | .hbm, ⟨45, _⟩ => ⟨S1x138, .f32⟩
  | .hbm, ⟨46, _⟩ => ⟨S327680x138, .f32⟩
  | .hbm, ⟨47, _⟩ => ⟨S_, .i32⟩
  | .hbm, ⟨48, _⟩ => ⟨S1310720, .i32⟩
  | .hbm, ⟨49, _⟩ => ⟨S1310720, .i1⟩
  | .hbm, ⟨50, _⟩ => ⟨S_, .i32⟩
  | .hbm, ⟨51, _⟩ => ⟨S1310720, .i32⟩
  | .hbm, ⟨52, _⟩ => ⟨S1310720, .i32⟩
  | .hbm, ⟨53, _⟩ => ⟨S1310720, .i32⟩
  | .hbm, ⟨54, _⟩ => ⟨S1310720x1, .i32⟩
  | .hbm, ⟨55, _⟩ => ⟨S1310720x138, .f32⟩
  | .hbm, ⟨56, _⟩ => ⟨S_, .f32⟩
  | .hbm, ⟨57, _⟩ => ⟨S327680x138, .f32⟩
  | .hbm, ⟨58, _⟩ => ⟨S1310720x1, .i32⟩
  | .hbm, ⟨59, _⟩ => ⟨S327680x138, .f32⟩
  | .hbm, ⟨60, _⟩ => ⟨S1x138, .f32⟩
  | .hbm, ⟨61, _⟩ => ⟨S1x138, .f32⟩
  | .hbm, ⟨62, _⟩ => ⟨S1x138, .f32⟩
  | .hbm, ⟨63, _⟩ => ⟨S327680x138, .f32⟩
  | .hbm, ⟨64, _⟩ => ⟨S_, .i32⟩
  | .hbm, ⟨65, _⟩ => ⟨S1310720, .i32⟩
  | .hbm, ⟨66, _⟩ => ⟨S1310720, .i1⟩
  | .hbm, ⟨67, _⟩ => ⟨S_, .i32⟩
  | .hbm, ⟨68, _⟩ => ⟨S1310720, .i32⟩
  | .hbm, ⟨69, _⟩ => ⟨S1310720, .i32⟩
  | .hbm, ⟨70, _⟩ => ⟨S1310720, .i32⟩
  | .hbm, ⟨71, _⟩ => ⟨S1310720x1, .i32⟩
  | .hbm, ⟨72, _⟩ => ⟨S1310720x138, .f32⟩
  | .hbm, ⟨73, _⟩ => ⟨S_, .f32⟩
  | .hbm, ⟨74, _⟩ => ⟨S327680x138, .f32⟩
  | .hbm, ⟨75, _⟩ => ⟨S1310720x1, .i32⟩
  | .hbm, ⟨76, _⟩ => ⟨S327680x138, .f32⟩
  | .hbm, ⟨77, _⟩ => ⟨S1x138, .f32⟩
  | .hbm, ⟨78, _⟩ => ⟨S1x138, .f32⟩
  | .hbm, ⟨79, _⟩ => ⟨S1x138, .f32⟩
  | .hbm, ⟨80, _⟩ => ⟨S327680x138, .f32⟩
  | .hbm, ⟨81, _⟩ => ⟨S_, .i32⟩
  | .hbm, ⟨82, _⟩ => ⟨S1310720, .i32⟩
  | .hbm, ⟨83, _⟩ => ⟨S1310720, .i1⟩
  | .hbm, ⟨84, _⟩ => ⟨S_, .i32⟩
  | .hbm, ⟨85, _⟩ => ⟨S1310720, .i32⟩
  | .hbm, ⟨86, _⟩ => ⟨S1310720, .i32⟩
  | .hbm, ⟨87, _⟩ => ⟨S1310720, .i32⟩
  | .hbm, ⟨88, _⟩ => ⟨S1310720x1, .i32⟩
  | .hbm, ⟨89, _⟩ => ⟨S1310720x138, .f32⟩
  | .hbm, ⟨90, _⟩ => ⟨S_, .f32⟩
  | .hbm, ⟨91, _⟩ => ⟨S327680x138, .f32⟩
  | .hbm, ⟨92, _⟩ => ⟨S1310720x1, .i32⟩
  | .hbm, ⟨93, _⟩ => ⟨S327680x138, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S327680x128, .f32⟩
  | .hbm, ⟨98, _⟩ => ⟨S8192x40x128, .f32⟩
  | .hbm, ⟨99, _⟩ => ⟨S_, .i32⟩
  | .hbm, ⟨100, _⟩ => ⟨S_, .f32⟩
  | .hbm, ⟨101, _⟩ => ⟨S8192x45x128, .f32⟩
  | .local _ .vmem, ⟨0, _⟩ => ⟨S4096x79, .f32⟩
  | .local _ .vmem, ⟨1, _⟩ => ⟨S4096x79, .f32⟩
  | .local _ .vmem, ⟨2, _⟩ => ⟨S4096x79, .f32⟩
  | .local _ .vmem, ⟨3, _⟩ => ⟨S4096x79, .f32⟩
  | .local _ .vmem, ⟨4, _⟩ => ⟨S79x138, .f32⟩
  | .local _ .vmem, ⟨5, _⟩ => ⟨S1x138, .f32⟩
  | .local _ .vmem, ⟨6, _⟩ => ⟨S79x138, .f32⟩
  | .local _ .vmem, ⟨7, _⟩ => ⟨S1x138, .f32⟩
  | .local _ .vmem, ⟨8, _⟩ => ⟨S138x138, .f32⟩
  | .local _ .vmem, ⟨9, _⟩ => ⟨S1x138, .f32⟩
  | .local _ .vmem, ⟨10, _⟩ => ⟨S4096x138, .f32⟩
  | .local _ .vmem, ⟨11, _⟩ => ⟨S4096x138, .f32⟩
  | .local _ .vmem, ⟨12, _⟩ => ⟨S4096x138, .f32⟩
  | .local _ .vmem, ⟨13, _⟩ => ⟨S4096x138, .f32⟩
  | .local _ .vmem, ⟨14, _⟩ => ⟨S4096x138, .f32⟩
  | .local _ .vmem, ⟨15, _⟩ => ⟨S4096x138, .f32⟩
  | .local _ .vmem, ⟨16, _⟩ => ⟨S138x138, .f32⟩
  | .local _ .vmem, ⟨17, _⟩ => ⟨S1x138, .f32⟩
  | .local _ .vmem, ⟨18, _⟩ => ⟨S138x138, .f32⟩
  | .local _ .vmem, ⟨19, _⟩ => ⟨S1x138, .f32⟩
  | .local _ .vmem, ⟨20, _⟩ => ⟨S138x138, .f32⟩
  | .local _ .vmem, ⟨21, _⟩ => ⟨S1x138, .f32⟩
  | .local _ .vmem, ⟨22, _⟩ => ⟨S4096x138, .f32⟩
  | .local _ .vmem, ⟨23, _⟩ => ⟨S4096x138, .f32⟩
  | .local _ .vmem, ⟨24, _⟩ => ⟨S4096x138, .f32⟩
  | .local _ .vmem, ⟨25, _⟩ => ⟨S4096x138, .f32⟩
  | .local _ .vmem, ⟨26, _⟩ => ⟨S4096x138, .f32⟩
  | .local _ .vmem, ⟨27, _⟩ => ⟨S4096x138, .f32⟩
  | .local _ .vmem, ⟨28, _⟩ => ⟨S138x138, .f32⟩
  | .local _ .vmem, ⟨29, _⟩ => ⟨S1x138, .f32⟩
  | .local _ .vmem, ⟨30, _⟩ => ⟨S138x138, .f32⟩
  | .local _ .vmem, ⟨31, _⟩ => ⟨S1x138, .f32⟩
  | .local _ .vmem, ⟨32, _⟩ => ⟨S138x138, .f32⟩
  | .local _ .vmem, ⟨33, _⟩ => ⟨S1x138, .f32⟩
  | .local _ .vmem, ⟨34, _⟩ => ⟨S4096x138, .f32⟩
  | .local _ .vmem, ⟨35, _⟩ => ⟨S4096x138, .f32⟩
  | .local _ .vmem, ⟨36, _⟩ => ⟨S4096x138, .f32⟩
  | .local _ .vmem, ⟨37, _⟩ => ⟨S4096x138, .f32⟩
  | .local _ .vmem, ⟨38, _⟩ => ⟨S4096x138, .f32⟩
  | .local _ .vmem, ⟨39, _⟩ => ⟨S4096x138, .f32⟩
  | .local _ .vmem, ⟨40, _⟩ => ⟨S138x128, .f32⟩
  | .local _ .vmem, ⟨41, _⟩ => ⟨S1x128, .f32⟩
  | .local _ .vmem, ⟨42, _⟩ => ⟨S138x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S4096x128, .f32⟩
  | .local _ .vmem, ⟨47, _⟩ => ⟨S4096x128, .f32⟩
  | _, _ => ⟨S327680x79, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_1 : Ref sig .tc := ⟨.hbm, 47, rfl⟩
abbrev main_v18 : Ref sig .tc := ⟨.hbm, 48, rfl⟩
abbrev main_v19 : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_cst_3 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_4 : Ref sig .tc := ⟨.hbm, 64, rfl⟩
abbrev main_v32 : Ref sig .tc := ⟨.hbm, 65, rfl⟩
abbrev main_v33 : Ref sig .tc := ⟨.hbm, 66, rfl⟩
abbrev main_c_5 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_c_7 : Ref sig .tc := ⟨.hbm, 81, rfl⟩
abbrev main_v46 : Ref sig .tc := ⟨.hbm, 82, rfl⟩
abbrev main_v47 : Ref sig .tc := ⟨.hbm, 83, rfl⟩
abbrev main_c_8 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_9 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_10 : Ref sig .tc := ⟨.hbm, 99, rfl⟩
abbrev main_call0_v0 : Ref sig .tc := ⟨.hbm, 100, rfl⟩
abbrev main_v61 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg8_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem8_1 : DmaSem sig := 47

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x79 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x79 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S79x138 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x138 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S79x138 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x138 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S138x138 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x138 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x138 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x138 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x138 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S138x138 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x138 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S138x138 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x138 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S138x138 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x138 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096x138 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x138 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x138 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S138x138 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x138 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S138x138 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x138 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S138x138 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x138 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4096x138 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![80], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x138 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x138 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S138x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S138x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4096x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x1310720_S1x1310720_0_0 : S2x1310720.Slices ![0, 0] S1x1310720
  shapeCasts_S1x1310720_S1310720 : S1x1310720.ShapeCasts S1310720
  slices_S2x1310720_S1x1310720_1_0 : S2x1310720.Slices ![1, 0] S1x1310720
  bcast_S_S1310720 : S_.BroadcastsInDim S1310720 (![] : Fin 0 → Fin S1310720.rank)
  bcast_S1310720_S1310720x1_0 : S1310720.BroadcastsInDim S1310720x1 (![0] : Fin 1 → Fin S1310720x1.rank)
  bcast_S_S327680x79 : S_.BroadcastsInDim S327680x79 (![] : Fin 0 → Fin S327680x79.rank)
  shapeCasts_S138_S1x138 : S138.ShapeCasts S1x138
  inb_S4096x79_S4096x79_0_0 : ∀ a, (![0, 0] : Fin 2 → Nat) a + S4096x79.size a ≤ S4096x79.size a
  h_S4096x79 : 0 < S4096x79.numel
  shapeCasts_S4096x79_S4096x79 : S4096x79.ShapeCasts S4096x79
  bitsLt_bf16_f32 : FTy.bits .bf16 < FTy.bits .f32
  inb_S79x138_S79x138_0_0 : ∀ a, (![0, 0] : Fin 2 → Nat) a + S79x138.size a ≤ S79x138.size a
  h_S79x138 : 0 < S79x138.numel
  inb_S1x138_S1x138_0_0 : ∀ a, (![0, 0] : Fin 2 → Nat) a + S1x138.size a ≤ S1x138.size a
  h_S1x138 : 0 < S1x138.numel
  shapeCasts_S1x138_S1x138 : S1x138.ShapeCasts S1x138
  broadcasts_S1x138_S4096x138 : S1x138.Broadcasts S4096x138
  inb_S138x138_S138x138_0_0 : ∀ a, (![0, 0] : Fin 2 → Nat) a + S138x138.size a ≤ S138x138.size a
  h_S138x138 : 0 < S138x138.numel
  inb_S4096x138_S4096x138_0_0 : ∀ a, (![0, 0] : Fin 2 → Nat) a + S4096x138.size a ≤ S4096x138.size a
  h_S4096x138 : 0 < S4096x138.numel
  bcast_S_S327680x138 : S_.BroadcastsInDim S327680x138 (![] : Fin 0 → Fin S327680x138.rank)
  shapeCasts_S4096x138_S4096x138 : S4096x138.ShapeCasts S4096x138
  shapeCasts_S128_S1x128 : S128.ShapeCasts S1x128
  inb_S138x128_S138x128_0_0 : ∀ a, (![0, 0] : Fin 2 → Nat) a + S138x128.size a ≤ S138x128.size a
  h_S138x128 : 0 < S138x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  shapeCasts_S327680x128_S8192x40x128 : S327680x128.ShapeCasts S8192x40x128
  pads_S8192x40x128_S8192x45x128_000_050_000 : S8192x40x128.Pads (![0, 0, 0] : Fin 3 → Nat) ![0, 5, 0] ![0, 0, 0] S8192x45x128
  h_S_ : 0 < S_.numel
  gather_S327680x79_S1310720x1_S1310720x79_1_0_n_n_0_1_179_wf : GatherDims.WF S327680x79 S1310720x1 S1310720x79 [1] [0] [] [0] [] 1 ![1, 79]
  scatter_S327680x79_S1310720x1_S1310720x79_1_0_0_1_wf : ScatterDims.WF S327680x79 S1310720x1 S1310720x79 [1] [0] [0] 1
  dot_S4096x79_S79x138_S4096x138_1_0_0_1_n_n_wf : DotDims.WF S4096x79 S79x138 S4096x138 [1] [0] [0] [1] [] []
  dot_S4096x138_S138x138_S4096x138_1_0_0_1_n_n_wf : DotDims.WF S4096x138 S138x138 S4096x138 [1] [0] [0] [1] [] []
  gather_S327680x138_S1310720x1_S1310720x138_1_0_n_n_0_1_1138_wf : GatherDims.WF S327680x138 S1310720x1 S1310720x138 [1] [0] [] [0] [] 1 ![1, 138]
  scatter_S327680x138_S1310720x1_S1310720x138_1_0_0_1_wf : ScatterDims.WF S327680x138 S1310720x1 S1310720x138 [1] [0] [0] 1
  dot_S4096x138_S138x128_S4096x128_1_0_0_1_n_n_wf : DotDims.WF S4096x138 S138x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x79.size a ≤ S327680x79.size a
  hwx0_0 : ∀ i : grid0.Coords, EltTy.bits .f32 = 32 ∨ (Rect.block (s := S327680x79) S4096x79.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x79.size a ≤ S327680x79.size a
  hwx0_1 : ∀ i : grid0.Coords, EltTy.bits .f32 = 32 ∨ (Rect.block (s := S327680x79) S4096x79.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S79x138.size a ≤ S79x138.size a
  hwx0_2 : ∀ i : grid0.Coords, EltTy.bits .f32 = 32 ∨ (Rect.block (s := S79x138) S79x138.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x138.size a ≤ S1x138.size a
  hwx0_3 : ∀ i : grid0.Coords, EltTy.bits .f32 = 32 ∨ (Rect.block (s := S1x138) S1x138.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S79x138.size a ≤ S79x138.size a
  hwx0_4 : ∀ i : grid0.Coords, EltTy.bits .f32 = 32 ∨ (Rect.block (s := S79x138) S79x138.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x138.size a ≤ S1x138.size a
  hwx0_5 : ∀ i : grid0.Coords, EltTy.bits .f32 = 32 ∨ (Rect.block (s := S1x138) S1x138.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S138x138.size a ≤ S138x138.size a
  hwx0_6 : ∀ i : grid0.Coords, EltTy.bits .f32 = 32 ∨ (Rect.block (s := S138x138) S138x138.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x138.size a ≤ S1x138.size a
  hwx0_7 : ∀ i : grid0.Coords, EltTy.bits .f32 = 32 ∨ (Rect.block (s := S1x138) S1x138.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x138.size a ≤ S327680x138.size a
  hwx0_8 : ∀ i : grid0.Coords, EltTy.bits .f32 = 32 ∨ (Rect.block (s := S327680x138) S4096x138.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x138.size a ≤ S327680x138.size a
  hwx1_0 : ∀ i : grid1.Coords, EltTy.bits .f32 = 32 ∨ (Rect.block (s := S327680x138) S4096x138.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x138.size a ≤ S327680x138.size a
  hwx1_1 : ∀ i : grid1.Coords, EltTy.bits .f32 = 32 ∨ (Rect.block (s := S327680x138) S4096x138.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S138x138.size a ≤ S138x138.size a
  hwx1_2 : ∀ i : grid1.Coords, EltTy.bits .f32 = 32 ∨ (Rect.block (s := S138x138) S138x138.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x138.size a ≤ S1x138.size a
  hwx1_3 : ∀ i : grid1.Coords, EltTy.bits .f32 = 32 ∨ (Rect.block (s := S1x138) S1x138.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S138x138.size a ≤ S138x138.size a
  hwx1_4 : ∀ i : grid1.Coords, EltTy.bits .f32 = 32 ∨ (Rect.block (s := S138x138) S138x138.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x138.size a ≤ S1x138.size a
  hwx1_5 : ∀ i : grid1.Coords, EltTy.bits .f32 = 32 ∨ (Rect.block (s := S1x138) S1x138.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S138x138.size a ≤ S138x138.size a
  hwx1_6 : ∀ i : grid1.Coords, EltTy.bits .f32 = 32 ∨ (Rect.block (s := S138x138) S138x138.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x138.size a ≤ S1x138.size a
  hwx1_7 : ∀ i : grid1.Coords, EltTy.bits .f32 = 32 ∨ (Rect.block (s := S1x138) S1x138.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096x138.size a ≤ S327680x138.size a
  hwx1_8 : ∀ i : grid1.Coords, EltTy.bits .f32 = 32 ∨ (Rect.block (s := S327680x138) S4096x138.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x138.size a ≤ S327680x138.size a
  hwx2_0 : ∀ i : grid2.Coords, EltTy.bits .f32 = 32 ∨ (Rect.block (s := S327680x138) S4096x138.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x138.size a ≤ S327680x138.size a
  hwx2_1 : ∀ i : grid2.Coords, EltTy.bits .f32 = 32 ∨ (Rect.block (s := S327680x138) S4096x138.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S138x138.size a ≤ S138x138.size a
  hwx2_2 : ∀ i : grid2.Coords, EltTy.bits .f32 = 32 ∨ (Rect.block (s := S138x138) S138x138.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x138.size a ≤ S1x138.size a
  hwx2_3 : ∀ i : grid2.Coords, EltTy.bits .f32 = 32 ∨ (Rect.block (s := S1x138) S1x138.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S138x138.size a ≤ S138x138.size a
  hwx2_4 : ∀ i : grid2.Coords, EltTy.bits .f32 = 32 ∨ (Rect.block (s := S138x138) S138x138.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x138.size a ≤ S1x138.size a
  hwx2_5 : ∀ i : grid2.Coords, EltTy.bits .f32 = 32 ∨ (Rect.block (s := S1x138) S1x138.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S138x138.size a ≤ S138x138.size a
  hwx2_6 : ∀ i : grid2.Coords, EltTy.bits .f32 = 32 ∨ (Rect.block (s := S138x138) S138x138.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x138.size a ≤ S1x138.size a
  hwx2_7 : ∀ i : grid2.Coords, EltTy.bits .f32 = 32 ∨ (Rect.block (s := S1x138) S1x138.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x138.size a ≤ S327680x138.size a
  hwx2_8 : ∀ i : grid2.Coords, EltTy.bits .f32 = 32 ∨ (Rect.block (s := S327680x138) S4096x138.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x138.size a ≤ S327680x138.size a
  hwx3_0 : ∀ i : grid3.Coords, EltTy.bits .f32 = 32 ∨ (Rect.block (s := S327680x138) S4096x138.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x138.size a ≤ S327680x138.size a
  hwx3_1 : ∀ i : grid3.Coords, EltTy.bits .f32 = 32 ∨ (Rect.block (s := S327680x138) S4096x138.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S138x128.size a ≤ S138x128.size a
  hwx3_2 : ∀ i : grid3.Coords, EltTy.bits .f32 = 32 ∨ (Rect.block (s := S138x128) S138x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S138x128.size a ≤ S138x128.size a
  hwx3_4 : ∀ i : grid3.Coords, EltTy.bits .f32 = 32 ∨ (Rect.block (s := S138x128) S138x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4096x128.size a ≤ S327680x128.size a
  hwx3_8 : ∀ i : grid3.Coords, EltTy.bits .f32 = 32 ∨ (Rect.block (s := S327680x128) S4096x128.size (cc3_transform_8 i) (hinb3_8 i)).WholeWords (EltTy.packing .f32)

variable [Facts₀]

def gather_S327680x79_S1310720x1_S1310720x79_1_0_n_n_0_1_179 : GatherDims S327680x79 S1310720x1 S1310720x79 where
  offsetDims := [1]
  collapsedSliceDims := [0]
  operandBatchingDims := []
  startIndicesBatchingDims := []
  startIndexMap := [0]
  indexVectorDim := 1
  sliceSizes := ![1, 79]
  wf := gather_S327680x79_S1310720x1_S1310720x79_1_0_n_n_0_1_179_wf
def scatter_S327680x79_S1310720x1_S1310720x79_1_0_0_1 : ScatterDims S327680x79 S1310720x1 S1310720x79 where
  updateWindowDims := [1]
  insertedWindowDims := [0]
  scatterDimsToOperandDims := [0]
  indexVectorDim := 1
  wf := scatter_S327680x79_S1310720x1_S1310720x79_1_0_0_1_wf
def dot_S4096x79_S79x138_S4096x138_1_0_0_1_n_n : DotDims S4096x79 S79x138 S4096x138 where
  lhsContracting := [1]
  rhsContracting := [0]
  lhsNonContracting := [0]
  rhsNonContracting := [1]
  lhsBatch := []
  rhsBatch := []
  wf := dot_S4096x79_S79x138_S4096x138_1_0_0_1_n_n_wf
def dot_S4096x138_S138x138_S4096x138_1_0_0_1_n_n : DotDims S4096x138 S138x138 S4096x138 where
  lhsContracting := [1]
  rhsContracting := [0]
  lhsNonContracting := [0]
  rhsNonContracting := [1]
  lhsBatch := []
  rhsBatch := []
  wf := dot_S4096x138_S138x138_S4096x138_1_0_0_1_n_n_wf
def gather_S327680x138_S1310720x1_S1310720x138_1_0_n_n_0_1_1138 : GatherDims S327680x138 S1310720x1 S1310720x138 where
  offsetDims := [1]
  collapsedSliceDims := [0]
  operandBatchingDims := []
  startIndicesBatchingDims := []
  startIndexMap := [0]
  indexVectorDim := 1
  sliceSizes := ![1, 138]
  wf := gather_S327680x138_S1310720x1_S1310720x138_1_0_n_n_0_1_1138_wf
def scatter_S327680x138_S1310720x1_S1310720x138_1_0_0_1 : ScatterDims S327680x138 S1310720x1 S1310720x138 where
  updateWindowDims := [1]
  insertedWindowDims := [0]
  scatterDimsToOperandDims := [0]
  indexVectorDim := 1
  wf := scatter_S327680x138_S1310720x1_S1310720x138_1_0_0_1_wf
def dot_S4096x138_S138x128_S4096x128_1_0_0_1_n_n : DotDims S4096x138 S138x128 S4096x128 where
  lhsContracting := [1]
  rhsContracting := [0]
  lhsNonContracting := [0]
  rhsNonContracting := [1]
  lhsBatch := []
  rhsBatch := []
  wf := dot_S4096x138_S138x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x79.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x79.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S79x138.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x138.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S79x138.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x138.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S138x138.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x138.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S4096x138.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v17) S4096x138.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x138.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S138x138.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x138.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S138x138.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S1x138.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S138x138.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v30) S1x138.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v31) S4096x138.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v31) S4096x138.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S4096x138.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S138x138.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x138.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S138x138.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S1x138.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg18) S138x138.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S1x138.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S4096x138.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v45) S4096x138.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S4096x138.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg20) S138x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg22) S138x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg24) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S4096x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S327680x79 : Shape := ⟨2, ![327680, 79]⟩
abbrev S2x1310720 : Shape := ⟨2, ![2, 1310720]⟩
abbrev S79x138 : Shape := ⟨2, ![79, 138]⟩
abbrev S138 : Shape := ⟨1, ![138]⟩
abbrev S138x138 : Shape := ⟨2, ![138, 138]⟩
abbrev S138x128 : Shape := ⟨2, ![138, 128]⟩
abbrev S128 : Shape := ⟨1, ![128]⟩
abbrev S128x128 : Shape := ⟨2, ![128, 128]⟩
abbrev S1x1310720 : Shape := ⟨2, ![1, 1310720]⟩
abbrev S1310720 : Shape := ⟨1, ![1310720]⟩
abbrev S327680x138 : Shape := ⟨2, ![327680, 138]⟩
abbrev S1x138 : Shape := ⟨2, ![1, 138]⟩
abbrev S_ : Shape := ⟨0, ![]⟩
abbrev S1310720x1 : Shape := ⟨2, ![1310720, 1]⟩
abbrev S1310720x79 : Shape := ⟨2, ![1310720, 79]⟩
abbrev S1310720x138 : Shape := ⟨2, ![1310720, 138]⟩
abbrev S327680x128 : Shape := ⟨2, ![327680, 128]⟩
abbrev S1x128 : Shape := ⟨2, ![1, 128]⟩
abbrev S8192x40x128 : Shape := ⟨3, ![8192, 40, 128]⟩
abbrev S8192x45x128 : Shape := ⟨3, ![8192, 45, 128]⟩

abbrev nBuf : Space → Nat
  | .hbm => 154
  | .vmem => 0
  | .smem => 0
  | _ => 0

abbrev hbmTy0_0 (i : Nat) : BufTy := match i % 128 with
  | 0 => ⟨S327680x79, .f32⟩
  | 1 => ⟨S2x1310720, .i32⟩
  | 2 => ⟨S79x138, .f32⟩
  | 3 => ⟨S138, .f32⟩
  | 4 => ⟨S79x138, .f32⟩
  | 5 => ⟨S138, .f32⟩
  | 6 => ⟨S138x138, .f32⟩
  | 7 => ⟨S138, .f32⟩
  | 8 => ⟨S138x138, .f32⟩
  | 9 => ⟨S138, .f32⟩
  | 10 => ⟨S138x138, .f32⟩
  | 11 => ⟨S138, .f32⟩
  | 12 => ⟨S138x138, .f32⟩
  | 13 => ⟨S138, .f32⟩
  | 14 => ⟨S138x138, .f32⟩
  | 15 => ⟨S138, .f32⟩
  | 16 => ⟨S138x138, .f32⟩
  | 17 => ⟨S138, .f32⟩
  | 18 => ⟨S138x138, .f32⟩
  | 19 => ⟨S138, .f32⟩
  | 20 => ⟨S138x128, .f32⟩
  | 21 => ⟨S128, .f32⟩
  | 22 => ⟨S138x128, .f32⟩
  | 23 => ⟨S128, .f32⟩
  | 24 => ⟨S128x128, .f32⟩
  | 25 => ⟨S128, .f32⟩
  | 26 => ⟨S1x1310720, .i32⟩
  | 27 => ⟨S1310720, .i32⟩
  | 28 => ⟨S1x1310720, .i32⟩
  | 29 => ⟨S1310720, .i32⟩
  | 30 => ⟨S327680x138, .f32⟩
  | 31 => ⟨S1x138, .f32⟩
  | 32 => ⟨S327680x138, .f32⟩
  | 33 => ⟨S327680x138, .f32⟩
  | 34 => ⟨S_, .i32⟩
  | 35 => ⟨S1310720, .i32⟩
  | 36 => ⟨S1310720, .i1⟩
  | 37 => ⟨S_, .i32⟩
  | 38 => ⟨S1310720, .i32⟩
  | 39 => ⟨S1310720, .i32⟩
  | 40 => ⟨S1310720, .i32⟩
  | 41 => ⟨S1310720x1, .i32⟩
  | 42 => ⟨S1310720x79, .f32⟩
  | 43 => ⟨S_, .f32⟩
  | 44 => ⟨S327680x79, .f32⟩
  | 45 => ⟨S1310720x1, .i32⟩
  | 46 => ⟨S327680x79, .f32⟩
  | 47 => ⟨S327680x79, .f32⟩
  | 48 => ⟨S327680x138, .f32⟩
  | 49 => ⟨S1x138, .f32⟩
  | 50 => ⟨S327680x138, .f32⟩
  | 51 => ⟨S327680x138, .f32⟩
  | 52 => ⟨S_, .f32⟩
  | 53 => ⟨S327680x138, .f32⟩
  | 54 => ⟨S327680x138, .f32⟩
  | 55 => ⟨S327680x138, .f32⟩
  | 56 => ⟨S1x138, .f32⟩
  | 57 => ⟨S327680x138, .f32⟩
  | 58 => ⟨S327680x138, .f32⟩
  | 59 => ⟨S327680x138, .f32⟩
  | 60 => ⟨S327680x138, .f32⟩
  | 61 => ⟨S1x138, .f32⟩
  | 62 => ⟨S327680x138, .f32⟩
  | 63 => ⟨S327680x138, .f32⟩
  | 64 => ⟨S_, .i32⟩
  | 65 => ⟨S1310720, .i32⟩
  | 66 => ⟨S1310720, .i1⟩
  | 67 => ⟨S_, .i32⟩
  | 68 => ⟨S1310720, .i32⟩
  | 69 => ⟨S1310720, .i32⟩
  | 70 => ⟨S1310720, .i32⟩
  | 71 => ⟨S1310720x1, .i32⟩
  | 72 => ⟨S1310720x138, .f32⟩
  | 73 => ⟨S_, .f32⟩
  | 74 => ⟨S327680x138, .f32⟩
  | 75 => ⟨S1310720x1, .i32⟩
  | 76 => ⟨S327680x138, .f32⟩
  | 77 => ⟨S327680x138, .f32⟩
  | 78 => ⟨S327680x138, .f32⟩
  | 79 => ⟨S1x138, .f32⟩
  | 80 => ⟨S327680x138, .f32⟩
  | 81 => ⟨S327680x138, .f32⟩
  | 82 => ⟨S_, .f32⟩
  | 83 => ⟨S327680x138, .f32⟩
  | 84 => ⟨S327680x138, .f32⟩
  | 85 => ⟨S327680x138, .f32⟩
  | 86 => ⟨S1x138, .f32⟩
  | 87 => ⟨S327680x138, .f32⟩
  | 88 => ⟨S327680x138, .f32⟩
  | 89 => ⟨S327680x138, .f32⟩
  | 90 => ⟨S327680x138, .f32⟩
  | 91 => ⟨S1x138, .f32⟩
  | 92 => ⟨S327680x138, .f32⟩
  | 93 => ⟨S327680x138, .f32⟩
  | 94 => ⟨S_, .i32⟩
  | 95 => ⟨S1310720, .i32⟩
  | 96 => ⟨S1310720, .i1⟩
  | 97 => ⟨S_, .i32⟩
  | 98 => ⟨S1310720, .i32⟩
  | 99 => ⟨S1310720, .i32⟩
  | 100 => ⟨S1310720, .i32⟩
  | 101 => ⟨S1310720x1, .i32⟩
  | 102 => ⟨S1310720x138, .f32⟩
  | 103 => ⟨S_, .f32⟩
  | 104 => ⟨S327680x138, .f32⟩
  | 105 => ⟨S1310720x1, .i32⟩
  | 106 => ⟨S327680x138, .f32⟩
  | 107 => ⟨S327680x138, .f32⟩
  | 108 => ⟨S327680x138, .f32⟩
  | 109 => ⟨S1x138, .f32⟩
  | 110 => ⟨S327680x138, .f32⟩
  | 111 => ⟨S327680x138, .f32⟩
  | 112 => ⟨S_, .f32⟩
  | 113 => ⟨S327680x138, .f32⟩
  | 114 => ⟨S327680x138, .f32⟩
  | 115 => ⟨S327680x138, .f32⟩
  | 116 => ⟨S1x138, .f32⟩
  | 117 => ⟨S327680x138, .f32⟩
  | 118 => ⟨S327680x138, .f32⟩
  | 119 => ⟨S327680x138, .f32⟩
  | 120 => ⟨S327680x128, .f32⟩
  | 121 => ⟨S1x128, .f32⟩
  | 122 => ⟨S327680x128, .f32⟩
  | 123 => ⟨S327680x128, .f32⟩
  | 124 => ⟨S_, .i32⟩
  | 125 => ⟨S1310720, .i32⟩
  | 126 => ⟨S1310720, .i1⟩
  | 127 => ⟨S_, .i32⟩
  | _ => ⟨S327680x79, .f32⟩

abbrev hbmTy0_1 (i : Nat) : BufTy := match i % 128 with
  | 0 => ⟨S1310720, .i32⟩
  | 1 => ⟨S1310720, .i32⟩
  | 2 => ⟨S1310720, .i32⟩
  | 3 => ⟨S1310720x1, .i32⟩
  | 4 => ⟨S1310720x138, .f32⟩
  | 5 => ⟨S_, .f32⟩
  | 6 => ⟨S327680x138, .f32⟩
  | 7 => ⟨S1310720x1, .i32⟩
  | 8 => ⟨S327680x138, .f32⟩
  | 9 => ⟨S327680x138, .f32⟩
  | 10 => ⟨S327680x128, .f32⟩
  | 11 => ⟨S1x128, .f32⟩
  | 12 => ⟨S327680x128, .f32⟩
  | 13 => ⟨S327680x128, .f32⟩
  | 14 => ⟨S_, .f32⟩
  | 15 => ⟨S327680x128, .f32⟩
  | 16 => ⟨S327680x128, .f32⟩
  | 17 => ⟨S327680x128, .f32⟩
  | 18 => ⟨S1x128, .f32⟩
  | 19 => ⟨S327680x128, .f32⟩
  | 20 => ⟨S327680x128, .f32⟩
  | 21 => ⟨S327680x128, .f32⟩
  | 22 => ⟨S8192x40x128, .f32⟩
  | 23 => ⟨S_, .i32⟩
  | 24 => ⟨S_, .f32⟩
  | 25 => ⟨S8192x45x128, .f32⟩
  | _ => ⟨S327680x79, .f32⟩

abbrev hbmTy (i : Nat) : BufTy := match i / 128 with
  | 0 => hbmTy0_0 i
  | 1 => hbmTy0_1 i
  | _ => ⟨S327680x79, .f32⟩

abbrev bufTy : (tb : Table) → Fin (tcTables nBuf tb) → BufTy
  | .hbm, ⟨i, _⟩ => hbmTy i
  | _, _ => ⟨S327680x79, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call0_cst : Ref sig .tc := ⟨.hbm, 52, rfl⟩
abbrev main_call0_v0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_1 : Ref sig .tc := ⟨.hbm, 64, rfl⟩
abbrev main_v33 : Ref sig .tc := ⟨.hbm, 65, rfl⟩
abbrev main_v34 : Ref sig .tc := ⟨.hbm, 66, rfl⟩
abbrev main_c_2 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_3 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call1_cst : Ref sig .tc := ⟨.hbm, 82, rfl⟩
abbrev main_call1_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_4 : Ref sig .tc := ⟨.hbm, 94, rfl⟩
abbrev main_v58 : Ref sig .tc := ⟨.hbm, 95, rfl⟩
abbrev main_v59 : Ref sig .tc := ⟨.hbm, 96, rfl⟩
abbrev main_c_5 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_6 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call2_cst : Ref sig .tc := ⟨.hbm, 112, rfl⟩
abbrev main_call2_v0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_7 : Ref sig .tc := ⟨.hbm, 124, rfl⟩
abbrev main_v83 : Ref sig .tc := ⟨.hbm, 125, rfl⟩
abbrev main_v84 : Ref sig .tc := ⟨.hbm, 126, rfl⟩
abbrev main_c_8 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_9 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_call3_cst : Ref sig .tc := ⟨.hbm, 142, rfl⟩
abbrev main_call3_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_c_10 : Ref sig .tc := ⟨.hbm, 151, rfl⟩
abbrev main_call4_v0 : Ref sig .tc := ⟨.hbm, 152, rfl⟩
abbrev main_v105 : Ref sig .tc := ⟨.hbm, 153, rfl⟩

abbrev nD : Nat := 1
abbrev τ : Topo := Topo.v7x

variable {F : FTy → Type} [FloatOps F]

class Facts₀ : Prop where
  slices_S2x1310720_S1x1310720_0_0 : S2x1310720.Slices ![0, 0] S1x1310720
  shapeCasts_S1x1310720_S1310720 : S1x1310720.ShapeCasts S1310720
  slices_S2x1310720_S1x1310720_1_0 : S2x1310720.Slices ![1, 0] S1x1310720
  bcast_S138_S1x138_1 : S138.BroadcastsInDim S1x138 (![1] : Fin 1 → Fin S1x138.rank)
  bcast_S1x138_S327680x138_0_1 : S1x138.BroadcastsInDim S327680x138 (![0, 1] : Fin 2 → Fin S327680x138.rank)
  bcast_S_S1310720 : S_.BroadcastsInDim S1310720 (![] : Fin 0 → Fin S1310720.rank)
  bcast_S1310720_S1310720x1_0 : S1310720.BroadcastsInDim S1310720x1 (![0] : Fin 1 → Fin S1310720x1.rank)
  bcast_S_S327680x79 : S_.BroadcastsInDim S327680x79 (![] : Fin 0 → Fin S327680x79.rank)
  bcast_S_S327680x138 : S_.BroadcastsInDim S327680x138 (![] : Fin 0 → Fin S327680x138.rank)
  bcast_S128_S1x128_1 : S128.BroadcastsInDim S1x128 (![1] : Fin 1 → Fin S1x128.rank)
  bcast_S1x128_S327680x128_0_1 : S1x128.BroadcastsInDim S327680x128 (![0, 1] : Fin 2 → Fin S327680x128.rank)
  bcast_S_S327680x128 : S_.BroadcastsInDim S327680x128 (![] : Fin 0 → Fin S327680x128.rank)
  shapeCasts_S327680x128_S8192x40x128 : S327680x128.ShapeCasts S8192x40x128
  pads_S8192x40x128_S8192x45x128_000_050_000 : S8192x40x128.Pads (![0, 0, 0] : Fin 3 → Nat) ![0, 5, 0] ![0, 0, 0] S8192x45x128
  h_S_ : 0 < S_.numel
  dot_S327680x79_S79x138_S327680x138_1_0_0_1_n_n_wf : DotDims.WF S327680x79 S79x138 S327680x138 [1] [0] [0] [1] [] []
  gather_S327680x79_S1310720x1_S1310720x79_1_0_n_n_0_1_179_wf : GatherDims.WF S327680x79 S1310720x1 S1310720x79 [1] [0] [] [0] [] 1 ![1, 79]
  scatter_S327680x79_S1310720x1_S1310720x79_1_0_0_1_wf : ScatterDims.WF S327680x79 S1310720x1 S1310720x79 [1] [0] [0] 1
  dot_S327680x138_S138x138_S327680x138_1_0_0_1_n_n_wf : DotDims.WF S327680x138 S138x138 S327680x138 [1] [0] [0] [1] [] []
  gather_S327680x138_S1310720x1_S1310720x138_1_0_n_n_0_1_1138_wf : GatherDims.WF S327680x138 S1310720x1 S1310720x138 [1] [0] [] [0] [] 1 ![1, 138]
  scatter_S327680x138_S1310720x1_S1310720x138_1_0_0_1_wf : ScatterDims.WF S327680x138 S1310720x1 S1310720x138 [1] [0] [0] 1
  dot_S327680x138_S138x128_S327680x128_1_0_0_1_n_n_wf : DotDims.WF S327680x138 S138x128 S327680x128 [1] [0] [0] [1] [] []
  dot_S327680x128_S128x128_S327680x128_1_0_0_1_n_n_wf : DotDims.WF S327680x128 S128x128 S327680x128 [1] [0] [0] [1] [] []

variable [Facts₀]

def dot_S327680x79_S79x138_S327680x138_1_0_0_1_n_n : DotDims S327680x79 S79x138 S327680x138 where
  lhsContracting := [1]
  rhsContracting := [0]
  lhsNonContracting := [0]
  rhsNonContracting := [1]
  lhsBatch := []
  rhsBatch := []
  wf := dot_S327680x79_S79x138_S327680x138_1_0_0_1_n_n_wf
def gather_S327680x79_S1310720x1_S1310720x79_1_0_n_n_0_1_179 : GatherDims S327680x79 S1310720x1 S1310720x79 where
  offsetDims := [1]
  collapsedSliceDims := [0]
  operandBatchingDims := []
  startIndicesBatchingDims := []
  startIndexMap := [0]
  indexVectorDim := 1
  sliceSizes := ![1, 79]
  wf := gather_S327680x79_S1310720x1_S1310720x79_1_0_n_n_0_1_179_wf
def scatter_S327680x79_S1310720x1_S1310720x79_1_0_0_1 : ScatterDims S327680x79 S1310720x1 S1310720x79 where
  updateWindowDims := [1]
  insertedWindowDims := [0]
  scatterDimsToOperandDims := [0]
  indexVectorDim := 1
  wf := scatter_S327680x79_S1310720x1_S1310720x79_1_0_0_1_wf
def dot_S327680x138_S138x138_S327680x138_1_0_0_1_n_n : DotDims S327680x138 S138x138 S327680x138 where
  lhsContracting := [1]
  rhsContracting := [0]
  lhsNonContracting := [0]
  rhsNonContracting := [1]
  lhsBatch := []
  rhsBatch := []
  wf := dot_S327680x138_S138x138_S327680x138_1_0_0_1_n_n_wf
def gather_S327680x138_S1310720x1_S1310720x138_1_0_n_n_0_1_1138 : GatherDims S327680x138 S1310720x1 S1310720x138 where
  offsetDims := [1]
  collapsedSliceDims := [0]
  operandBatchingDims := []
  startIndicesBatchingDims := []
  startIndexMap := [0]
  indexVectorDim := 1
  sliceSizes := ![1, 138]
  wf := gather_S327680x138_S1310720x1_S1310720x138_1_0_n_n_0_1_1138_wf
def scatter_S327680x138_S1310720x1_S1310720x138_1_0_0_1 : ScatterDims S327680x138 S1310720x1 S1310720x138 where
  updateWindowDims := [1]
  insertedWindowDims := [0]
  scatterDimsToOperandDims := [0]
  indexVectorDim := 1
  wf := scatter_S327680x138_S1310720x1_S1310720x138_1_0_0_1_wf
def dot_S327680x138_S138x128_S327680x128_1_0_0_1_n_n : DotDims S327680x138 S138x128 S327680x128 where
  lhsContracting := [1]
  rhsContracting := [0]
  lhsNonContracting := [0]
  rhsNonContracting := [1]
  lhsBatch := []
  rhsBatch := []
  wf := dot_S327680x138_S138x128_S327680x128_1_0_0_1_n_n_wf
def dot_S327680x128_S128x128_S327680x128_1_0_0_1_n_n : DotDims S327680x128 S128x128 S327680x128 where
  lhsContracting := [1]
  rhsContracting := [0]
  lhsNonContracting := [0]
  rhsNonContracting := [1]
  lhsBatch := []
  rhsBatch := []
  wf := dot_S327680x128_S128x128_S327680x128_1_0_0_1_n_n_wf

class Facts : Prop extends Facts₀ where

variable [Facts]
-- ==== Proof.KRun.lean ====
/-
  The blocked program's run, with what every buffer holds at the end.

  The program is ten segments: a stretch of host operations, then a layer's blocked call, four times over, then two
  short stretches (the reshape and the padding). The contents of the buffers at each boundary are a fold through the
  segments from the launch memory; the fold's last value is what every execution ends with. This file states the run
  with that last value kept for EVERY buffer of the program (the argument arrays and the result among them), so that
  the result can be read off the fold afterwards.
-/
import proofs.«138013_j40029095198816_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer that outlives the calls ends at the
    last value of the fold through the ten segments. -/
theorem run_fold : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (mem_uc b hb))

end Cert.KernelIdeal.Net

end
-- ==== Proof.LibLineBufs.lean ====
/-
  General lemmas about a straight line of host operations whose written (or touched) buffers are listed.

  Each host operation writes the one buffer of the value it defines, so "this line leaves that buffer alone" is a fact
  about a list of references: if every operation's written buffers lie in a list `Wl`, no operation of the line writes a
  buffer outside `Wl`; the same for the buffers an operation touches (reads or writes). Membership in the list is then
  decided over references once, however long the line is.
-/
import Idealize.ShloMosaic.Lib.StableHlo.Run

noncomputable section

namespace Cert.LibLineBufs

open Idealize.ShloMosaic Idealize.ShloMosaic.StableHlo

variable {τ : Topo} {sig : RefSig} {Val : EltTy → Type}

/-- An operation of a line whose written buffers are among a list writes no buffer outside the list. -/
theorem not_mem_writes_of {ops : List (HloOp τ sig Val)} {Wl : List (Ref sig .tc)}
    (hW : ops.Forall fun op => op.writes ⊆ (Wl.map (Proc.devRef (τ := τ) .tc)).toFinset) {op : HloOp τ sig Val} (hop : op ∈ ops)
    {r : Ref sig .tc} (hr : r ∉ Wl) : Proc.devRef .tc r ∉ op.writes := fun h => by
  obtain ⟨y, hy, he⟩ := List.mem_map.mp (List.mem_toFinset.mp ((List.forall_iff_forall_mem.mp hW) op hop h))
  exact hr (Proc.devRef_injective _ he ▸ hy)

/-- An operation of a line whose touched buffers are among a list touches no buffer outside the list. -/
theorem not_mem_bufs_of {ops : List (HloOp τ sig Val)} {Bl : List (Ref sig .tc)}
    (hB : ops.Forall fun op => op.bufs ⊆ (Bl.map (Proc.devRef (τ := τ) .tc)).toFinset) {op : HloOp τ sig Val} (hop : op ∈ ops)
    {r : Ref sig .tc} (hr : r ∉ Bl) : Proc.devRef .tc r ∉ op.bufs := fun h => by
  obtain ⟨y, hy, he⟩ := List.mem_map.mp (List.mem_toFinset.mp ((List.forall_iff_forall_mem.mp hB) op hop h))
  exact hr (Proc.devRef_injective _ he ▸ hy)

end Cert.LibLineBufs

end
-- ==== Proof.LibDenseRow.lean ====
/-
  A dense layer read on one row, on the extended reals.

  A layer y = x · W + b applied to a batch of rows acts on each row by itself:

      y(r, j) = (∑ₖ x(r, k) · W(k, j)) + b(j).

  This file states that once, for a rows × columns contraction of any extents, in the two spellings a program can
  give it: a matrix product accumulated into a zero array and then a bias row broadcast down the rows, and a host
  contraction followed by a bias vector broadcast to a row and then down the rows. Both are `affine` of the row, of
  the weights read by coordinates, and of the bias read by its column. Nothing here needs finiteness: only the
  definitions of the operations on the extended reals are opened, no law of arithmetic is used.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibDenseRow

open Idealize.ShloMosaic Idealize.ShloMosaic.ValueIdx

/-- Column `j` of `x · W + b` for one row `x`. -/
def affine {K N : Nat} (x : Fin K → EReal) (W : Fin K → Fin N → EReal) (b : Fin N → EReal) (j : Fin N) : EReal :=
  (∑ k, x k * W k j) + b j

/-- The contraction of a rows × columns product at entry `(p, q)` runs over the one shared axis: it is the sum over
    `k` of the left operand at `(p, k)` times the right operand at `(k, q)`. -/
theorem plain_contraction (M K N : Nat) (l : (⟨2, ![M, K]⟩ : Shape).Idx → EReal) (r : (⟨2, ![K, N]⟩ : Shape).Idx → EReal)
    (p : Fin M) (q : Fin N) :
    ∑ c : (DotDims.plain M K N).contr.Idx,
        l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A matrix product accumulated into the zero array, at entry `(p, q)`. -/
theorem matmul_zero_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  (Ideal.matmul_constant_zero_apply (DotDims.plain M K N) prec X W (ix2 p q)).trans (plain_contraction M K N X W p q)

/-- A host contraction, at entry `(p, q)`. -/
theorem dotGeneral_apply (M K N : Nat) {φ₁ φ₂ : FTy} (prec : Option ContractPrecision)
    (X : FVec Ideal ⟨2, ![M, K]⟩ φ₁) (W : FVec Ideal ⟨2, ![K, N]⟩ φ₂) (p : Fin M) (q : Fin N) :
    Host.dotGeneral (DotDims.plain M K N) prec X W (ix2 p q) = ∑ k : Fin K, X (ix2 p k) * W (ix2 k q) :=
  (Ideal.dotGeneral_apply (DotDims.plain M K N) prec .single X W (ix2 p q)).trans (plain_contraction M K N X W p q)

/-- A bias row `[1, N]` broadcast down `M` rows reads its column. -/
theorem biasRow_apply {α : Type} (M N : Nat) (b : (⟨2, ![1, N]⟩ : Shape).Idx → α)
    (h : (⟨2, ![1, N]⟩ : Shape).Broadcasts ⟨2, ![M, N]⟩) (p : Fin M) (q : Fin N) :
    broadcastTo ⟨2, ![M, N]⟩ b h (ix2 p q) = b (ix2 0 q) :=
  broadcastTo_apply b h (ix2 p q) (ix2 0 q) (fun a => by
    match a with
    | ⟨0, _⟩ => rfl
    | ⟨1, _⟩ =>
      show q.val = if N = 1 then 0 else q.val
      split
      · have := q.isLt; omega
      · rfl)

/-- A bias vector `[N]` broadcast to a row `[1, N]` and then down `M` rows reads its entry. -/
theorem biasVec_apply {α : Type} (M N : Nat) (b : (⟨1, ![N]⟩ : Shape).Idx → α)
    (h₁ : (⟨1, ![N]⟩ : Shape).BroadcastsInDim ⟨2, ![1, N]⟩ ![1])
    (h₂ : (⟨2, ![1, N]⟩ : Shape).BroadcastsInDim ⟨2, ![M, N]⟩ ![0, 1]) (p : Fin M) (q : Fin N) :
    broadcastInDim ⟨2, ![M, N]⟩ ![0, 1] h₂ (broadcastInDim ⟨2, ![1, N]⟩ ![1] h₁ b) (ix2 p q) = b (ix1 q) := by
  rw [broadcastInDim_apply ![0, 1] h₂ _ (ix2 p q) (ix2 0 q) (fun a => by
    match a with
    | ⟨0, _⟩ => rfl
    | ⟨1, _⟩ =>
      show q.val = if N = 1 then 0 else q.val
      split
      · have := q.isLt; omega
      · rfl)]
  exact broadcastInDim_apply ![1] h₁ b (ix2 0 q) (ix1 q) (fun a => by
    match a with
    | ⟨0, _⟩ =>
      show q.val = if N = 1 then 0 else q.val
      split
      · have := q.isLt; omega
      · rfl)

end Cert.LibDenseRow

end
-- ==== Proof.LibGinRow.lean ====
/-
  One graph-isomorphism layer, read on one node.

  A layer takes the node features `x` (one row per node) and the summed neighbour features `a` (same shape) and
  returns, for node `p` and output feature `j`,

      (x_p · Wr + br)(j) + (relu((x_p + a_p) · W1 + b1) · W2 + b2)(j),

  where `relu(v) = max v 0` entry by entry. Every entry of the result depends on row `p` of `x` and of `a` only, and on
  the whole of the six parameter arrays. This file states that row formula once (`ginRow`) and shows that the two
  spellings a program can give the layer both read, at entry `(p, j)`, as `ginRow` of row `p`:
    * the blockwise spelling: three matrix products accumulated into zero arrays, the biases held as `[1, N]` rows and
      broadcast down the rows of the block, format changes around every product;
    * the whole-array spelling: three host contractions, the biases `[N]` vectors broadcast to a row and down the rows.
  On the extended reals a format change is the identity and both kinds of product are the plain sum over the shared
  axis, so the two spellings are the same sums in the same grouping: no law of arithmetic is used, hence no finiteness.
-/
import proofs.«138013_j40029095198816_1_alg».proof.Proof.LibDenseRow

noncomputable section

open scoped BigOperators

namespace Cert.GinRow

open Idealize.ShloMosaic Idealize.ShloMosaic.ValueIdx Cert.LibDenseRow

/-- The zero every rectifier compares against: the same float word in both spellings, never evaluated. -/
abbrev zero32 : EReal := (FloatOps.ofBits (F := Ideal) .f32 0x00000000#32 : Ideal .f32)

/-- Output feature `j` of the layer for one node: `x` its features, `a` the sum of its neighbours' features. -/
def ginRow {K N : Nat} (x a : Fin K → EReal) (Wr : Fin K → Fin N → EReal) (br : Fin N → EReal)
    (W1 : Fin K → Fin N → EReal) (b1 : Fin N → EReal) (W2 : Fin N → Fin N → EReal) (b2 : Fin N → EReal) (j : Fin N) : EReal :=
  affine x Wr br j + affine (fun k => max (affine (fun k' => x k' + a k') W1 b1 k) zero32) W2 b2 j

/-- The layer over all rows: entry `i` is `ginRow` of row `i 0` at feature `i 1`; the biases are given by their columns. -/
def ginRows (M K N : Nat) (X A : (⟨2, ![M, K]⟩ : Shape).Idx → EReal) (Wr : (⟨2, ![K, N]⟩ : Shape).Idx → EReal) (br : Fin N → EReal)
    (W1 : (⟨2, ![K, N]⟩ : Shape).Idx → EReal) (b1 : Fin N → EReal) (W2 : (⟨2, ![N, N]⟩ : Shape).Idx → EReal) (b2 : Fin N → EReal) :
    (⟨2, ![M, N]⟩ : Shape).Idx → EReal := fun i =>
  ginRow (fun k => X (ix2 (i 0) k)) (fun k => A (ix2 (i 0) k)) (fun k j => Wr (ix2 k j)) br
    (fun k j => W1 (ix2 k j)) b1 (fun k j => W2 (ix2 k j)) b2 (i 1)

theorem ginRows_apply (M K N : Nat) (X A Wr br W1 b1 W2 b2) (p : Fin M) (q : Fin N) :
    ginRows M K N X A Wr br W1 b1 W2 b2 (ix2 p q)
      = ginRow (fun k => X (ix2 p k)) (fun k => A (ix2 p k)) (fun k j => Wr (ix2 k j)) br
          (fun k j => W1 (ix2 k j)) b1 (fun k j => W2 (ix2 k j)) b2 q := rfl

/-- The blockwise spelling at entry `(r, q)` of a block of `M` rows (reshapes of a shape to itself already removed). -/
theorem block_apply (M K N : Nat) (hlt : FTy.bf16.bits < FTy.f32.bits)
    (hbb : (⟨2, ![1, N]⟩ : Shape).Broadcasts ⟨2, ![M, N]⟩)
    (x a : FVec Ideal ⟨2, ![M, K]⟩ .f32) (Wr : FVec Ideal ⟨2, ![K, N]⟩ .f32) (br : FVec Ideal ⟨2, ![1, N]⟩ .f32)
    (W1 : FVec Ideal ⟨2, ![K, N]⟩ .f32) (b1 : FVec Ideal ⟨2, ![1, N]⟩ .f32)
    (W2 : FVec Ideal ⟨2, ![N, N]⟩ .f32) (b2 : FVec Ideal ⟨2, ![1, N]⟩ .f32) (r : Fin M) (q : Fin N) :
    addf
        (addf (matmul (DotDims.plain M K N) none (truncf .bf16 x hlt) (truncf .bf16 Wr hlt) (constant ⟨2, ![M, N]⟩ .f32 0x00000000#32))
          (broadcastTo ⟨2, ![M, N]⟩ br hbb))
        (addf
          (matmul (DotDims.plain M N N) none
            (truncf .bf16
              (maximumf
                (addf (matmul (DotDims.plain M K N) none (truncf .bf16 (addf x a) hlt) (truncf .bf16 W1 hlt)
                    (constant ⟨2, ![M, N]⟩ .f32 0x00000000#32))
                  (broadcastTo ⟨2, ![M, N]⟩ b1 hbb))
                (broadcast ⟨2, ![M, N]⟩ (Scalar.ofBits (F := Ideal) .f32 0x00000000#32))) hlt)
            (truncf .bf16 W2 hlt) (constant ⟨2, ![M, N]⟩ .f32 0x00000000#32))
          (broadcastTo ⟨2, ![M, N]⟩ b2 hbb))
        (ix2 r q)
      = ginRow (fun k => x (ix2 r k)) (fun k => a (ix2 r k)) (fun k j => Wr (ix2 k j)) (fun j => br (ix2 0 j))
          (fun k j => W1 (ix2 k j)) (fun j => b1 (ix2 0 j)) (fun k j => W2 (ix2 k j)) (fun j => b2 (ix2 0 j)) q := by
  show (matmul (DotDims.plain M K N) none x Wr (constant ⟨2, ![M, N]⟩ .f32 0x00000000#32) (ix2 r q)
        + broadcastTo ⟨2, ![M, N]⟩ br hbb (ix2 r q))
      + (matmul (DotDims.plain M N N) none
            (fun i => max (matmul (DotDims.plain M K N) none (fun i' => x i' + a i') W1 (constant ⟨2, ![M, N]⟩ .f32 0x00000000#32) i
              + broadcastTo ⟨2, ![M, N]⟩ b1 hbb i) zero32)
            W2 (constant ⟨2, ![M, N]⟩ .f32 0x00000000#32) (ix2 r q)
          + broadcastTo ⟨2, ![M, N]⟩ b2 hbb (ix2 r q)) = _
  rw [matmul_zero_apply, matmul_zero_apply, biasRow_apply, biasRow_apply]
  simp only [matmul_zero_apply, biasRow_apply]
  rfl

/-- The whole-array spelling at entry `(p, q)`. -/
theorem host_apply (M K N : Nat)
    (h₁ : (⟨1, ![N]⟩ : Shape).BroadcastsInDim ⟨2, ![1, N]⟩ ![1])
    (h₂ : (⟨2, ![1, N]⟩ : Shape).BroadcastsInDim ⟨2, ![M, N]⟩ ![0, 1])
    (hz : (⟨0, ![]⟩ : Shape).BroadcastsInDim ⟨2, ![M, N]⟩ ![])
    (X A : FVec Ideal ⟨2, ![M, K]⟩ .f32) (Wr : FVec Ideal ⟨2, ![K, N]⟩ .f32) (br : FVec Ideal ⟨1, ![N]⟩ .f32)
    (W1 : FVec Ideal ⟨2, ![K, N]⟩ .f32) (b1 : FVec Ideal ⟨1, ![N]⟩ .f32)
    (W2 : FVec Ideal ⟨2, ![N, N]⟩ .f32) (b2 : FVec Ideal ⟨1, ![N]⟩ .f32) (p : Fin M) (q : Fin N) :
    addf
        (addf (Host.dotGeneral (DotDims.plain M K N) none X Wr)
          (broadcastInDim ⟨2, ![M, N]⟩ ![0, 1] h₂ (broadcastInDim ⟨2, ![1, N]⟩ ![1] h₁ br)))
        (addf
          (Host.dotGeneral (DotDims.plain M N N) none
            (maximumf
              (addf (Host.dotGeneral (DotDims.plain M K N) none (addf X A) W1)
                (broadcastInDim ⟨2, ![M, N]⟩ ![0, 1] h₂ (broadcastInDim ⟨2, ![1, N]⟩ ![1] h₁ b1)))
              (broadcastInDim ⟨2, ![M, N]⟩ ![] hz (constant ⟨0, ![]⟩ .f32 0x00000000#32)))
            W2)
          (broadcastInDim ⟨2, ![M, N]⟩ ![0, 1] h₂ (broadcastInDim ⟨2, ![1, N]⟩ ![1] h₁ b2)))
        (ix2 p q)
      = ginRow (fun k => X (ix2 p k)) (fun k => A (ix2 p k)) (fun k j => Wr (ix2 k j)) (fun j => br (ix1 j))
          (fun k j => W1 (ix2 k j)) (fun j => b1 (ix1 j)) (fun k j => W2 (ix2 k j)) (fun j => b2 (ix1 j)) q := by
  show (Host.dotGeneral (DotDims.plain M K N) none X Wr (ix2 p q)
        + broadcastInDim ⟨2, ![M, N]⟩ ![0, 1] h₂ (broadcastInDim ⟨2, ![1, N]⟩ ![1] h₁ br) (ix2 p q))
      + (Host.dotGeneral (DotDims.plain M N N) none
            (fun i => max (Host.dotGeneral (DotDims.plain M K N) none (fun i' => X i' + A i') W1 i
              + broadcastInDim ⟨2, ![M, N]⟩ ![0, 1] h₂ (broadcastInDim ⟨2, ![1, N]⟩ ![1] h₁ b1) i) zero32)
            W2 (ix2 p q)
          + broadcastInDim ⟨2, ![M, N]⟩ ![0, 1] h₂ (broadcastInDim ⟨2, ![1, N]⟩ ![1] h₁ b2) (ix2 p q)) = _
  rw [dotGeneral_apply, dotGeneral_apply, biasVec_apply, biasVec_apply]
  simp only [dotGeneral_apply]
  unfold ginRow affine
  refine congrArg₂ (· + ·) rfl (congrArg₂ (· + ·) (Finset.sum_congr rfl fun x _ => ?_) rfl)
  rw [biasVec_apply]

end Cert.GinRow

end
-- ==== Proof.NetSpec.lean ====
/-
  The four-layer network as one function of its arguments.

  Each layer is the row formula `ginRow` applied to every node: the node's own features, the sum of its neighbours'
  features (`agg`, a function of the whole feature array that this file leaves abstract), and the layer's six
  parameter arrays, the biases read entry by entry. The network is four layers in a row, widths 79 → 138 → 138 → 138 → 128;
  the first layer aggregates over 79 features, the other three over 138.
-/
import proofs.«138013_j40029095198816_1_alg».proof.Proof.LibGinRow

noncomputable section

namespace Cert.GinNet

open Idealize.ShloMosaic Idealize.ShloMosaic.ValueIdx Cert.GinRow

/-- Extended-real matrices and vectors of literal extents. -/
abbrev Mat (a b : Nat) : Type := (⟨2, ![a, b]⟩ : Shape).Idx → EReal
abbrev Vct (a : Nat) : Type := (⟨1, ![a]⟩ : Shape).Idx → EReal

/-- One layer over all 327680 nodes, the neighbour sums computed from the features by `agg`. -/
def layer (K N : Nat) (agg : Mat 327680 K → Mat 327680 K) (x : Mat 327680 K) (Wr : Mat K N) (br : Vct N) (Wa : Mat K N) (ba : Vct N)
    (Wb : Mat N N) (bb : Vct N) : Mat 327680 N :=
  ginRows 327680 K N x (agg x) Wr (fun q => br (ix1 q)) Wa (fun q => ba (ix1 q)) Wb (fun q => bb (ix1 q))

/-- The four layers in a row. -/
def net (aggA : Mat 327680 79 → Mat 327680 79) (aggB : Mat 327680 138 → Mat 327680 138) (x : Mat 327680 79)
    (Wr1 : Mat 79 138) (br1 : Vct 138) (Wa1 : Mat 79 138) (ba1 : Vct 138) (Wb1 : Mat 138 138) (bb1 : Vct 138)
    (Wr2 : Mat 138 138) (br2 : Vct 138) (Wa2 : Mat 138 138) (ba2 : Vct 138) (Wb2 : Mat 138 138) (bb2 : Vct 138)
    (Wr3 : Mat 138 138) (br3 : Vct 138) (Wa3 : Mat 138 138) (ba3 : Vct 138) (Wb3 : Mat 138 138) (bb3 : Vct 138)
    (Wr4 : Mat 138 128) (br4 : Vct 128) (Wa4 : Mat 138 128) (ba4 : Vct 128) (Wb4 : Mat 128 128) (bb4 : Vct 128) : Mat 327680 128 :=
  layer 138 128 aggB
    (layer 138 138 aggB
      (layer 138 138 aggB
        (layer 79 138 aggA x Wr1 br1 Wa1 ba1 Wb1 bb1)
        Wr2 br2 Wa2 ba2 Wb2 bb2)
      Wr3 br3 Wa3 ba3 Wb3 bb3)
    Wr4 br4 Wa4 ba4 Wb4 bb4

end Cert.GinNet

end
-- ==== Proof.Layer1.lean ====
/-
  Layer 1 of the network as the blocked call computes it: the whole output array as one function of the arrays
  the call finds.

  The call walks the `327680` nodes in 80 blocks of 4096 rows. At block `t` it is handed rows `4096 t … 4096 t + 4095` of
  the node features and of the summed neighbour features, and the six parameter arrays whole; it stores, at row `r` of
  the block and feature `q`, the row formula `ginRow` of row `r` of its two blocks. Row `r` of block `t` is node
  `4096 t + r`, so what block `t` writes back is rows `4096 t …` of the one array `ginRows` of the arrays found at entry; the
  80 blocks cover every node (node `p` lies in block `p / 4096`), so the output array ends equal to `ginRows` everywhere.
-/
import proofs.«138013_j40029095198816_1_alg».proof.Proof.Gen.KernelIdeal.Frame
import proofs.«138013_j40029095198816_1_alg».proof.Proof.LibGinRow

set_option maxRecDepth 16384

noncomputable section

open scoped BigOperators

namespace Cert.KernelIdeal.Layer1

open Cert.KernelIdeal Cert.KernelIdeal.Gen Idealize.ShloMosaic Idealize.ShloMosaic.TcCoe Idealize.ShloMosaic.ValueIdx
open Idealize.SL.Sem Cert.GinRow

variable (V : (c : Dev nD) → (b : Ref sig .tc) → Buf (Elt Ideal) ((c : Thread nD τ).loc b))

theorem zeroOffsets : (![0, 0] : Fin 2 → Nat) = fun _ => 0 := funext fun a => by fin_cases a <;> rfl

/-- The printed block maps, decided once over the 80 grid points: the features, the neighbour sums and the output move
    down the rows with the point; each parameter array is the one block `(0, 0)`. -/
theorem idx_facts : ∀ t : Fin cfg0.N, win0_0.index t 0 = t.val
    ∧ win0_0.index t 1 = 0
    ∧ win0_1.index t 0 = t.val
    ∧ win0_1.index t 1 = 0
    ∧ win0_2.index t 0 = 0
    ∧ win0_2.index t 1 = 0
    ∧ win0_3.index t 0 = 0
    ∧ win0_3.index t 1 = 0
    ∧ win0_4.index t 0 = 0
    ∧ win0_4.index t 1 = 0
    ∧ win0_5.index t 0 = 0
    ∧ win0_5.index t 1 = 0
    ∧ win0_6.index t 0 = 0
    ∧ win0_6.index t 1 = 0
    ∧ win0_7.index t 0 = 0
    ∧ win0_7.index t 1 = 0
    ∧ win0_8.index t 0 = t.val
    ∧ win0_8.index t 1 = 0 :=
  (by decide +kernel : ∀ t : Fin grid0.N, _)

/-- What the body stores at row `r`, feature `q` of its block: the row formula of row `r` of the loaded blocks. -/
theorem stored_apply (x0 x1 : Vec Ideal S4096x79 .f32) (x2 : Vec Ideal S79x138 .f32) (x3 : Vec Ideal S1x138 .f32) (x4 : Vec Ideal S79x138 .f32)
    (x5 : Vec Ideal S1x138 .f32) (x6 : Vec Ideal S138x138 .f32) (x7 : Vec Ideal S1x138 .f32) (r : Fin 4096) (q : Fin 138) :
    k0_pay1 x0 x1 x2 x3 x4 x5 x6 x7 (ix2 r q)
      = ginRow (fun k => x0 (ix2 r k)) (fun k => x1 (ix2 r k)) (fun k j => x2 (ix2 k j)) (fun j => x3 (ix2 0 j))
          (fun k j => x4 (ix2 k j)) (fun j => x5 (ix2 0 j)) (fun k j => x6 (ix2 k j)) (fun j => x7 (ix2 0 j)) q := by
  unfold k0_pay1
  simp only [shapeCast_self]
  exact block_apply 4096 79 138 _ _ x0 x1 x2 x3 x4 x5 x6 x7 r q

/-- Window 0's block at point `t` is rows `4096 t … 4096 t + 4095` of its array, all columns. -/
theorem blk0 (c : Dev nD) (t : Fin cfg0.N) (r : Fin 4096) (k : Fin 79) (p : Fin 327680) (hp : p.val = 4096 * t.val + r.val) :
    (iblk0 V c 0 t : Vec Ideal S4096x79 .f32) (ix2 r k) = (V c main_arg0 : S327680x79.Idx → EReal) (ix2 p k) := by
  obtain ⟨e00, e01, e10, e11, e20, e21, e30, e31, e40, e41, e50, e51, e60, e61, e70, e71, e80, e81⟩ := idx_facts t
  unfold iblk0
  rw [View.read_apply]
  show V c main_arg0 _ = V c main_arg0 (ix2 p k)
  refine congrArg _ (funext fun a => Fin.ext ?_)
  match a with
  | ⟨0, _⟩ => show win0_0.index t 0 * 4096 + 1 * r.val = p.val; rw [e00, hp]; omega
  | ⟨1, _⟩ => show win0_0.index t 1 * 79 + 1 * k.val = k.val; rw [e01]; omega

/-- Window 1's block at point `t` is rows `4096 t … 4096 t + 4095` of its array, all columns. -/
theorem blk1 (c : Dev nD) (t : Fin cfg0.N) (r : Fin 4096) (k : Fin 79) (p : Fin 327680) (hp : p.val = 4096 * t.val + r.val) :
    (iblk0 V c 1 t : Vec Ideal S4096x79 .f32) (ix2 r k) = (V c main_v13 : S327680x79.Idx → EReal) (ix2 p k) := by
  obtain ⟨e00, e01, e10, e11, e20, e21, e30, e31, e40, e41, e50, e51, e60, e61, e70, e71, e80, e81⟩ := idx_facts t
  unfold iblk0
  rw [View.read_apply]
  show V c main_v13 _ = V c main_v13 (ix2 p k)
  refine congrArg _ (funext fun a => Fin.ext ?_)
  match a with
  | ⟨0, _⟩ => show win0_1.index t 0 * 4096 + 1 * r.val = p.val; rw [e10, hp]; omega
  | ⟨1, _⟩ => show win0_1.index t 1 * 79 + 1 * k.val = k.val; rw [e11]; omega

/-- Window 2 is one block, the whole of its array: every point reads the array itself. -/
theorem blk2 (c : Dev nD) (t : Fin cfg0.N) :
    (iblk0 V c 2 t : Vec Ideal S79x138 .f32) = (V c main_arg2 : S79x138.Idx → EReal) := by
  obtain ⟨e00, e01, e10, e11, e20, e21, e30, e31, e40, e41, e50, e51, e60, e61, e70, e71, e80, e81⟩ := idx_facts t
  funext y
  unfold iblk0
  rw [View.read_apply]
  show V c main_arg2 _ = V c main_arg2 y
  refine congrArg _ (funext fun a => Fin.ext ?_)
  match a with
  | ⟨0, _⟩ => show win0_2.index t 0 * 79 + 1 * (y 0).val = (y 0).val; rw [e20]; omega
  | ⟨1, _⟩ => show win0_2.index t 1 * 138 + 1 * (y 1).val = (y 1).val; rw [e21]; omega

/-- Window 3 is one block, the whole of its array: every point reads the array itself. -/
theorem blk3 (c : Dev nD) (t : Fin cfg0.N) :
    (iblk0 V c 3 t : Vec Ideal S1x138 .f32) = (V c main_v14 : S1x138.Idx → EReal) := by
  obtain ⟨e00, e01, e10, e11, e20, e21, e30, e31, e40, e41, e50, e51, e60, e61, e70, e71, e80, e81⟩ := idx_facts t
  funext y
  unfold iblk0
  rw [View.read_apply]
  show V c main_v14 _ = V c main_v14 y
  refine congrArg _ (funext fun a => Fin.ext ?_)
  match a with
  | ⟨0, _⟩ => show win0_3.index t 0 * 1 + 1 * (y 0).val = (y 0).val; rw [e30]; omega
  | ⟨1, _⟩ => show win0_3.index t 1 * 138 + 1 * (y 1).val = (y 1).val; rw [e31]; omega

/-- Window 4 is one block, the whole of its array: every point reads the array itself. -/
theorem blk4 (c : Dev nD) (t : Fin cfg0.N) :
    (iblk0 V c 4 t : Vec Ideal S79x138 .f32) = (V c main_arg4 : S79x138.Idx → EReal) := by
  obtain ⟨e00, e01, e10, e11, e20, e21, e30, e31, e40, e41, e50, e51, e60, e61, e70, e71, e80, e81⟩ := idx_facts t
  funext y
  unfold iblk0
  rw [View.read_apply]
  show V c main_arg4 _ = V c main_arg4 y
  refine congrArg _ (funext fun a => Fin.ext ?_)
  match a with
  | ⟨0, _⟩ => show win0_4.index t 0 * 79 + 1 * (y 0).val = (y 0).val; rw [e40]; omega
  | ⟨1, _⟩ => show win0_4.index t 1 * 138 + 1 * (y 1).val = (y 1).val; rw [e41]; omega

/-- Window 5 is one block, the whole of its array: every point reads the array itself. -/
theorem blk5 (c : Dev nD) (t : Fin cfg0.N) :
    (iblk0 V c 5 t : Vec Ideal S1x138 .f32) = (V c main_v15 : S1x138.Idx → EReal) := by
  obtain ⟨e00, e01, e10, e11, e20, e21, e30, e31, e40, e41, e50, e51, e60, e61, e70, e71, e80, e81⟩ := idx_facts t
  funext y
  unfold iblk0
  rw [View.read_apply]
  show V c main_v15 _ = V c main_v15 y
  refine congrArg _ (funext fun a => Fin.ext ?_)
  match a with
  | ⟨0, _⟩ => show win0_5.index t 0 * 1 + 1 * (y 0).val = (y 0).val; rw [e50]; omega
  | ⟨1, _⟩ => show win0_5.index t 1 * 138 + 1 * (y 1).val = (y 1).val; rw [e51]; omega

/-- Window 6 is one block, the whole of its array: every point reads the array itself. -/
theorem blk6 (c : Dev nD) (t : Fin cfg0.N) :
    (iblk0 V c 6 t : Vec Ideal S138x138 .f32) = (V c main_arg6 : S138x138.Idx → EReal) := by
  obtain ⟨e00, e01, e10, e11, e20, e21, e30, e31, e40, e41, e50, e51, e60, e61, e70, e71, e80, e81⟩ := idx_facts t
  funext y
  unfold iblk0
  rw [View.read_apply]
  show V c main_arg6 _ = V c main_arg6 y
  refine congrArg _ (funext fun a => Fin.ext ?_)
  match a with
  | ⟨0, _⟩ => show win0_6.index t 0 * 138 + 1 * (y 0).val = (y 0).val; rw [e60]; omega
  | ⟨1, _⟩ => show win0_6.index t 1 * 138 + 1 * (y 1).val = (y 1).val; rw [e61]; omega

/-- Window 7 is one block, the whole of its array: every point reads the array itself. -/
theorem blk7 (c : Dev nD) (t : Fin cfg0.N) :
    (iblk0 V c 7 t : Vec Ideal S1x138 .f32) = (V c main_v16 : S1x138.Idx → EReal) := by
  obtain ⟨e00, e01, e10, e11, e20, e21, e30, e31, e40, e41, e50, e51, e60, e61, e70, e71, e80, e81⟩ := idx_facts t
  funext y
  unfold iblk0
  rw [View.read_apply]
  show V c main_v16 _ = V c main_v16 y
  refine congrArg _ (funext fun a => Fin.ext ?_)
  match a with
  | ⟨0, _⟩ => show win0_7.index t 0 * 1 + 1 * (y 0).val = (y 0).val; rw [e70]; omega
  | ⟨1, _⟩ => show win0_7.index t 1 * 138 + 1 * (y 1).val = (y 1).val; rw [e71]; omega

/-- The layer's output as one function of the arrays found at entry. -/
def result (c : Dev nD) : Buf (Elt Ideal) ((c : Thread nD τ).loc main_v17) :=
  ginRows 327680 79 138 (V c main_arg0 : S327680x79.Idx → EReal) (V c main_v13 : S327680x79.Idx → EReal)
    (V c main_arg2 : S79x138.Idx → EReal) (fun q => (V c main_v14 : S1x138.Idx → EReal) (ix2 0 q))
    (V c main_arg4 : S79x138.Idx → EReal) (fun q => (V c main_v15 : S1x138.Idx → EReal) (ix2 0 q))
    (V c main_arg6 : S138x138.Idx → EReal) (fun q => (V c main_v16 : S1x138.Idx → EReal) (ix2 0 q))

/-- One stored entry against one entry of the whole-array function: entry `j` of the block stored at point `t` is entry
    `i` of `ginRows` when `i` is row `4096 t + j 0`, column `j 1`; stated over any blocks that are those rows. -/
theorem entry_eq (X A : S327680x79.Idx → EReal) (Wr : S79x138.Idx → EReal) (br : S1x138.Idx → EReal) (W1 : S79x138.Idx → EReal)
    (b1 : S1x138.Idx → EReal) (W2 : S138x138.Idx → EReal) (b2 : S1x138.Idx → EReal)
    (x0 x1 : Vec Ideal S4096x79 .f32) (x2 : Vec Ideal S79x138 .f32) (x3 : Vec Ideal S1x138 .f32) (x4 : Vec Ideal S79x138 .f32)
    (x5 : Vec Ideal S1x138 .f32) (x6 : Vec Ideal S138x138 .f32) (x7 : Vec Ideal S1x138 .f32) (t : Nat)
    (h0 : ∀ (r : Fin 4096) (k : Fin 79) (p : Fin 327680), p.val = 4096 * t + r.val → x0 (ix2 r k) = X (ix2 p k))
    (h1 : ∀ (r : Fin 4096) (k : Fin 79) (p : Fin 327680), p.val = 4096 * t + r.val → x1 (ix2 r k) = A (ix2 p k))
    (h2 : x2 = Wr) (h3 : x3 = br) (h4 : x4 = W1) (h5 : x5 = b1) (h6 : x6 = W2) (h7 : x7 = b2)
    (j : S4096x138.Idx) (i : S327680x138.Idx) (hi0 : (i 0).val = 4096 * t + (j 0).val) (hi1 : (i 1).val = (j 1).val) :
    k0_pay1 x0 x1 x2 x3 x4 x5 x6 x7 j
      = ginRows 327680 79 138 X A Wr (fun q => br (ix2 0 q)) W1 (fun q => b1 (ix2 0 q)) W2 (fun q => b2 (ix2 0 q)) i := by
  subst h2 h3 h4 h5 h6 h7
  obtain ⟨r, q, rfl⟩ : ∃ (r : Fin 4096) (q : Fin 138), j = ix2 r q := ⟨j 0, j 1, eq_ix2 j⟩
  obtain ⟨p, q', rfl⟩ : ∃ (p : Fin 327680) (q' : Fin 138), i = ix2 p q' := ⟨i 0, i 1, eq_ix2 i⟩
  have hp : p.val = 4096 * t + r.val := hi0
  obtain rfl : q' = q := Fin.ext hi1
  have e0 : (fun k => x0 (ix2 r k)) = fun k => X (ix2 p k) := funext fun k => h0 r k p hp
  have e1 : (fun k => x1 (ix2 r k)) = fun k => A (ix2 p k) := funext fun k => h1 r k p hp
  rw [stored_apply, ginRows_apply, e0, e1]

/-- What point `t` writes back is block `t` of `result`. -/
theorem flushed_eq (c : Dev nD) (t : Fin cfg0.N) :
    (dat0 V c).flushed 8 t = ((cfg0.win 8).blk t).view.read (Elt Ideal) (result V c) := by
  obtain ⟨e00, e01, e10, e11, e20, e21, e30, e31, e40, e41, e50, e51, e60, e61, e70, e71, e80, e81⟩ := idx_facts t
  show (cfg0.win 8).cut (grid0.coords t) ((dat0 V c).after 8 t) = _
  rw [after0_8]
  unfold out0_8
  rw [View.canon_unit_zero zeroOffsets]
  simp only [View.ld_unit_zero (S := S4096x79) zeroOffsets, View.ld_unit_zero (S := S79x138) zeroOffsets, View.ld_unit_zero (S := S1x138) zeroOffsets, View.ld_unit_zero (S := S138x138) zeroOffsets]
  funext j
  show k0_pay1 (iblk0 V c 0 t) (iblk0 V c 1 t) (iblk0 V c 2 t) (iblk0 V c 3 t) (iblk0 V c 4 t) (iblk0 V c 5 t) (iblk0 V c 6 t) (iblk0 V c 7 t) j
     = result V c (((cfg0.win 8).blk t).view.emb j)
  unfold result
  exact entry_eq (V c main_arg0) (V c main_v13) (V c main_arg2) (V c main_v14) (V c main_arg4) (V c main_v15) (V c main_arg6) (V c main_v16)
    (iblk0 V c 0 t) (iblk0 V c 1 t) (iblk0 V c 2 t) (iblk0 V c 3 t) (iblk0 V c 4 t) (iblk0 V c 5 t) (iblk0 V c 6 t) (iblk0 V c 7 t) t.val
    (fun r k p hp => blk0 V c t r k p hp) (fun r k p hp => blk1 V c t r k p hp)
    (blk2 V c t) (blk3 V c t) (blk4 V c t) (blk5 V c t) (blk6 V c t) (blk7 V c t)
    j (((cfg0.win 8).blk t).view.emb j)
    (by show win0_8.index t 0 * 4096 + 1 * (j 0).val = 4096 * t.val + (j 0).val; rw [e80]; omega)
    (by show win0_8.index t 1 * 138 + 1 * (j 1).val = (j 1).val; rw [e81]; omega)

/-- Every node's row lies in the block of point `p / 4096`, and every point writes its block back. -/
theorem covered (i : S327680x138.Idx) :
    ∃ t : Fin cfg0.N, (cfg0.win 8).flush t = true ∧ i ∈ ((cfg0.win 8).blk t).view.set := by
  have h0 : (i 0).val < 327680 := (i 0).isLt
  have h1 : (i 1).val < 138 := (i 1).isLt
  have ht : (i 0).val / 4096 < grid0.N := Nat.lt_of_lt_of_eq (by omega : (i 0).val / 4096 < 80) N_0.symm
  obtain ⟨e00, e01, e10, e11, e20, e21, e30, e31, e40, e41, e50, e51, e60, e61, e70, e71, e80, e81⟩ := idx_facts ⟨(i 0).val / 4096, ht⟩
  refine ⟨⟨(i 0).val / 4096, ht⟩, flush0_8 _, ?_⟩
  show i ∈ ((View.whole main_v17).slice (win0_8.rect ⟨(i 0).val / 4096, ht⟩)).set
  rw [View.set_slice_whole, Rect.mem_set_unit]
  intro a
  match a with
  | ⟨0, _⟩ =>
    show win0_8.index ⟨(i 0).val / 4096, ht⟩ 0 * 4096 ≤ (i 0).val ∧ (i 0).val < win0_8.index ⟨(i 0).val / 4096, ht⟩ 0 * 4096 + 4096
    rw [e80]; show (i 0).val / 4096 * 4096 ≤ (i 0).val ∧ (i 0).val < (i 0).val / 4096 * 4096 + 4096; omega
  | ⟨1, _⟩ =>
    show win0_8.index ⟨(i 0).val / 4096, ht⟩ 1 * 138 ≤ (i 1).val ∧ (i 1).val < win0_8.index ⟨(i 0).val / 4096, ht⟩ 1 * 138 + 138
    rw [e81]; omega

/-- The output array after the call: `result` of the arrays found at entry, at every index. -/
theorem final (c : Dev nD) : (dat0 V c).arrAt 8 cfg0.N = result V c :=
  (dat0 V c).arrAt_eq_of_cover 8 (result V c) (fun t _ => flushed_eq V c t) (covered)

end Cert.KernelIdeal.Layer1

end
-- ==== Proof.Layer2.lean ====
/-
  Layer 2 of the network as the blocked call computes it: the whole output array as one function of the arrays
  the call finds.

  The call walks the `327680` nodes in 80 blocks of 4096 rows. At block `t` it is handed rows `4096 t … 4096 t + 4095` of
  the node features and of the summed neighbour features, and the six parameter arrays whole; it stores, at row `r` of
  the block and feature `q`, the row formula `ginRow` of row `r` of its two blocks. Row `r` of block `t` is node
  `4096 t + r`, so what block `t` writes back is rows `4096 t …` of the one array `ginRows` of the arrays found at entry; the
  80 blocks cover every node (node `p` lies in block `p / 4096`), so the output array ends equal to `ginRows` everywhere.
-/
import proofs.«138013_j40029095198816_1_alg».proof.Proof.Gen.KernelIdeal.Frame
import proofs.«138013_j40029095198816_1_alg».proof.Proof.LibGinRow

set_option maxRecDepth 16384

noncomputable section

open scoped BigOperators

namespace Cert.KernelIdeal.Layer2

open Cert.KernelIdeal Cert.KernelIdeal.Gen Idealize.ShloMosaic Idealize.ShloMosaic.TcCoe Idealize.ShloMosaic.ValueIdx
open Idealize.SL.Sem Cert.GinRow

variable (V : (c : Dev nD) → (b : Ref sig .tc) → Buf (Elt Ideal) ((c : Thread nD τ).loc b))

theorem zeroOffsets : (![0, 0] : Fin 2 → Nat) = fun _ => 0 := funext fun a => by fin_cases a <;> rfl

/-- The printed block maps, decided once over the 80 grid points: the features, the neighbour sums and the output move
    down the rows with the point; each parameter array is the one block `(0, 0)`. -/
theorem idx_facts : ∀ t : Fin cfg1.N, win1_0.index t 0 = t.val
    ∧ win1_0.index t 1 = 0
    ∧ win1_1.index t 0 = t.val
    ∧ win1_1.index t 1 = 0
    ∧ win1_2.index t 0 = 0
    ∧ win1_2.index t 1 = 0
    ∧ win1_3.index t 0 = 0
    ∧ win1_3.index t 1 = 0
    ∧ win1_4.index t 0 = 0
    ∧ win1_4.index t 1 = 0
    ∧ win1_5.index t 0 = 0
    ∧ win1_5.index t 1 = 0
    ∧ win1_6.index t 0 = 0
    ∧ win1_6.index t 1 = 0
    ∧ win1_7.index t 0 = 0
    ∧ win1_7.index t 1 = 0
    ∧ win1_8.index t 0 = t.val
    ∧ win1_8.index t 1 = 0 :=
  (by decide +kernel : ∀ t : Fin grid1.N, _)

/-- What the body stores at row `r`, feature `q` of its block: the row formula of row `r` of the loaded blocks. -/
theorem stored_apply (x0 x1 : Vec Ideal S4096x138 .f32) (x2 : Vec Ideal S138x138 .f32) (x3 : Vec Ideal S1x138 .f32) (x4 : Vec Ideal S138x138 .f32)
    (x5 : Vec Ideal S1x138 .f32) (x6 : Vec Ideal S138x138 .f32) (x7 : Vec Ideal S1x138 .f32) (r : Fin 4096) (q : Fin 138) :
    k1_pay1 x0 x1 x2 x3 x4 x5 x6 x7 (ix2 r q)
      = ginRow (fun k => x0 (ix2 r k)) (fun k => x1 (ix2 r k)) (fun k j => x2 (ix2 k j)) (fun j => x3 (ix2 0 j))
          (fun k j => x4 (ix2 k j)) (fun j => x5 (ix2 0 j)) (fun k j => x6 (ix2 k j)) (fun j => x7 (ix2 0 j)) q := by
  unfold k1_pay1
  simp only [shapeCast_self]
  exact block_apply 4096 138 138 _ _ x0 x1 x2 x3 x4 x5 x6 x7 r q

/-- Window 0's block at point `t` is rows `4096 t … 4096 t + 4095` of its array, all columns. -/
theorem blk0 (c : Dev nD) (t : Fin cfg1.N) (r : Fin 4096) (k : Fin 138) (p : Fin 327680) (hp : p.val = 4096 * t.val + r.val) :
    (iblk1 V c 0 t : Vec Ideal S4096x138 .f32) (ix2 r k) = (V c main_v17 : S327680x138.Idx → EReal) (ix2 p k) := by
  obtain ⟨e00, e01, e10, e11, e20, e21, e30, e31, e40, e41, e50, e51, e60, e61, e70, e71, e80, e81⟩ := idx_facts t
  unfold iblk1
  rw [View.read_apply]
  show V c main_v17 _ = V c main_v17 (ix2 p k)
  refine congrArg _ (funext fun a => Fin.ext ?_)
  match a with
  | ⟨0, _⟩ => show win1_0.index t 0 * 4096 + 1 * r.val = p.val; rw [e00, hp]; omega
  | ⟨1, _⟩ => show win1_0.index t 1 * 138 + 1 * k.val = k.val; rw [e01]; omega

/-- Window 1's block at point `t` is rows `4096 t … 4096 t + 4095` of its array, all columns. -/
theorem blk1 (c : Dev nD) (t : Fin cfg1.N) (r : Fin 4096) (k : Fin 138) (p : Fin 327680) (hp : p.val = 4096 * t.val + r.val) :
    (iblk1 V c 1 t : Vec Ideal S4096x138 .f32) (ix2 r k) = (V c main_v27 : S327680x138.Idx → EReal) (ix2 p k) := by
  obtain ⟨e00, e01, e10, e11, e20, e21, e30, e31, e40, e41, e50, e51, e60, e61, e70, e71, e80, e81⟩ := idx_facts t
  unfold iblk1
  rw [View.read_apply]
  show V c main_v27 _ = V c main_v27 (ix2 p k)
  refine congrArg _ (funext fun a => Fin.ext ?_)
  match a with
  | ⟨0, _⟩ => show win1_1.index t 0 * 4096 + 1 * r.val = p.val; rw [e10, hp]; omega
  | ⟨1, _⟩ => show win1_1.index t 1 * 138 + 1 * k.val = k.val; rw [e11]; omega

/-- Window 2 is one block, the whole of its array: every point reads the array itself. -/
theorem blk2 (c : Dev nD) (t : Fin cfg1.N) :
    (iblk1 V c 2 t : Vec Ideal S138x138 .f32) = (V c main_arg8 : S138x138.Idx → EReal) := by
  obtain ⟨e00, e01, e10, e11, e20, e21, e30, e31, e40, e41, e50, e51, e60, e61, e70, e71, e80, e81⟩ := idx_facts t
  funext y
  unfold iblk1
  rw [View.read_apply]
  show V c main_arg8 _ = V c main_arg8 y
  refine congrArg _ (funext fun a => Fin.ext ?_)
  match a with
  | ⟨0, _⟩ => show win1_2.index t 0 * 138 + 1 * (y 0).val = (y 0).val; rw [e20]; omega
  | ⟨1, _⟩ => show win1_2.index t 1 * 138 + 1 * (y 1).val = (y 1).val; rw [e21]; omega

/-- Window 3 is one block, the whole of its array: every point reads the array itself. -/
theorem blk3 (c : Dev nD) (t : Fin cfg1.N) :
    (iblk1 V c 3 t : Vec Ideal S1x138 .f32) = (V c main_v28 : S1x138.Idx → EReal) := by
  obtain ⟨e00, e01, e10, e11, e20, e21, e30, e31, e40, e41, e50, e51, e60, e61, e70, e71, e80, e81⟩ := idx_facts t
  funext y
  unfold iblk1
  rw [View.read_apply]
  show V c main_v28 _ = V c main_v28 y
  refine congrArg _ (funext fun a => Fin.ext ?_)
  match a with
  | ⟨0, _⟩ => show win1_3.index t 0 * 1 + 1 * (y 0).val = (y 0).val; rw [e30]; omega
  | ⟨1, _⟩ => show win1_3.index t 1 * 138 + 1 * (y 1).val = (y 1).val; rw [e31]; omega

/-- Window 4 is one block, the whole of its array: every point reads the array itself. -/
theorem blk4 (c : Dev nD) (t : Fin cfg1.N) :
    (iblk1 V c 4 t : Vec Ideal S138x138 .f32) = (V c main_arg10 : S138x138.Idx → EReal) := by
  obtain ⟨e00, e01, e10, e11, e20, e21, e30, e31, e40, e41, e50, e51, e60, e61, e70, e71, e80, e81⟩ := idx_facts t
  funext y
  unfold iblk1
  rw [View.read_apply]
  show V c main_arg10 _ = V c main_arg10 y
  refine congrArg _ (funext fun a => Fin.ext ?_)
  match a with
  | ⟨0, _⟩ => show win1_4.index t 0 * 138 + 1 * (y 0).val = (y 0).val; rw [e40]; omega
  | ⟨1, _⟩ => show win1_4.index t 1 * 138 + 1 * (y 1).val = (y 1).val; rw [e41]; omega

/-- Window 5 is one block, the whole of its array: every point reads the array itself. -/
theorem blk5 (c : Dev nD) (t : Fin cfg1.N) :
    (iblk1 V c 5 t : Vec Ideal S1x138 .f32) = (V c main_v29 : S1x138.Idx → EReal) := by
  obtain ⟨e00, e01, e10, e11, e20, e21, e30, e31, e40, e41, e50, e51, e60, e61, e70, e71, e80, e81⟩ := idx_facts t
  funext y
  unfold iblk1
  rw [View.read_apply]
  show V c main_v29 _ = V c main_v29 y
  refine congrArg _ (funext fun a => Fin.ext ?_)
  match a with
  | ⟨0, _⟩ => show win1_5.index t 0 * 1 + 1 * (y 0).val = (y 0).val; rw [e50]; omega
  | ⟨1, _⟩ => show win1_5.index t 1 * 138 + 1 * (y 1).val = (y 1).val; rw [e51]; omega

/-- Window 6 is one block, the whole of its array: every point reads the array itself. -/
theorem blk6 (c : Dev nD) (t : Fin cfg1.N) :
    (iblk1 V c 6 t : Vec Ideal S138x138 .f32) = (V c main_arg12 : S138x138.Idx → EReal) := by
  obtain ⟨e00, e01, e10, e11, e20, e21, e30, e31, e40, e41, e50, e51, e60, e61, e70, e71, e80, e81⟩ := idx_facts t
  funext y
  unfold iblk1
  rw [View.read_apply]
  show V c main_arg12 _ = V c main_arg12 y
  refine congrArg _ (funext fun a => Fin.ext ?_)
  match a with
  | ⟨0, _⟩ => show win1_6.index t 0 * 138 + 1 * (y 0).val = (y 0).val; rw [e60]; omega
  | ⟨1, _⟩ => show win1_6.index t 1 * 138 + 1 * (y 1).val = (y 1).val; rw [e61]; omega

/-- Window 7 is one block, the whole of its array: every point reads the array itself. -/
theorem blk7 (c : Dev nD) (t : Fin cfg1.N) :
    (iblk1 V c 7 t : Vec Ideal S1x138 .f32) = (V c main_v30 : S1x138.Idx → EReal) := by
  obtain ⟨e00, e01, e10, e11, e20, e21, e30, e31, e40, e41, e50, e51, e60, e61, e70, e71, e80, e81⟩ := idx_facts t
  funext y
  unfold iblk1
  rw [View.read_apply]
  show V c main_v30 _ = V c main_v30 y
  refine congrArg _ (funext fun a => Fin.ext ?_)
  match a with
  | ⟨0, _⟩ => show win1_7.index t 0 * 1 + 1 * (y 0).val = (y 0).val; rw [e70]; omega
  | ⟨1, _⟩ => show win1_7.index t 1 * 138 + 1 * (y 1).val = (y 1).val; rw [e71]; omega

/-- The layer's output as one function of the arrays found at entry. -/
def result (c : Dev nD) : Buf (Elt Ideal) ((c : Thread nD τ).loc main_v31) :=
  ginRows 327680 138 138 (V c main_v17 : S327680x138.Idx → EReal) (V c main_v27 : S327680x138.Idx → EReal)
    (V c main_arg8 : S138x138.Idx → EReal) (fun q => (V c main_v28 : S1x138.Idx → EReal) (ix2 0 q))
    (V c main_arg10 : S138x138.Idx → EReal) (fun q => (V c main_v29 : S1x138.Idx → EReal) (ix2 0 q))
    (V c main_arg12 : S138x138.Idx → EReal) (fun q => (V c main_v30 : S1x138.Idx → EReal) (ix2 0 q))

/-- One stored entry against one entry of the whole-array function: entry `j` of the block stored at point `t` is entry
    `i` of `ginRows` when `i` is row `4096 t + j 0`, column `j 1`; stated over any blocks that are those rows. -/
theorem entry_eq (X A : S327680x138.Idx → EReal) (Wr : S138x138.Idx → EReal) (br : S1x138.Idx → EReal) (W1 : S138x138.Idx → EReal)
    (b1 : S1x138.Idx → EReal) (W2 : S138x138.Idx → EReal) (b2 : S1x138.Idx → EReal)
    (x0 x1 : Vec Ideal S4096x138 .f32) (x2 : Vec Ideal S138x138 .f32) (x3 : Vec Ideal S1x138 .f32) (x4 : Vec Ideal S138x138 .f32)
    (x5 : Vec Ideal S1x138 .f32) (x6 : Vec Ideal S138x138 .f32) (x7 : Vec Ideal S1x138 .f32) (t : Nat)
    (h0 : ∀ (r : Fin 4096) (k : Fin 138) (p : Fin 327680), p.val = 4096 * t + r.val → x0 (ix2 r k) = X (ix2 p k))
    (h1 : ∀ (r : Fin 4096) (k : Fin 138) (p : Fin 327680), p.val = 4096 * t + r.val → x1 (ix2 r k) = A (ix2 p k))
    (h2 : x2 = Wr) (h3 : x3 = br) (h4 : x4 = W1) (h5 : x5 = b1) (h6 : x6 = W2) (h7 : x7 = b2)
    (j : S4096x138.Idx) (i : S327680x138.Idx) (hi0 : (i 0).val = 4096 * t + (j 0).val) (hi1 : (i 1).val = (j 1).val) :
    k1_pay1 x0 x1 x2 x3 x4 x5 x6 x7 j
      = ginRows 327680 138 138 X A Wr (fun q => br (ix2 0 q)) W1 (fun q => b1 (ix2 0 q)) W2 (fun q => b2 (ix2 0 q)) i := by
  subst h2 h3 h4 h5 h6 h7
  obtain ⟨r, q, rfl⟩ : ∃ (r : Fin 4096) (q : Fin 138), j = ix2 r q := ⟨j 0, j 1, eq_ix2 j⟩
  obtain ⟨p, q', rfl⟩ : ∃ (p : Fin 327680) (q' : Fin 138), i = ix2 p q' := ⟨i 0, i 1, eq_ix2 i⟩
  have hp : p.val = 4096 * t + r.val := hi0
  obtain rfl : q' = q := Fin.ext hi1
  have e0 : (fun k => x0 (ix2 r k)) = fun k => X (ix2 p k) := funext fun k => h0 r k p hp
  have e1 : (fun k => x1 (ix2 r k)) = fun k => A (ix2 p k) := funext fun k => h1 r k p hp
  rw [stored_apply, ginRows_apply, e0, e1]

/-- What point `t` writes back is block `t` of `result`. -/
theorem flushed_eq (c : Dev nD) (t : Fin cfg1.N) :
    (dat1 V c).flushed 8 t = ((cfg1.win 8).blk t).view.read (Elt Ideal) (result V c) := by
  obtain ⟨e00, e01, e10, e11, e20, e21, e30, e31, e40, e41, e50, e51, e60, e61, e70, e71, e80, e81⟩ := idx_facts t
  show (cfg1.win 8).cut (grid1.coords t) ((dat1 V c).after 8 t) = _
  rw [after1_8]
  unfold out1_8
  rw [View.canon_unit_zero zeroOffsets]
  simp only [View.ld_unit_zero (S := S4096x138) zeroOffsets, View.ld_unit_zero (S := S138x138) zeroOffsets, View.ld_unit_zero (S := S1x138) zeroOffsets]
  funext j
  show k1_pay1 (iblk1 V c 0 t) (iblk1 V c 1 t) (iblk1 V c 2 t) (iblk1 V c 3 t) (iblk1 V c 4 t) (iblk1 V c 5 t) (iblk1 V c 6 t) (iblk1 V c 7 t) j
     = result V c (((cfg1.win 8).blk t).view.emb j)
  unfold result
  exact entry_eq (V c main_v17) (V c main_v27) (V c main_arg8) (V c main_v28) (V c main_arg10) (V c main_v29) (V c main_arg12) (V c main_v30)
    (iblk1 V c 0 t) (iblk1 V c 1 t) (iblk1 V c 2 t) (iblk1 V c 3 t) (iblk1 V c 4 t) (iblk1 V c 5 t) (iblk1 V c 6 t) (iblk1 V c 7 t) t.val
    (fun r k p hp => blk0 V c t r k p hp) (fun r k p hp => blk1 V c t r k p hp)
    (blk2 V c t) (blk3 V c t) (blk4 V c t) (blk5 V c t) (blk6 V c t) (blk7 V c t)
    j (((cfg1.win 8).blk t).view.emb j)
    (by show win1_8.index t 0 * 4096 + 1 * (j 0).val = 4096 * t.val + (j 0).val; rw [e80]; omega)
    (by show win1_8.index t 1 * 138 + 1 * (j 1).val = (j 1).val; rw [e81]; omega)

/-- Every node's row lies in the block of point `p / 4096`, and every point writes its block back. -/
theorem covered (i : S327680x138.Idx) :
    ∃ t : Fin cfg1.N, (cfg1.win 8).flush t = true ∧ i ∈ ((cfg1.win 8).blk t).view.set := by
  have h0 : (i 0).val < 327680 := (i 0).isLt
  have h1 : (i 1).val < 138 := (i 1).isLt
  have ht : (i 0).val / 4096 < grid1.N := Nat.lt_of_lt_of_eq (by omega : (i 0).val / 4096 < 80) N_1.symm
  obtain ⟨e00, e01, e10, e11, e20, e21, e30, e31, e40, e41, e50, e51, e60, e61, e70, e71, e80, e81⟩ := idx_facts ⟨(i 0).val / 4096, ht⟩
  refine ⟨⟨(i 0).val / 4096, ht⟩, flush1_8 _, ?_⟩
  show i ∈ ((View.whole main_v31).slice (win1_8.rect ⟨(i 0).val / 4096, ht⟩)).set
  rw [View.set_slice_whole, Rect.mem_set_unit]
  intro a
  match a with
  | ⟨0, _⟩ =>
    show win1_8.index ⟨(i 0).val / 4096, ht⟩ 0 * 4096 ≤ (i 0).val ∧ (i 0).val < win1_8.index ⟨(i 0).val / 4096, ht⟩ 0 * 4096 + 4096
    rw [e80]; show (i 0).val / 4096 * 4096 ≤ (i 0).val ∧ (i 0).val < (i 0).val / 4096 * 4096 + 4096; omega
  | ⟨1, _⟩ =>
    show win1_8.index ⟨(i 0).val / 4096, ht⟩ 1 * 138 ≤ (i 1).val ∧ (i 1).val < win1_8.index ⟨(i 0).val / 4096, ht⟩ 1 * 138 + 138
    rw [e81]; omega

/-- The output array after the call: `result` of the arrays found at entry, at every index. -/
theorem final (c : Dev nD) : (dat1 V c).arrAt 8 cfg1.N = result V c :=
  (dat1 V c).arrAt_eq_of_cover 8 (result V c) (fun t _ => flushed_eq V c t) (covered)

end Cert.KernelIdeal.Layer2

end
-- ==== Proof.Layer3.lean ====
/-
  Layer 3 of the network as the blocked call computes it: the whole output array as one function of the arrays
  the call finds.

  The call walks the `327680` nodes in 80 blocks of 4096 rows. At block `t` it is handed rows `4096 t … 4096 t + 4095` of
  the node features and of the summed neighbour features, and the six parameter arrays whole; it stores, at row `r` of
  the block and feature `q`, the row formula `ginRow` of row `r` of its two blocks. Row `r` of block `t` is node
  `4096 t + r`, so what block `t` writes back is rows `4096 t …` of the one array `ginRows` of the arrays found at entry; the
  80 blocks cover every node (node `p` lies in block `p / 4096`), so the output array ends equal to `ginRows` everywhere.
-/
import proofs.«138013_j40029095198816_1_alg».proof.Proof.Gen.KernelIdeal.Frame
import proofs.«138013_j40029095198816_1_alg».proof.Proof.LibGinRow

set_option maxRecDepth 16384

noncomputable section

open scoped BigOperators

namespace Cert.KernelIdeal.Layer3

open Cert.KernelIdeal Cert.KernelIdeal.Gen Idealize.ShloMosaic Idealize.ShloMosaic.TcCoe Idealize.ShloMosaic.ValueIdx
open Idealize.SL.Sem Cert.GinRow

variable (V : (c : Dev nD) → (b : Ref sig .tc) → Buf (Elt Ideal) ((c : Thread nD τ).loc b))

theorem zeroOffsets : (![0, 0] : Fin 2 → Nat) = fun _ => 0 := funext fun a => by fin_cases a <;> rfl

/-- The printed block maps, decided once over the 80 grid points: the features, the neighbour sums and the output move
    down the rows with the point; each parameter array is the one block `(0, 0)`. -/
theorem idx_facts : ∀ t : Fin cfg2.N, win2_0.index t 0 = t.val
    ∧ win2_0.index t 1 = 0
    ∧ win2_1.index t 0 = t.val
    ∧ win2_1.index t 1 = 0
    ∧ win2_2.index t 0 = 0
    ∧ win2_2.index t 1 = 0
    ∧ win2_3.index t 0 = 0
    ∧ win2_3.index t 1 = 0
    ∧ win2_4.index t 0 = 0
    ∧ win2_4.index t 1 = 0
    ∧ win2_5.index t 0 = 0
    ∧ win2_5.index t 1 = 0
    ∧ win2_6.index t 0 = 0
    ∧ win2_6.index t 1 = 0
    ∧ win2_7.index t 0 = 0
    ∧ win2_7.index t 1 = 0
    ∧ win2_8.index t 0 = t.val
    ∧ win2_8.index t 1 = 0 :=
  (by decide +kernel : ∀ t : Fin grid2.N, _)

/-- What the body stores at row `r`, feature `q` of its block: the row formula of row `r` of the loaded blocks. -/
theorem stored_apply (x0 x1 : Vec Ideal S4096x138 .f32) (x2 : Vec Ideal S138x138 .f32) (x3 : Vec Ideal S1x138 .f32) (x4 : Vec Ideal S138x138 .f32)
    (x5 : Vec Ideal S1x138 .f32) (x6 : Vec Ideal S138x138 .f32) (x7 : Vec Ideal S1x138 .f32) (r : Fin 4096) (q : Fin 138) :
    k2_pay1 x0 x1 x2 x3 x4 x5 x6 x7 (ix2 r q)
      = ginRow (fun k => x0 (ix2 r k)) (fun k => x1 (ix2 r k)) (fun k j => x2 (ix2 k j)) (fun j => x3 (ix2 0 j))
          (fun k j => x4 (ix2 k j)) (fun j => x5 (ix2 0 j)) (fun k j => x6 (ix2 k j)) (fun j => x7 (ix2 0 j)) q := by
  unfold k2_pay1
  simp only [shapeCast_self]
  exact block_apply 4096 138 138 _ _ x0 x1 x2 x3 x4 x5 x6 x7 r q

/-- Window 0's block at point `t` is rows `4096 t … 4096 t + 4095` of its array, all columns. -/
theorem blk0 (c : Dev nD) (t : Fin cfg2.N) (r : Fin 4096) (k : Fin 138) (p : Fin 327680) (hp : p.val = 4096 * t.val + r.val) :
    (iblk2 V c 0 t : Vec Ideal S4096x138 .f32) (ix2 r k) = (V c main_v31 : S327680x138.Idx → EReal) (ix2 p k) := by
  obtain ⟨e00, e01, e10, e11, e20, e21, e30, e31, e40, e41, e50, e51, e60, e61, e70, e71, e80, e81⟩ := idx_facts t
  unfold iblk2
  rw [View.read_apply]
  show V c main_v31 _ = V c main_v31 (ix2 p k)
  refine congrArg _ (funext fun a => Fin.ext ?_)
  match a with
  | ⟨0, _⟩ => show win2_0.index t 0 * 4096 + 1 * r.val = p.val; rw [e00, hp]; omega
  | ⟨1, _⟩ => show win2_0.index t 1 * 138 + 1 * k.val = k.val; rw [e01]; omega

/-- Window 1's block at point `t` is rows `4096 t … 4096 t + 4095` of its array, all columns. -/
theorem blk1 (c : Dev nD) (t : Fin cfg2.N) (r : Fin 4096) (k : Fin 138) (p : Fin 327680) (hp : p.val = 4096 * t.val + r.val) :
    (iblk2 V c 1 t : Vec Ideal S4096x138 .f32) (ix2 r k) = (V c main_v41 : S327680x138.Idx → EReal) (ix2 p k) := by
  obtain ⟨e00, e01, e10, e11, e20, e21, e30, e31, e40, e41, e50, e51, e60, e61, e70, e71, e80, e81⟩ := idx_facts t
  unfold iblk2
  rw [View.read_apply]
  show V c main_v41 _ = V c main_v41 (ix2 p k)
  refine congrArg _ (funext fun a => Fin.ext ?_)
  match a with
  | ⟨0, _⟩ => show win2_1.index t 0 * 4096 + 1 * r.val = p.val; rw [e10, hp]; omega
  | ⟨1, _⟩ => show win2_1.index t 1 * 138 + 1 * k.val = k.val; rw [e11]; omega

/-- Window 2 is one block, the whole of its array: every point reads the array itself. -/
theorem blk2 (c : Dev nD) (t : Fin cfg2.N) :
    (iblk2 V c 2 t : Vec Ideal S138x138 .f32) = (V c main_arg14 : S138x138.Idx → EReal) := by
  obtain ⟨e00, e01, e10, e11, e20, e21, e30, e31, e40, e41, e50, e51, e60, e61, e70, e71, e80, e81⟩ := idx_facts t
  funext y
  unfold iblk2
  rw [View.read_apply]
  show V c main_arg14 _ = V c main_arg14 y
  refine congrArg _ (funext fun a => Fin.ext ?_)
  match a with
  | ⟨0, _⟩ => show win2_2.index t 0 * 138 + 1 * (y 0).val = (y 0).val; rw [e20]; omega
  | ⟨1, _⟩ => show win2_2.index t 1 * 138 + 1 * (y 1).val = (y 1).val; rw [e21]; omega

/-- Window 3 is one block, the whole of its array: every point reads the array itself. -/
theorem blk3 (c : Dev nD) (t : Fin cfg2.N) :
    (iblk2 V c 3 t : Vec Ideal S1x138 .f32) = (V c main_v42 : S1x138.Idx → EReal) := by
  obtain ⟨e00, e01, e10, e11, e20, e21, e30, e31, e40, e41, e50, e51, e60, e61, e70, e71, e80, e81⟩ := idx_facts t
  funext y
  unfold iblk2
  rw [View.read_apply]
  show V c main_v42 _ = V c main_v42 y
  refine congrArg _ (funext fun a => Fin.ext ?_)
  match a with
  | ⟨0, _⟩ => show win2_3.index t 0 * 1 + 1 * (y 0).val = (y 0).val; rw [e30]; omega
  | ⟨1, _⟩ => show win2_3.index t 1 * 138 + 1 * (y 1).val = (y 1).val; rw [e31]; omega

/-- Window 4 is one block, the whole of its array: every point reads the array itself. -/
theorem blk4 (c : Dev nD) (t : Fin cfg2.N) :
    (iblk2 V c 4 t : Vec Ideal S138x138 .f32) = (V c main_arg16 : S138x138.Idx → EReal) := by
  obtain ⟨e00, e01, e10, e11, e20, e21, e30, e31, e40, e41, e50, e51, e60, e61, e70, e71, e80, e81⟩ := idx_facts t
  funext y
  unfold iblk2
  rw [View.read_apply]
  show V c main_arg16 _ = V c main_arg16 y
  refine congrArg _ (funext fun a => Fin.ext ?_)
  match a with
  | ⟨0, _⟩ => show win2_4.index t 0 * 138 + 1 * (y 0).val = (y 0).val; rw [e40]; omega
  | ⟨1, _⟩ => show win2_4.index t 1 * 138 + 1 * (y 1).val = (y 1).val; rw [e41]; omega

/-- Window 5 is one block, the whole of its array: every point reads the array itself. -/
theorem blk5 (c : Dev nD) (t : Fin cfg2.N) :
    (iblk2 V c 5 t : Vec Ideal S1x138 .f32) = (V c main_v43 : S1x138.Idx → EReal) := by
  obtain ⟨e00, e01, e10, e11, e20, e21, e30, e31, e40, e41, e50, e51, e60, e61, e70, e71, e80, e81⟩ := idx_facts t
  funext y
  unfold iblk2
  rw [View.read_apply]
  show V c main_v43 _ = V c main_v43 y
  refine congrArg _ (funext fun a => Fin.ext ?_)
  match a with
  | ⟨0, _⟩ => show win2_5.index t 0 * 1 + 1 * (y 0).val = (y 0).val; rw [e50]; omega
  | ⟨1, _⟩ => show win2_5.index t 1 * 138 + 1 * (y 1).val = (y 1).val; rw [e51]; omega

/-- Window 6 is one block, the whole of its array: every point reads the array itself. -/
theorem blk6 (c : Dev nD) (t : Fin cfg2.N) :
    (iblk2 V c 6 t : Vec Ideal S138x138 .f32) = (V c main_arg18 : S138x138.Idx → EReal) := by
  obtain ⟨e00, e01, e10, e11, e20, e21, e30, e31, e40, e41, e50, e51, e60, e61, e70, e71, e80, e81⟩ := idx_facts t
  funext y
  unfold iblk2
  rw [View.read_apply]
  show V c main_arg18 _ = V c main_arg18 y
  refine congrArg _ (funext fun a => Fin.ext ?_)
  match a with
  | ⟨0, _⟩ => show win2_6.index t 0 * 138 + 1 * (y 0).val = (y 0).val; rw [e60]; omega
  | ⟨1, _⟩ => show win2_6.index t 1 * 138 + 1 * (y 1).val = (y 1).val; rw [e61]; omega

/-- Window 7 is one block, the whole of its array: every point reads the array itself. -/
theorem blk7 (c : Dev nD) (t : Fin cfg2.N) :
    (iblk2 V c 7 t : Vec Ideal S1x138 .f32) = (V c main_v44 : S1x138.Idx → EReal) := by
  obtain ⟨e00, e01, e10, e11, e20, e21, e30, e31, e40, e41, e50, e51, e60, e61, e70, e71, e80, e81⟩ := idx_facts t
  funext y
  unfold iblk2
  rw [View.read_apply]
  show V c main_v44 _ = V c main_v44 y
  refine congrArg _ (funext fun a => Fin.ext ?_)
  match a with
  | ⟨0, _⟩ => show win2_7.index t 0 * 1 + 1 * (y 0).val = (y 0).val; rw [e70]; omega
  | ⟨1, _⟩ => show win2_7.index t 1 * 138 + 1 * (y 1).val = (y 1).val; rw [e71]; omega

/-- The layer's output as one function of the arrays found at entry. -/
def result (c : Dev nD) : Buf (Elt Ideal) ((c : Thread nD τ).loc main_v45) :=
  ginRows 327680 138 138 (V c main_v31 : S327680x138.Idx → EReal) (V c main_v41 : S327680x138.Idx → EReal)
    (V c main_arg14 : S138x138.Idx → EReal) (fun q => (V c main_v42 : S1x138.Idx → EReal) (ix2 0 q))
    (V c main_arg16 : S138x138.Idx → EReal) (fun q => (V c main_v43 : S1x138.Idx → EReal) (ix2 0 q))
    (V c main_arg18 : S138x138.Idx → EReal) (fun q => (V c main_v44 : S1x138.Idx → EReal) (ix2 0 q))

/-- One stored entry against one entry of the whole-array function: entry `j` of the block stored at point `t` is entry
    `i` of `ginRows` when `i` is row `4096 t + j 0`, column `j 1`; stated over any blocks that are those rows. -/
theorem entry_eq (X A : S327680x138.Idx → EReal) (Wr : S138x138.Idx → EReal) (br : S1x138.Idx → EReal) (W1 : S138x138.Idx → EReal)
    (b1 : S1x138.Idx → EReal) (W2 : S138x138.Idx → EReal) (b2 : S1x138.Idx → EReal)
    (x0 x1 : Vec Ideal S4096x138 .f32) (x2 : Vec Ideal S138x138 .f32) (x3 : Vec Ideal S1x138 .f32) (x4 : Vec Ideal S138x138 .f32)
    (x5 : Vec Ideal S1x138 .f32) (x6 : Vec Ideal S138x138 .f32) (x7 : Vec Ideal S1x138 .f32) (t : Nat)
    (h0 : ∀ (r : Fin 4096) (k : Fin 138) (p : Fin 327680), p.val = 4096 * t + r.val → x0 (ix2 r k) = X (ix2 p k))
    (h1 : ∀ (r : Fin 4096) (k : Fin 138) (p : Fin 327680), p.val = 4096 * t + r.val → x1 (ix2 r k) = A (ix2 p k))
    (h2 : x2 = Wr) (h3 : x3 = br) (h4 : x4 = W1) (h5 : x5 = b1) (h6 : x6 = W2) (h7 : x7 = b2)
    (j : S4096x138.Idx) (i : S327680x138.Idx) (hi0 : (i 0).val = 4096 * t + (j 0).val) (hi1 : (i 1).val = (j 1).val) :
    k2_pay1 x0 x1 x2 x3 x4 x5 x6 x7 j
      = ginRows 327680 138 138 X A Wr (fun q => br (ix2 0 q)) W1 (fun q => b1 (ix2 0 q)) W2 (fun q => b2 (ix2 0 q)) i := by
  subst h2 h3 h4 h5 h6 h7
  obtain ⟨r, q, rfl⟩ : ∃ (r : Fin 4096) (q : Fin 138), j = ix2 r q := ⟨j 0, j 1, eq_ix2 j⟩
  obtain ⟨p, q', rfl⟩ : ∃ (p : Fin 327680) (q' : Fin 138), i = ix2 p q' := ⟨i 0, i 1, eq_ix2 i⟩
  have hp : p.val = 4096 * t + r.val := hi0
  obtain rfl : q' = q := Fin.ext hi1
  have e0 : (fun k => x0 (ix2 r k)) = fun k => X (ix2 p k) := funext fun k => h0 r k p hp
  have e1 : (fun k => x1 (ix2 r k)) = fun k => A (ix2 p k) := funext fun k => h1 r k p hp
  rw [stored_apply, ginRows_apply, e0, e1]

/-- What point `t` writes back is block `t` of `result`. -/
theorem flushed_eq (c : Dev nD) (t : Fin cfg2.N) :
    (dat2 V c).flushed 8 t = ((cfg2.win 8).blk t).view.read (Elt Ideal) (result V c) := by
  obtain ⟨e00, e01, e10, e11, e20, e21, e30, e31, e40, e41, e50, e51, e60, e61, e70, e71, e80, e81⟩ := idx_facts t
  show (cfg2.win 8).cut (grid2.coords t) ((dat2 V c).after 8 t) = _
  rw [after2_8]
  unfold out2_8
  rw [View.canon_unit_zero zeroOffsets]
  simp only [View.ld_unit_zero (S := S4096x138) zeroOffsets, View.ld_unit_zero (S := S138x138) zeroOffsets, View.ld_unit_zero (S := S1x138) zeroOffsets]
  funext j
  show k2_pay1 (iblk2 V c 0 t) (iblk2 V c 1 t) (iblk2 V c 2 t) (iblk2 V c 3 t) (iblk2 V c 4 t) (iblk2 V c 5 t) (iblk2 V c 6 t) (iblk2 V c 7 t) j
     = result V c (((cfg2.win 8).blk t).view.emb j)
  unfold result
  exact entry_eq (V c main_v31) (V c main_v41) (V c main_arg14) (V c main_v42) (V c main_arg16) (V c main_v43) (V c main_arg18) (V c main_v44)
    (iblk2 V c 0 t) (iblk2 V c 1 t) (iblk2 V c 2 t) (iblk2 V c 3 t) (iblk2 V c 4 t) (iblk2 V c 5 t) (iblk2 V c 6 t) (iblk2 V c 7 t) t.val
    (fun r k p hp => blk0 V c t r k p hp) (fun r k p hp => blk1 V c t r k p hp)
    (blk2 V c t) (blk3 V c t) (blk4 V c t) (blk5 V c t) (blk6 V c t) (blk7 V c t)
    j (((cfg2.win 8).blk t).view.emb j)
    (by show win2_8.index t 0 * 4096 + 1 * (j 0).val = 4096 * t.val + (j 0).val; rw [e80]; omega)
    (by show win2_8.index t 1 * 138 + 1 * (j 1).val = (j 1).val; rw [e81]; omega)

/-- Every node's row lies in the block of point `p / 4096`, and every point writes its block back. -/
theorem covered (i : S327680x138.Idx) :
    ∃ t : Fin cfg2.N, (cfg2.win 8).flush t = true ∧ i ∈ ((cfg2.win 8).blk t).view.set := by
  have h0 : (i 0).val < 327680 := (i 0).isLt
  have h1 : (i 1).val < 138 := (i 1).isLt
  have ht : (i 0).val / 4096 < grid2.N := Nat.lt_of_lt_of_eq (by omega : (i 0).val / 4096 < 80) N_2.symm
  obtain ⟨e00, e01, e10, e11, e20, e21, e30, e31, e40, e41, e50, e51, e60, e61, e70, e71, e80, e81⟩ := idx_facts ⟨(i 0).val / 4096, ht⟩
  refine ⟨⟨(i 0).val / 4096, ht⟩, flush2_8 _, ?_⟩
  show i ∈ ((View.whole main_v45).slice (win2_8.rect ⟨(i 0).val / 4096, ht⟩)).set
  rw [View.set_slice_whole, Rect.mem_set_unit]
  intro a
  match a with
  | ⟨0, _⟩ =>
    show win2_8.index ⟨(i 0).val / 4096, ht⟩ 0 * 4096 ≤ (i 0).val ∧ (i 0).val < win2_8.index ⟨(i 0).val / 4096, ht⟩ 0 * 4096 + 4096
    rw [e80]; show (i 0).val / 4096 * 4096 ≤ (i 0).val ∧ (i 0).val < (i 0).val / 4096 * 4096 + 4096; omega
  | ⟨1, _⟩ =>
    show win2_8.index ⟨(i 0).val / 4096, ht⟩ 1 * 138 ≤ (i 1).val ∧ (i 1).val < win2_8.index ⟨(i 0).val / 4096, ht⟩ 1 * 138 + 138
    rw [e81]; omega

/-- The output array after the call: `result` of the arrays found at entry, at every index. -/
theorem final (c : Dev nD) : (dat2 V c).arrAt 8 cfg2.N = result V c :=
  (dat2 V c).arrAt_eq_of_cover 8 (result V c) (fun t _ => flushed_eq V c t) (covered)

end Cert.KernelIdeal.Layer3

end
-- ==== Proof.Layer4.lean ====
/-
  Layer 4 of the network as the blocked call computes it: the whole output array as one function of the arrays
  the call finds.

  The call walks the `327680` nodes in 80 blocks of 4096 rows. At block `t` it is handed rows `4096 t … 4096 t + 4095` of
  the node features and of the summed neighbour features, and the six parameter arrays whole; it stores, at row `r` of
  the block and feature `q`, the row formula `ginRow` of row `r` of its two blocks. Row `r` of block `t` is node
  `4096 t + r`, so what block `t` writes back is rows `4096 t …` of the one array `ginRows` of the arrays found at entry; the
  80 blocks cover every node (node `p` lies in block `p / 4096`), so the output array ends equal to `ginRows` everywhere.
-/
import proofs.«138013_j40029095198816_1_alg».proof.Proof.Gen.KernelIdeal.Frame
import proofs.«138013_j40029095198816_1_alg».proof.Proof.LibGinRow

set_option maxRecDepth 16384

noncomputable section

open scoped BigOperators

namespace Cert.KernelIdeal.Layer4

open Cert.KernelIdeal Cert.KernelIdeal.Gen Idealize.ShloMosaic Idealize.ShloMosaic.TcCoe Idealize.ShloMosaic.ValueIdx
open Idealize.SL.Sem Cert.GinRow

variable (V : (c : Dev nD) → (b : Ref sig .tc) → Buf (Elt Ideal) ((c : Thread nD τ).loc b))

theorem zeroOffsets : (![0, 0] : Fin 2 → Nat) = fun _ => 0 := funext fun a => by fin_cases a <;> rfl

/-- The printed block maps, decided once over the 80 grid points: the features, the neighbour sums and the output move
    down the rows with the point; each parameter array is the one block `(0, 0)`. -/
theorem idx_facts : ∀ t : Fin cfg3.N, win3_0.index t 0 = t.val
    ∧ win3_0.index t 1 = 0
    ∧ win3_1.index t 0 = t.val
    ∧ win3_1.index t 1 = 0
    ∧ win3_2.index t 0 = 0
    ∧ win3_2.index t 1 = 0
    ∧ win3_3.index t 0 = 0
    ∧ win3_3.index t 1 = 0
    ∧ win3_4.index t 0 = 0
    ∧ win3_4.index t 1 = 0
    ∧ win3_5.index t 0 = 0
    ∧ win3_5.index t 1 = 0
    ∧ win3_6.index t 0 = 0
    ∧ win3_6.index t 1 = 0
    ∧ win3_7.index t 0 = 0
    ∧ win3_7.index t 1 = 0
    ∧ win3_8.index t 0 = t.val
    ∧ win3_8.index t 1 = 0 :=
  (by decide +kernel : ∀ t : Fin grid3.N, _)

/-- What the body stores at row `r`, feature `q` of its block: the row formula of row `r` of the loaded blocks. -/
theorem stored_apply (x0 x1 : Vec Ideal S4096x138 .f32) (x2 : Vec Ideal S138x128 .f32) (x3 : Vec Ideal S1x128 .f32) (x4 : Vec Ideal S138x128 .f32)
    (x5 : Vec Ideal S1x128 .f32) (x6 : Vec Ideal S128x128 .f32) (x7 : Vec Ideal S1x128 .f32) (r : Fin 4096) (q : Fin 128) :
    k3_pay1 x0 x1 x2 x3 x4 x5 x6 x7 (ix2 r q)
      = ginRow (fun k => x0 (ix2 r k)) (fun k => x1 (ix2 r k)) (fun k j => x2 (ix2 k j)) (fun j => x3 (ix2 0 j))
          (fun k j => x4 (ix2 k j)) (fun j => x5 (ix2 0 j)) (fun k j => x6 (ix2 k j)) (fun j => x7 (ix2 0 j)) q := by
  unfold k3_pay1
  simp only [shapeCast_self]
  exact block_apply 4096 138 128 _ _ x0 x1 x2 x3 x4 x5 x6 x7 r q

/-- Window 0's block at point `t` is rows `4096 t … 4096 t + 4095` of its array, all columns. -/
theorem blk0 (c : Dev nD) (t : Fin cfg3.N) (r : Fin 4096) (k : Fin 138) (p : Fin 327680) (hp : p.val = 4096 * t.val + r.val) :
    (iblk3 V c 0 t : Vec Ideal S4096x138 .f32) (ix2 r k) = (V c main_v45 : S327680x138.Idx → EReal) (ix2 p k) := by
  obtain ⟨e00, e01, e10, e11, e20, e21, e30, e31, e40, e41, e50, e51, e60, e61, e70, e71, e80, e81⟩ := idx_facts t
  unfold iblk3
  rw [View.read_apply]
  show V c main_v45 _ = V c main_v45 (ix2 p k)
  refine congrArg _ (funext fun a => Fin.ext ?_)
  match a with
  | ⟨0, _⟩ => show win3_0.index t 0 * 4096 + 1 * r.val = p.val; rw [e00, hp]; omega
  | ⟨1, _⟩ => show win3_0.index t 1 * 138 + 1 * k.val = k.val; rw [e01]; omega

/-- Window 1's block at point `t` is rows `4096 t … 4096 t + 4095` of its array, all columns. -/
theorem blk1 (c : Dev nD) (t : Fin cfg3.N) (r : Fin 4096) (k : Fin 138) (p : Fin 327680) (hp : p.val = 4096 * t.val + r.val) :
    (iblk3 V c 1 t : Vec Ideal S4096x138 .f32) (ix2 r k) = (V c main_v55 : S327680x138.Idx → EReal) (ix2 p k) := by
  obtain ⟨e00, e01, e10, e11, e20, e21, e30, e31, e40, e41, e50, e51, e60, e61, e70, e71, e80, e81⟩ := idx_facts t
  unfold iblk3
  rw [View.read_apply]
  show V c main_v55 _ = V c main_v55 (ix2 p k)
  refine congrArg _ (funext fun a => Fin.ext ?_)
  match a with
  | ⟨0, _⟩ => show win3_1.index t 0 * 4096 + 1 * r.val = p.val; rw [e10, hp]; omega
  | ⟨1, _⟩ => show win3_1.index t 1 * 138 + 1 * k.val = k.val; rw [e11]; omega

/-- Window 2 is one block, the whole of its array: every point reads the array itself. -/
theorem blk2 (c : Dev nD) (t : Fin cfg3.N) :
    (iblk3 V c 2 t : Vec Ideal S138x128 .f32) = (V c main_arg20 : S138x128.Idx → EReal) := by
  obtain ⟨e00, e01, e10, e11, e20, e21, e30, e31, e40, e41, e50, e51, e60, e61, e70, e71, e80, e81⟩ := idx_facts t
  funext y
  unfold iblk3
  rw [View.read_apply]
  show V c main_arg20 _ = V c main_arg20 y
  refine congrArg _ (funext fun a => Fin.ext ?_)
  match a with
  | ⟨0, _⟩ => show win3_2.index t 0 * 138 + 1 * (y 0).val = (y 0).val; rw [e20]; omega
  | ⟨1, _⟩ => show win3_2.index t 1 * 128 + 1 * (y 1).val = (y 1).val; rw [e21]; omega

/-- Window 3 is one block, the whole of its array: every point reads the array itself. -/
theorem blk3 (c : Dev nD) (t : Fin cfg3.N) :
    (iblk3 V c 3 t : Vec Ideal S1x128 .f32) = (V c main_v56 : S1x128.Idx → EReal) := by
  obtain ⟨e00, e01, e10, e11, e20, e21, e30, e31, e40, e41, e50, e51, e60, e61, e70, e71, e80, e81⟩ := idx_facts t
  funext y
  unfold iblk3
  rw [View.read_apply]
  show V c main_v56 _ = V c main_v56 y
  refine congrArg _ (funext fun a => Fin.ext ?_)
  match a with
  | ⟨0, _⟩ => show win3_3.index t 0 * 1 + 1 * (y 0).val = (y 0).val; rw [e30]; omega
  | ⟨1, _⟩ => show win3_3.index t 1 * 128 + 1 * (y 1).val = (y 1).val; rw [e31]; omega

/-- Window 4 is one block, the whole of its array: every point reads the array itself. -/
theorem blk4 (c : Dev nD) (t : Fin cfg3.N) :
    (iblk3 V c 4 t : Vec Ideal S138x128 .f32) = (V c main_arg22 : S138x128.Idx → EReal) := by
  obtain ⟨e00, e01, e10, e11, e20, e21, e30, e31, e40, e41, e50, e51, e60, e61, e70, e71, e80, e81⟩ := idx_facts t
  funext y
  unfold iblk3
  rw [View.read_apply]
  show V c main_arg22 _ = V c main_arg22 y
  refine congrArg _ (funext fun a => Fin.ext ?_)
  match a with
  | ⟨0, _⟩ => show win3_4.index t 0 * 138 + 1 * (y 0).val = (y 0).val; rw [e40]; omega
  | ⟨1, _⟩ => show win3_4.index t 1 * 128 + 1 * (y 1).val = (y 1).val; rw [e41]; omega

/-- Window 5 is one block, the whole of its array: every point reads the array itself. -/
theorem blk5 (c : Dev nD) (t : Fin cfg3.N) :
    (iblk3 V c 5 t : Vec Ideal S1x128 .f32) = (V c main_v57 : S1x128.Idx → EReal) := by
  obtain ⟨e00, e01, e10, e11, e20, e21, e30, e31, e40, e41, e50, e51, e60, e61, e70, e71, e80, e81⟩ := idx_facts t
  funext y
  unfold iblk3
  rw [View.read_apply]
  show V c main_v57 _ = V c main_v57 y
  refine congrArg _ (funext fun a => Fin.ext ?_)
  match a with
  | ⟨0, _⟩ => show win3_5.index t 0 * 1 + 1 * (y 0).val = (y 0).val; rw [e50]; omega
  | ⟨1, _⟩ => show win3_5.index t 1 * 128 + 1 * (y 1).val = (y 1).val; rw [e51]; omega

/-- Window 6 is one block, the whole of its array: every point reads the array itself. -/
theorem blk6 (c : Dev nD) (t : Fin cfg3.N) :
    (iblk3 V c 6 t : Vec Ideal S128x128 .f32) = (V c main_arg24 : S128x128.Idx → EReal) := by
  obtain ⟨e00, e01, e10, e11, e20, e21, e30, e31, e40, e41, e50, e51, e60, e61, e70, e71, e80, e81⟩ := idx_facts t
  funext y
  unfold iblk3
  rw [View.read_apply]
  show V c main_arg24 _ = V c main_arg24 y
  refine congrArg _ (funext fun a => Fin.ext ?_)
  match a with
  | ⟨0, _⟩ => show win3_6.index t 0 * 128 + 1 * (y 0).val = (y 0).val; rw [e60]; omega
  | ⟨1, _⟩ => show win3_6.index t 1 * 128 + 1 * (y 1).val = (y 1).val; rw [e61]; omega

/-- Window 7 is one block, the whole of its array: every point reads the array itself. -/
theorem blk7 (c : Dev nD) (t : Fin cfg3.N) :
    (iblk3 V c 7 t : Vec Ideal S1x128 .f32) = (V c main_v58 : S1x128.Idx → EReal) := by
  obtain ⟨e00, e01, e10, e11, e20, e21, e30, e31, e40, e41, e50, e51, e60, e61, e70, e71, e80, e81⟩ := idx_facts t
  funext y
  unfold iblk3
  rw [View.read_apply]
  show V c main_v58 _ = V c main_v58 y
  refine congrArg _ (funext fun a => Fin.ext ?_)
  match a with
  | ⟨0, _⟩ => show win3_7.index t 0 * 1 + 1 * (y 0).val = (y 0).val; rw [e70]; omega
  | ⟨1, _⟩ => show win3_7.index t 1 * 128 + 1 * (y 1).val = (y 1).val; rw [e71]; omega

/-- The layer's output as one function of the arrays found at entry. -/
def result (c : Dev nD) : Buf (Elt Ideal) ((c : Thread nD τ).loc main_v59) :=
  ginRows 327680 138 128 (V c main_v45 : S327680x138.Idx → EReal) (V c main_v55 : S327680x138.Idx → EReal)
    (V c main_arg20 : S138x128.Idx → EReal) (fun q => (V c main_v56 : S1x128.Idx → EReal) (ix2 0 q))
    (V c main_arg22 : S138x128.Idx → EReal) (fun q => (V c main_v57 : S1x128.Idx → EReal) (ix2 0 q))
    (V c main_arg24 : S128x128.Idx → EReal) (fun q => (V c main_v58 : S1x128.Idx → EReal) (ix2 0 q))

/-- One stored entry against one entry of the whole-array function: entry `j` of the block stored at point `t` is entry
    `i` of `ginRows` when `i` is row `4096 t + j 0`, column `j 1`; stated over any blocks that are those rows. -/
theorem entry_eq (X A : S327680x138.Idx → EReal) (Wr : S138x128.Idx → EReal) (br : S1x128.Idx → EReal) (W1 : S138x128.Idx → EReal)
    (b1 : S1x128.Idx → EReal) (W2 : S128x128.Idx → EReal) (b2 : S1x128.Idx → EReal)
    (x0 x1 : Vec Ideal S4096x138 .f32) (x2 : Vec Ideal S138x128 .f32) (x3 : Vec Ideal S1x128 .f32) (x4 : Vec Ideal S138x128 .f32)
    (x5 : Vec Ideal S1x128 .f32) (x6 : Vec Ideal S128x128 .f32) (x7 : Vec Ideal S1x128 .f32) (t : Nat)
    (h0 : ∀ (r : Fin 4096) (k : Fin 138) (p : Fin 327680), p.val = 4096 * t + r.val → x0 (ix2 r k) = X (ix2 p k))
    (h1 : ∀ (r : Fin 4096) (k : Fin 138) (p : Fin 327680), p.val = 4096 * t + r.val → x1 (ix2 r k) = A (ix2 p k))
    (h2 : x2 = Wr) (h3 : x3 = br) (h4 : x4 = W1) (h5 : x5 = b1) (h6 : x6 = W2) (h7 : x7 = b2)
    (j : S4096x128.Idx) (i : S327680x128.Idx) (hi0 : (i 0).val = 4096 * t + (j 0).val) (hi1 : (i 1).val = (j 1).val) :
    k3_pay1 x0 x1 x2 x3 x4 x5 x6 x7 j
      = ginRows 327680 138 128 X A Wr (fun q => br (ix2 0 q)) W1 (fun q => b1 (ix2 0 q)) W2 (fun q => b2 (ix2 0 q)) i := by
  subst h2 h3 h4 h5 h6 h7
  obtain ⟨r, q, rfl⟩ : ∃ (r : Fin 4096) (q : Fin 128), j = ix2 r q := ⟨j 0, j 1, eq_ix2 j⟩
  obtain ⟨p, q', rfl⟩ : ∃ (p : Fin 327680) (q' : Fin 128), i = ix2 p q' := ⟨i 0, i 1, eq_ix2 i⟩
  have hp : p.val = 4096 * t + r.val := hi0
  obtain rfl : q' = q := Fin.ext hi1
  have e0 : (fun k => x0 (ix2 r k)) = fun k => X (ix2 p k) := funext fun k => h0 r k p hp
  have e1 : (fun k => x1 (ix2 r k)) = fun k => A (ix2 p k) := funext fun k => h1 r k p hp
  rw [stored_apply, ginRows_apply, e0, e1]

/-- What point `t` writes back is block `t` of `result`. -/
theorem flushed_eq (c : Dev nD) (t : Fin cfg3.N) :
    (dat3 V c).flushed 8 t = ((cfg3.win 8).blk t).view.read (Elt Ideal) (result V c) := by
  obtain ⟨e00, e01, e10, e11, e20, e21, e30, e31, e40, e41, e50, e51, e60, e61, e70, e71, e80, e81⟩ := idx_facts t
  show (cfg3.win 8).cut (grid3.coords t) ((dat3 V c).after 8 t) = _
  rw [after3_8]
  unfold out3_8
  rw [View.canon_unit_zero zeroOffsets]
  simp only [View.ld_unit_zero (S := S4096x138) zeroOffsets, View.ld_unit_zero (S := S138x128) zeroOffsets, View.ld_unit_zero (S := S1x128) zeroOffsets, View.ld_unit_zero (S := S128x128) zeroOffsets]
  funext j
  show k3_pay1 (iblk3 V c 0 t) (iblk3 V c 1 t) (iblk3 V c 2 t) (iblk3 V c 3 t) (iblk3 V c 4 t) (iblk3 V c 5 t) (iblk3 V c 6 t) (iblk3 V c 7 t) j
     = result V c (((cfg3.win 8).blk t).view.emb j)
  unfold result
  exact entry_eq (V c main_v45) (V c main_v55) (V c main_arg20) (V c main_v56) (V c main_arg22) (V c main_v57) (V c main_arg24) (V c main_v58)
    (iblk3 V c 0 t) (iblk3 V c 1 t) (iblk3 V c 2 t) (iblk3 V c 3 t) (iblk3 V c 4 t) (iblk3 V c 5 t) (iblk3 V c 6 t) (iblk3 V c 7 t) t.val
    (fun r k p hp => blk0 V c t r k p hp) (fun r k p hp => blk1 V c t r k p hp)
    (blk2 V c t) (blk3 V c t) (blk4 V c t) (blk5 V c t) (blk6 V c t) (blk7 V c t)
    j (((cfg3.win 8).blk t).view.emb j)
    (by show win3_8.index t 0 * 4096 + 1 * (j 0).val = 4096 * t.val + (j 0).val; rw [e80]; omega)
    (by show win3_8.index t 1 * 128 + 1 * (j 1).val = (j 1).val; rw [e81]; omega)

/-- Every node's row lies in the block of point `p / 4096`, and every point writes its block back. -/
theorem covered (i : S327680x128.Idx) :
    ∃ t : Fin cfg3.N, (cfg3.win 8).flush t = true ∧ i ∈ ((cfg3.win 8).blk t).view.set := by
  have h0 : (i 0).val < 327680 := (i 0).isLt
  have h1 : (i 1).val < 128 := (i 1).isLt
  have ht : (i 0).val / 4096 < grid3.N := Nat.lt_of_lt_of_eq (by omega : (i 0).val / 4096 < 80) N_3.symm
  obtain ⟨e00, e01, e10, e11, e20, e21, e30, e31, e40, e41, e50, e51, e60, e61, e70, e71, e80, e81⟩ := idx_facts ⟨(i 0).val / 4096, ht⟩
  refine ⟨⟨(i 0).val / 4096, ht⟩, flush3_8 _, ?_⟩
  show i ∈ ((View.whole main_v59).slice (win3_8.rect ⟨(i 0).val / 4096, ht⟩)).set
  rw [View.set_slice_whole, Rect.mem_set_unit]
  intro a
  match a with
  | ⟨0, _⟩ =>
    show win3_8.index ⟨(i 0).val / 4096, ht⟩ 0 * 4096 ≤ (i 0).val ∧ (i 0).val < win3_8.index ⟨(i 0).val / 4096, ht⟩ 0 * 4096 + 4096
    rw [e80]; show (i 0).val / 4096 * 4096 ≤ (i 0).val ∧ (i 0).val < (i 0).val / 4096 * 4096 + 4096; omega
  | ⟨1, _⟩ =>
    show win3_8.index ⟨(i 0).val / 4096, ht⟩ 1 * 128 ≤ (i 1).val ∧ (i 1).val < win3_8.index ⟨(i 0).val / 4096, ht⟩ 1 * 128 + 128
    rw [e81]; omega

/-- The output array after the call: `result` of the arrays found at entry, at every index. -/
theorem final (c : Dev nD) : (dat3 V c).arrAt 8 cfg3.N = result V c :=
  (dat3 V c).arrAt_eq_of_cover 8 (result V c) (fun t _ => flushed_eq V c t) (covered)

end Cert.KernelIdeal.Layer4

end
-- ==== Proof.Fold.lean ====
/-
  The blocked program's fold, read: what the result buffer holds at the end, as the network function of the arguments.

  Between the blocked calls the host computes, for the next layer, the neighbour sums of the previous layer's output
  (gather the source rows, add them into the target rows of a zero array) and reshapes the layer's three bias vectors
  to rows. Every other buffer a stretch leaves alone, and a call changes only its own output array. So, walking the fold
  from the launch: the edge sources and targets, the parameter arrays and each layer's output reach the call that reads
  them unchanged; call `k` leaves in its output the row formula over every node (`Layer<k>.final`) of exactly those
  arrays; a bias row read at `(0, q)` is the bias vector at `q`. After the fourth call the last two stretches reshape
  and pad. Hence the result is `tail (net …)` of the launch contents.
-/
import proofs.«138013_j40029095198816_1_alg».proof.Proof.Gen.KernelIdeal.Frame
import proofs.«138013_j40029095198816_1_alg».proof.Proof.LibLineBufs
import proofs.«138013_j40029095198816_1_alg».proof.Proof.NetSpec
import proofs.«138013_j40029095198816_1_alg».proof.Proof.Layer1
import proofs.«138013_j40029095198816_1_alg».proof.Proof.Layer2
import proofs.«138013_j40029095198816_1_alg».proof.Proof.Layer3
import proofs.«138013_j40029095198816_1_alg».proof.Proof.Layer4

set_option maxRecDepth 16384

noncomputable section

namespace Cert.KernelIdeal.Net

open Cert.KernelIdeal Cert.KernelIdeal.Gen Idealize.ShloMosaic Idealize.ShloMosaic.TcCoe Idealize.ShloMosaic.ValueIdx
open Idealize.SL.Sem Idealize.ShloMosaic.StableHlo Cert.GinRow Cert.GinNet

/-- The source node of every edge: row 0 of the edge array. -/
def srcOf (e : (⟨S2x1310720, .i32⟩ : BufTy).Contents (Elt Ideal)) : (⟨S1310720, .i32⟩ : BufTy).Contents (Elt Ideal) :=
  shapeCast _ (extractStridedSlice S1x1310720 ![0, 0] e slices_S2x1310720_S1x1310720_0_0) shapeCasts_S1x1310720_S1310720

/-- The target node of every edge: row 1 of the edge array. -/
def dstOf (e : (⟨S2x1310720, .i32⟩ : BufTy).Contents (Elt Ideal)) : (⟨S1310720, .i32⟩ : BufTy).Contents (Elt Ideal) :=
  shapeCast _ (extractStridedSlice S1x1310720 ![1, 0] e slices_S2x1310720_S1x1310720_1_0) shapeCasts_S1x1310720_S1310720

/-- The neighbour sums of a 79-feature array, from the edges' sources `s` and targets `d`: the source rows gathered (a
    negative source index counted from the end), then added into the target rows of a zero array. -/
def sums79 (s d : (⟨S1310720, .i32⟩ : BufTy).Contents (Elt Ideal)) (x : FVec Ideal S327680x79 .f32) : FVec Ideal S327680x79 .f32 :=
  Host.scatterAdd scatter_S327680x79_S1310720x1_S1310720x79_1_0_0_1 (broadcastInDim S327680x79 ![] bcast_S_S327680x79 (constant S_ .f32 0x00000000#32)) (broadcastInDim S1310720x1 ![0] bcast_S1310720_S1310720x1_0 d) (Host.gather gather_S327680x79_S1310720x1_S1310720x79_1_0_n_n_0_1_179 x (broadcastInDim S1310720x1 ![0] bcast_S1310720_S1310720x1_0 (select (cmpi .slt s (broadcastInDim S1310720 ![] bcast_S_S1310720 (constantI S_ 32 0#32))) (addi s (broadcastInDim S1310720 ![] bcast_S_S1310720 (constantI S_ 32 327680#32))) s)))

/-- The same for a 138-feature array. -/
def sums138 (s d : (⟨S1310720, .i32⟩ : BufTy).Contents (Elt Ideal)) (x : FVec Ideal S327680x138 .f32) : FVec Ideal S327680x138 .f32 :=
  Host.scatterAdd scatter_S327680x138_S1310720x1_S1310720x138_1_0_0_1 (broadcastInDim S327680x138 ![] bcast_S_S327680x138 (constant S_ .f32 0x00000000#32)) (broadcastInDim S1310720x1 ![0] bcast_S1310720_S1310720x1_0 d) (Host.gather gather_S327680x138_S1310720x1_S1310720x138_1_0_n_n_0_1_1138 x (broadcastInDim S1310720x1 ![0] bcast_S1310720_S1310720x1_0 (select (cmpi .slt s (broadcastInDim S1310720 ![] bcast_S_S1310720 (constantI S_ 32 0#32))) (addi s (broadcastInDim S1310720 ![] bcast_S_S1310720 (constantI S_ 32 327680#32))) s)))

/-- Neighbour sums from the edge array itself. -/
def agg79 (e : (⟨S2x1310720, .i32⟩ : BufTy).Contents (Elt Ideal)) (x : FVec Ideal S327680x79 .f32) : FVec Ideal S327680x79 .f32 :=
  sums79 (srcOf e) (dstOf e) x
def agg138 (e : (⟨S2x1310720, .i32⟩ : BufTy).Contents (Elt Ideal)) (x : FVec Ideal S327680x138 .f32) : FVec Ideal S327680x138 .f32 :=
  sums138 (srcOf e) (dstOf e) x

/-- The last two operations: 327680 nodes as 8192 graphs of 40, each padded with five zero rows. -/
def tail (h : FVec Ideal S327680x128 .f32) : FVec Ideal S8192x45x128 .f32 :=
  pad S8192x45x128 ![0, 0, 0] ![0, 5, 0] ![0, 0, 0] (shapeCast _ h shapeCasts_S327680x128_S8192x40x128) (sitofp .f32 (constantI S_ 32 0#32)) pads_S8192x40x128_S8192x45x128_000_050_000 h_S_

/-- A bias vector reshaped to a `[1, N]` row, read at `(0, q)`, is the vector at `q`. -/
theorem row_of_vec (N : Nat) (b : (⟨1, ![N]⟩ : Shape).Idx → EReal) (h : (⟨1, ![N]⟩ : Shape).ShapeCasts ⟨2, ![1, N]⟩) (q : Fin N) :
    shapeCast ⟨2, ![1, N]⟩ b h (ix2 0 q) = b (ix1 q) := by
  refine (shapeCast_addUnit_apply ![N] b h (ix2 0 q)).trans (congrArg b (funext fun a => ?_))
  match a with
  | ⟨0, _⟩ => rfl

/-! ## What each stretch of host operations writes, and what it leaves alone -/

/-- The buffers stretch 0 of host operations writes: one per operation. -/
def wrote0 : List (Ref sig .tc) := [main_v0, main_v1, main_v2, main_v3, main_c, main_v4, main_v5, main_c_0, main_v6, main_v7, main_v8, main_v9, main_v10, main_cst, main_v11, main_v12, main_v13, main_v14, main_v15, main_v16]

theorem wrote0_spec : (hostOps0 : List (HloOp τ sig (Elt Ideal))).Forall fun op => op.writes ⊆ (wrote0.map (Proc.devRef (τ := τ) .tc)).toFinset := by
  simp only [hostOps0, List.Forall, StableHlo.nullary_writes, StableHlo.unary_writes, StableHlo.binary_writes, StableHlo.ternary_writes, StableHlo.reshape_writes, Finset.singleton_subset_iff]
  repeat' apply And.intro
  all_goals decide

/-- A buffer outside that list is as it was after the stretch, whatever the contents before it. -/
theorem keep0 (W : Valuation τ sig (Elt Ideal)) (b : Ref sig .tc) (hb : b ∉ wrote0) :
    StableHlo.after hostOps0 W (Proc.devRef .tc b) = W (Proc.devRef .tc b) :=
  StableHlo.after_of_forall_not_mem (b := Proc.devRef .tc b) _ _ fun _ hop => Cert.LibLineBufs.not_mem_writes_of wrote0_spec hop hb

/-- The buffers stretch 1 of host operations writes: one per operation. -/
def wrote1 : List (Ref sig .tc) := [main_c_1, main_v18, main_v19, main_c_2, main_v20, main_v21, main_v22, main_v23, main_v24, main_cst_3, main_v25, main_v26, main_v27, main_v28, main_v29, main_v30]

theorem wrote1_spec : (hostOps1 : List (HloOp τ sig (Elt Ideal))).Forall fun op => op.writes ⊆ (wrote1.map (Proc.devRef (τ := τ) .tc)).toFinset := by
  simp only [hostOps1, List.Forall, StableHlo.nullary_writes, StableHlo.unary_writes, StableHlo.binary_writes, StableHlo.ternary_writes, StableHlo.reshape_writes, Finset.singleton_subset_iff]
  repeat' apply And.intro
  all_goals decide

/-- A buffer outside that list is as it was after the stretch, whatever the contents before it. -/
theorem keep1 (W : Valuation τ sig (Elt Ideal)) (b : Ref sig .tc) (hb : b ∉ wrote1) :
    StableHlo.after hostOps1 W (Proc.devRef .tc b) = W (Proc.devRef .tc b) :=
  StableHlo.after_of_forall_not_mem (b := Proc.devRef .tc b) _ _ fun _ hop => Cert.LibLineBufs.not_mem_writes_of wrote1_spec hop hb

/-- The buffers stretch 2 of host operations writes: one per operation. -/
def wrote2 : List (Ref sig .tc) := [main_c_4, main_v32, main_v33, main_c_5, main_v34, main_v35, main_v36, main_v37, main_v38, main_cst_6, main_v39, main_v40, main_v41, main_v42, main_v43, main_v44]

theorem wrote2_spec : (hostOps2 : List (HloOp τ sig (Elt Ideal))).Forall fun op => op.writes ⊆ (wrote2.map (Proc.devRef (τ := τ) .tc)).toFinset := by
  simp only [hostOps2, List.Forall, StableHlo.nullary_writes, StableHlo.unary_writes, StableHlo.binary_writes, StableHlo.ternary_writes, StableHlo.reshape_writes, Finset.singleton_subset_iff]
  repeat' apply And.intro
  all_goals decide

/-- A buffer outside that list is as it was after the stretch, whatever the contents before it. -/
theorem keep2 (W : Valuation τ sig (Elt Ideal)) (b : Ref sig .tc) (hb : b ∉ wrote2) :
    StableHlo.after hostOps2 W (Proc.devRef .tc b) = W (Proc.devRef .tc b) :=
  StableHlo.after_of_forall_not_mem (b := Proc.devRef .tc b) _ _ fun _ hop => Cert.LibLineBufs.not_mem_writes_of wrote2_spec hop hb

/-- The buffers stretch 3 of host operations writes: one per operation. -/
def wrote3 : List (Ref sig .tc) := [main_c_7, main_v46, main_v47, main_c_8, main_v48, main_v49, main_v50, main_v51, main_v52, main_cst_9, main_v53, main_v54, main_v55, main_v56, main_v57, main_v58]

theorem wrote3_spec : (hostOps3 : List (HloOp τ sig (Elt Ideal))).Forall fun op => op.writes ⊆ (wrote3.map (Proc.devRef (τ := τ) .tc)).toFinset := by
  simp only [hostOps3, List.Forall, StableHlo.nullary_writes, StableHlo.unary_writes, StableHlo.binary_writes, StableHlo.ternary_writes, StableHlo.reshape_writes, Finset.singleton_subset_iff]
  repeat' apply And.intro
  all_goals decide

/-- A buffer outside that list is as it was after the stretch, whatever the contents before it. -/
theorem keep3 (W : Valuation τ sig (Elt Ideal)) (b : Ref sig .tc) (hb : b ∉ wrote3) :
    StableHlo.after hostOps3 W (Proc.devRef .tc b) = W (Proc.devRef .tc b) :=
  StableHlo.after_of_forall_not_mem (b := Proc.devRef .tc b) _ _ fun _ hop => Cert.LibLineBufs.not_mem_writes_of wrote3_spec hop hb

/-- Stretch 0 cuts the edge array into sources and targets. -/
theorem ops0_src (W : Valuation τ sig (Elt Ideal)) :
    StableHlo.after hostOps0 W (Proc.devRef .tc main_v1) = srcOf (W (Proc.devRef .tc main_arg1)) := by
  dsimp only [hostOps0]
  after_results
  rfl
theorem ops0_dst (W : Valuation τ sig (Elt Ideal)) :
    StableHlo.after hostOps0 W (Proc.devRef .tc main_v3) = dstOf (W (Proc.devRef .tc main_arg1)) := by
  dsimp only [hostOps0]
  after_results
  rfl

set_option maxHeartbeats 4000000 in
/-- Stretch 0 leaves the neighbour sums of layer 1's input in `main_v13`. -/
theorem ops0_sums (W : Valuation τ sig (Elt Ideal)) :
    StableHlo.after hostOps0 W (Proc.devRef .tc main_v13) = sums79 (srcOf (W (Proc.devRef .tc main_arg1))) (dstOf (W (Proc.devRef .tc main_arg1))) (W (Proc.devRef .tc main_arg0)) := by
  dsimp only [hostOps0]
  after_results_simp <;> rfl
/-- … and bias 1 of the layer as a `[1, 138]` row in `main_v14`. -/
theorem ops0_bias0 (W : Valuation τ sig (Elt Ideal)) :
    StableHlo.after hostOps0 W (Proc.devRef .tc main_v14) = shapeCast S1x138 (W (Proc.devRef .tc main_arg3)) shapeCasts_S138_S1x138 := by
  dsimp only [hostOps0]
  after_results
  rfl
/-- … and bias 2 of the layer as a `[1, 138]` row in `main_v15`. -/
theorem ops0_bias1 (W : Valuation τ sig (Elt Ideal)) :
    StableHlo.after hostOps0 W (Proc.devRef .tc main_v15) = shapeCast S1x138 (W (Proc.devRef .tc main_arg5)) shapeCasts_S138_S1x138 := by
  dsimp only [hostOps0]
  after_results
  rfl
/-- … and bias 3 of the layer as a `[1, 138]` row in `main_v16`. -/
theorem ops0_bias2 (W : Valuation τ sig (Elt Ideal)) :
    StableHlo.after hostOps0 W (Proc.devRef .tc main_v16) = shapeCast S1x138 (W (Proc.devRef .tc main_arg7)) shapeCasts_S138_S1x138 := by
  dsimp only [hostOps0]
  after_results
  rfl

set_option maxHeartbeats 4000000 in
/-- Stretch 1 leaves the neighbour sums of layer 2's input in `main_v27`. -/
theorem ops1_sums (W : Valuation τ sig (Elt Ideal)) :
    StableHlo.after hostOps1 W (Proc.devRef .tc main_v27) = sums138 (W (Proc.devRef .tc main_v1)) (W (Proc.devRef .tc main_v3)) (W (Proc.devRef .tc main_v17)) := by
  dsimp only [hostOps1]
  after_results_simp <;> rfl
/-- … and bias 1 of the layer as a `[1, 138]` row in `main_v28`. -/
theorem ops1_bias0 (W : Valuation τ sig (Elt Ideal)) :
    StableHlo.after hostOps1 W (Proc.devRef .tc main_v28) = shapeCast S1x138 (W (Proc.devRef .tc main_arg9)) shapeCasts_S138_S1x138 := by
  dsimp only [hostOps1]
  after_results
  rfl
/-- … and bias 2 of the layer as a `[1, 138]` row in `main_v29`. -/
theorem ops1_bias1 (W : Valuation τ sig (Elt Ideal)) :
    StableHlo.after hostOps1 W (Proc.devRef .tc main_v29) = shapeCast S1x138 (W (Proc.devRef .tc main_arg11)) shapeCasts_S138_S1x138 := by
  dsimp only [hostOps1]
  after_results
  rfl
/-- … and bias 3 of the layer as a `[1, 138]` row in `main_v30`. -/
theorem ops1_bias2 (W : Valuation τ sig (Elt Ideal)) :
    StableHlo.after hostOps1 W (Proc.devRef .tc main_v30) = shapeCast S1x138 (W (Proc.devRef .tc main_arg13)) shapeCasts_S138_S1x138 := by
  dsimp only [hostOps1]
  after_results
  rfl

set_option maxHeartbeats 4000000 in
/-- Stretch 2 leaves the neighbour sums of layer 3's input in `main_v41`. -/
theorem ops2_sums (W : Valuation τ sig (Elt Ideal)) :
    StableHlo.after hostOps2 W (Proc.devRef .tc main_v41) = sums138 (W (Proc.devRef .tc main_v1)) (W (Proc.devRef .tc main_v3)) (W (Proc.devRef .tc main_v31)) := by
  dsimp only [hostOps2]
  after_results_simp <;> rfl
/-- … and bias 1 of the layer as a `[1, 138]` row in `main_v42`. -/
theorem ops2_bias0 (W : Valuation τ sig (Elt Ideal)) :
    StableHlo.after hostOps2 W (Proc.devRef .tc main_v42) = shapeCast S1x138 (W (Proc.devRef .tc main_arg15)) shapeCasts_S138_S1x138 := by
  dsimp only [hostOps2]
  after_results
  rfl
/-- … and bias 2 of the layer as a `[1, 138]` row in `main_v43`. -/
theorem ops2_bias1 (W : Valuation τ sig (Elt Ideal)) :
    StableHlo.after hostOps2 W (Proc.devRef .tc main_v43) = shapeCast S1x138 (W (Proc.devRef .tc main_arg17)) shapeCasts_S138_S1x138 := by
  dsimp only [hostOps2]
  after_results
  rfl
/-- … and bias 3 of the layer as a `[1, 138]` row in `main_v44`. -/
theorem ops2_bias2 (W : Valuation τ sig (Elt Ideal)) :
    StableHlo.after hostOps2 W (Proc.devRef .tc main_v44) = shapeCast S1x138 (W (Proc.devRef .tc main_arg19)) shapeCasts_S138_S1x138 := by
  dsimp only [hostOps2]
  after_results
  rfl

set_option maxHeartbeats 4000000 in
/-- Stretch 3 leaves the neighbour sums of layer 4's input in `main_v55`. -/
theorem ops3_sums (W : Valuation τ sig (Elt Ideal)) :
    StableHlo.after hostOps3 W (Proc.devRef .tc main_v55) = sums138 (W (Proc.devRef .tc main_v1)) (W (Proc.devRef .tc main_v3)) (W (Proc.devRef .tc main_v45)) := by
  dsimp only [hostOps3]
  after_results_simp <;> rfl
/-- … and bias 1 of the layer as a `[1, 128]` row in `main_v56`. -/
theorem ops3_bias0 (W : Valuation τ sig (Elt Ideal)) :
    StableHlo.after hostOps3 W (Proc.devRef .tc main_v56) = shapeCast S1x128 (W (Proc.devRef .tc main_arg21)) shapeCasts_S128_S1x128 := by
  dsimp only [hostOps3]
  after_results
  rfl
/-- … and bias 2 of the layer as a `[1, 128]` row in `main_v57`. -/
theorem ops3_bias1 (W : Valuation τ sig (Elt Ideal)) :
    StableHlo.after hostOps3 W (Proc.devRef .tc main_v57) = shapeCast S1x128 (W (Proc.devRef .tc main_arg23)) shapeCasts_S128_S1x128 := by
  dsimp only [hostOps3]
  after_results
  rfl
/-- … and bias 3 of the layer as a `[1, 128]` row in `main_v58`. -/
theorem ops3_bias2 (W : Valuation τ sig (Elt Ideal)) :
    StableHlo.after hostOps3 W (Proc.devRef .tc main_v58) = shapeCast S1x128 (W (Proc.devRef .tc main_arg25)) shapeCasts_S128_S1x128 := by
  dsimp only [hostOps3]
  after_results
  rfl

/-! ## Buffers that reach a later boundary unchanged -/

variable (m : (ℓ : Loc nD τ sig) → Buf (Elt Ideal) ℓ) (ρ : Dev nD → PrngReg)

theorem W1_same (c : Dev nD) (b : Ref sig .tc) (h0 : b ∉ wrote0) :
    W1 m ρ c (Proc.devRef .tc b) = m ((c : Thread nD τ).loc b) := keep0 (W0 m ρ c) b h0
theorem W2_from1 (c : Dev nD) (b : Ref sig .tc) (a0 : ∀ w, Pipeline.arrRef spec0 w ≠ b) :
    W2 m ρ c (Proc.devRef .tc b) = W1 m ρ c (Proc.devRef .tc b) := W2_of_ne m ρ c b a0
theorem W2_same (c : Dev nD) (b : Ref sig .tc) (h0 : b ∉ wrote0) (a0 : ∀ w, Pipeline.arrRef spec0 w ≠ b) :
    W2 m ρ c (Proc.devRef .tc b) = m ((c : Thread nD τ).loc b) := (W2_from1 m ρ c b a0).trans (W1_same m ρ c b h0)
theorem W3_from1 (c : Dev nD) (b : Ref sig .tc) (a0 : ∀ w, Pipeline.arrRef spec0 w ≠ b) (h1 : b ∉ wrote1) :
    W3 m ρ c (Proc.devRef .tc b) = W1 m ρ c (Proc.devRef .tc b) := (keep1 (W2 m ρ c) b h1).trans (W2_from1 m ρ c b a0)
theorem W3_same (c : Dev nD) (b : Ref sig .tc) (h0 : b ∉ wrote0) (a0 : ∀ w, Pipeline.arrRef spec0 w ≠ b) (h1 : b ∉ wrote1) :
    W3 m ρ c (Proc.devRef .tc b) = m ((c : Thread nD τ).loc b) := (W3_from1 m ρ c b a0 h1).trans (W1_same m ρ c b h0)
theorem W4_from1 (c : Dev nD) (b : Ref sig .tc) (a0 : ∀ w, Pipeline.arrRef spec0 w ≠ b) (h1 : b ∉ wrote1) (a1 : ∀ w, Pipeline.arrRef spec1 w ≠ b) :
    W4 m ρ c (Proc.devRef .tc b) = W1 m ρ c (Proc.devRef .tc b) := (W4_of_ne m ρ c b a1).trans (W3_from1 m ρ c b a0 h1)
theorem W4_same (c : Dev nD) (b : Ref sig .tc) (h0 : b ∉ wrote0) (a0 : ∀ w, Pipeline.arrRef spec0 w ≠ b) (h1 : b ∉ wrote1) (a1 : ∀ w, Pipeline.arrRef spec1 w ≠ b) :
    W4 m ρ c (Proc.devRef .tc b) = m ((c : Thread nD τ).loc b) := (W4_from1 m ρ c b a0 h1 a1).trans (W1_same m ρ c b h0)
theorem W5_from1 (c : Dev nD) (b : Ref sig .tc) (a0 : ∀ w, Pipeline.arrRef spec0 w ≠ b) (h1 : b ∉ wrote1) (a1 : ∀ w, Pipeline.arrRef spec1 w ≠ b) (h2 : b ∉ wrote2) :
    W5 m ρ c (Proc.devRef .tc b) = W1 m ρ c (Proc.devRef .tc b) := (keep2 (W4 m ρ c) b h2).trans (W4_from1 m ρ c b a0 h1 a1)
theorem W5_same (c : Dev nD) (b : Ref sig .tc) (h0 : b ∉ wrote0) (a0 : ∀ w, Pipeline.arrRef spec0 w ≠ b) (h1 : b ∉ wrote1) (a1 : ∀ w, Pipeline.arrRef spec1 w ≠ b) (h2 : b ∉ wrote2) :
    W5 m ρ c (Proc.devRef .tc b) = m ((c : Thread nD τ).loc b) := (W5_from1 m ρ c b a0 h1 a1 h2).trans (W1_same m ρ c b h0)
theorem W6_from1 (c : Dev nD) (b : Ref sig .tc) (a0 : ∀ w, Pipeline.arrRef spec0 w ≠ b) (h1 : b ∉ wrote1) (a1 : ∀ w, Pipeline.arrRef spec1 w ≠ b) (h2 : b ∉ wrote2) (a2 : ∀ w, Pipeline.arrRef spec2 w ≠ b) :
    W6 m ρ c (Proc.devRef .tc b) = W1 m ρ c (Proc.devRef .tc b) := (W6_of_ne m ρ c b a2).trans (W5_from1 m ρ c b a0 h1 a1 h2)
theorem W6_same (c : Dev nD) (b : Ref sig .tc) (h0 : b ∉ wrote0) (a0 : ∀ w, Pipeline.arrRef spec0 w ≠ b) (h1 : b ∉ wrote1) (a1 : ∀ w, Pipeline.arrRef spec1 w ≠ b) (h2 : b ∉ wrote2) (a2 : ∀ w, Pipeline.arrRef spec2 w ≠ b) :
    W6 m ρ c (Proc.devRef .tc b) = m ((c : Thread nD τ).loc b) := (W6_from1 m ρ c b a0 h1 a1 h2 a2).trans (W1_same m ρ c b h0)
theorem W7_from1 (c : Dev nD) (b : Ref sig .tc) (a0 : ∀ w, Pipeline.arrRef spec0 w ≠ b) (h1 : b ∉ wrote1) (a1 : ∀ w, Pipeline.arrRef spec1 w ≠ b) (h2 : b ∉ wrote2) (a2 : ∀ w, Pipeline.arrRef spec2 w ≠ b) (h3 : b ∉ wrote3) :
    W7 m ρ c (Proc.devRef .tc b) = W1 m ρ c (Proc.devRef .tc b) := (keep3 (W6 m ρ c) b h3).trans (W6_from1 m ρ c b a0 h1 a1 h2 a2)
theorem W7_same (c : Dev nD) (b : Ref sig .tc) (h0 : b ∉ wrote0) (a0 : ∀ w, Pipeline.arrRef spec0 w ≠ b) (h1 : b ∉ wrote1) (a1 : ∀ w, Pipeline.arrRef spec1 w ≠ b) (h2 : b ∉ wrote2) (a2 : ∀ w, Pipeline.arrRef spec2 w ≠ b) (h3 : b ∉ wrote3) :
    W7 m ρ c (Proc.devRef .tc b) = m ((c : Thread nD τ).loc b) := (W7_from1 m ρ c b a0 h1 a1 h2 a2 h3).trans (W1_same m ρ c b h0)

theorem src2 (c : Dev nD) : W2 m ρ c (Proc.devRef .tc main_v1) = srcOf (m ((c : Thread nD τ).loc main_arg1)) :=
  (W2_from1 m ρ c main_v1 (by decide)).trans (ops0_src (W0 m ρ c))
theorem dst2 (c : Dev nD) : W2 m ρ c (Proc.devRef .tc main_v3) = dstOf (m ((c : Thread nD τ).loc main_arg1)) :=
  (W2_from1 m ρ c main_v3 (by decide)).trans (ops0_dst (W0 m ρ c))
theorem src4 (c : Dev nD) : W4 m ρ c (Proc.devRef .tc main_v1) = srcOf (m ((c : Thread nD τ).loc main_arg1)) :=
  (W4_from1 m ρ c main_v1 (by decide) (by decide) (by decide)).trans (ops0_src (W0 m ρ c))
theorem dst4 (c : Dev nD) : W4 m ρ c (Proc.devRef .tc main_v3) = dstOf (m ((c : Thread nD τ).loc main_arg1)) :=
  (W4_from1 m ρ c main_v3 (by decide) (by decide) (by decide)).trans (ops0_dst (W0 m ρ c))
theorem src6 (c : Dev nD) : W6 m ρ c (Proc.devRef .tc main_v1) = srcOf (m ((c : Thread nD τ).loc main_arg1)) :=
  (W6_from1 m ρ c main_v1 (by decide) (by decide) (by decide) (by decide) (by decide)).trans (ops0_src (W0 m ρ c))
theorem dst6 (c : Dev nD) : W6 m ρ c (Proc.devRef .tc main_v3) = dstOf (m ((c : Thread nD τ).loc main_arg1)) :=
  (W6_from1 m ρ c main_v3 (by decide) (by decide) (by decide) (by decide) (by decide)).trans (ops0_dst (W0 m ρ c))

/-! ## The four calls -/

/-- Layer 1's output: the row formula over every node, of the argument features, its neighbour sums and the layer's parameters. -/
def H1 (m : (ℓ : Loc nD τ sig) → Buf (Elt Ideal) ℓ) (c : Dev nD) : Mat 327680 138 :=
  layer 79 138 (agg79 (m ((c : Thread nD τ).loc main_arg1))) ((m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- After call 1 its output buffer holds `H1`. -/
theorem out1 (c : Dev nD) : W2 m ρ c (Proc.devRef .tc main_v17) = H1 m c := by
  refine (W2_arr m ρ c 8).trans ((Layer1.final (V1 m ρ) c).trans ?_)
  unfold Layer1.result H1 layer
  have e0 : (V1 m ρ c main_arg0 : S327680x79.Idx → EReal) = (m ((c : Thread nD τ).loc main_arg0)) := W1_same m ρ c main_arg0 (by decide)
  have e1 : (V1 m ρ c main_v13 : S327680x79.Idx → EReal) = agg79 (m ((c : Thread nD τ).loc main_arg1)) ((m ((c : Thread nD τ).loc main_arg0))) := ops0_sums (W0 m ρ c)
  have e2 : (V1 m ρ c main_arg2 : S79x138.Idx → EReal) = (m ((c : Thread nD τ).loc main_arg2)) := W1_same m ρ c main_arg2 (by decide)
  have e3 : (fun q => (V1 m ρ c main_v14 : S1x138.Idx → EReal) (ix2 0 q)) = fun q => (m ((c : Thread nD τ).loc main_arg3)) (ix1 q) := funext fun q => by
    rw [show (V1 m ρ c main_v14 : S1x138.Idx → EReal) = shapeCast S1x138 (m ((c : Thread nD τ).loc main_arg3)) shapeCasts_S138_S1x138 from
      (ops0_bias0 (W0 m ρ c)).trans (congrArg (fun v => shapeCast S1x138 v shapeCasts_S138_S1x138) (rfl))]
    exact row_of_vec 138 _ _ q
  have e4 : (V1 m ρ c main_arg4 : S79x138.Idx → EReal) = (m ((c : Thread nD τ).loc main_arg4)) := W1_same m ρ c main_arg4 (by decide)
  have e5 : (fun q => (V1 m ρ c main_v15 : S1x138.Idx → EReal) (ix2 0 q)) = fun q => (m ((c : Thread nD τ).loc main_arg5)) (ix1 q) := funext fun q => by
    rw [show (V1 m ρ c main_v15 : S1x138.Idx → EReal) = shapeCast S1x138 (m ((c : Thread nD τ).loc main_arg5)) shapeCasts_S138_S1x138 from
      (ops0_bias1 (W0 m ρ c)).trans (congrArg (fun v => shapeCast S1x138 v shapeCasts_S138_S1x138) (rfl))]
    exact row_of_vec 138 _ _ q
  have e6 : (V1 m ρ c main_arg6 : S138x138.Idx → EReal) = (m ((c : Thread nD τ).loc main_arg6)) := W1_same m ρ c main_arg6 (by decide)
  have e7 : (fun q => (V1 m ρ c main_v16 : S1x138.Idx → EReal) (ix2 0 q)) = fun q => (m ((c : Thread nD τ).loc main_arg7)) (ix1 q) := funext fun q => by
    rw [show (V1 m ρ c main_v16 : S1x138.Idx → EReal) = shapeCast S1x138 (m ((c : Thread nD τ).loc main_arg7)) shapeCasts_S138_S1x138 from
      (ops0_bias2 (W0 m ρ c)).trans (congrArg (fun v => shapeCast S1x138 v shapeCasts_S138_S1x138) (rfl))]
    exact row_of_vec 138 _ _ q
  rw [e0, e1, e2, e3, e4, e5, e6, e7]

/-- Layer 2's output: the row formula over every node, of layer 1's output, its neighbour sums and the layer's parameters. -/
def H2 (m : (ℓ : Loc nD τ sig) → Buf (Elt Ideal) ℓ) (c : Dev nD) : Mat 327680 138 :=
  layer 138 138 (agg138 (m ((c : Thread nD τ).loc main_arg1))) (H1 m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- After call 2 its output buffer holds `H2`. -/
theorem out2 (c : Dev nD) : W4 m ρ c (Proc.devRef .tc main_v31) = H2 m c := by
  refine (W4_arr m ρ c 8).trans ((Layer2.final (V3 m ρ) c).trans ?_)
  unfold Layer2.result H2 layer
  have e0 : (V3 m ρ c main_v17 : S327680x138.Idx → EReal) = H1 m c := (keep1 (W2 m ρ c) main_v17 (by decide)).trans (out1 m ρ c)
  have e1 : (V3 m ρ c main_v27 : S327680x138.Idx → EReal) = agg138 (m ((c : Thread nD τ).loc main_arg1)) (H1 m c) := (ops1_sums (W2 m ρ c)).trans (by rw [out1 m ρ c, src2 m ρ c, dst2 m ρ c]; rfl)
  have e2 : (V3 m ρ c main_arg8 : S138x138.Idx → EReal) = (m ((c : Thread nD τ).loc main_arg8)) := W3_same m ρ c main_arg8 (by decide) (by decide) (by decide)
  have e3 : (fun q => (V3 m ρ c main_v28 : S1x138.Idx → EReal) (ix2 0 q)) = fun q => (m ((c : Thread nD τ).loc main_arg9)) (ix1 q) := funext fun q => by
    rw [show (V3 m ρ c main_v28 : S1x138.Idx → EReal) = shapeCast S1x138 (m ((c : Thread nD τ).loc main_arg9)) shapeCasts_S138_S1x138 from
      (ops1_bias0 (W2 m ρ c)).trans (congrArg (fun v => shapeCast S1x138 v shapeCasts_S138_S1x138) (W2_same m ρ c main_arg9 (by decide) (by decide)))]
    exact row_of_vec 138 _ _ q
  have e4 : (V3 m ρ c main_arg10 : S138x138.Idx → EReal) = (m ((c : Thread nD τ).loc main_arg10)) := W3_same m ρ c main_arg10 (by decide) (by decide) (by decide)
  have e5 : (fun q => (V3 m ρ c main_v29 : S1x138.Idx → EReal) (ix2 0 q)) = fun q => (m ((c : Thread nD τ).loc main_arg11)) (ix1 q) := funext fun q => by
    rw [show (V3 m ρ c main_v29 : S1x138.Idx → EReal) = shapeCast S1x138 (m ((c : Thread nD τ).loc main_arg11)) shapeCasts_S138_S1x138 from
      (ops1_bias1 (W2 m ρ c)).trans (congrArg (fun v => shapeCast S1x138 v shapeCasts_S138_S1x138) (W2_same m ρ c main_arg11 (by decide) (by decide)))]
    exact row_of_vec 138 _ _ q
  have e6 : (V3 m ρ c main_arg12 : S138x138.Idx → EReal) = (m ((c : Thread nD τ).loc main_arg12)) := W3_same m ρ c main_arg12 (by decide) (by decide) (by decide)
  have e7 : (fun q => (V3 m ρ c main_v30 : S1x138.Idx → EReal) (ix2 0 q)) = fun q => (m ((c : Thread nD τ).loc main_arg13)) (ix1 q) := funext fun q => by
    rw [show (V3 m ρ c main_v30 : S1x138.Idx → EReal) = shapeCast S1x138 (m ((c : Thread nD τ).loc main_arg13)) shapeCasts_S138_S1x138 from
      (ops1_bias2 (W2 m ρ c)).trans (congrArg (fun v => shapeCast S1x138 v shapeCasts_S138_S1x138) (W2_same m ρ c main_arg13 (by decide) (by decide)))]
    exact row_of_vec 138 _ _ q
  rw [e0, e1, e2, e3, e4, e5, e6, e7]

/-- Layer 3's output: the row formula over every node, of layer 2's output, its neighbour sums and the layer's parameters. -/
def H3 (m : (ℓ : Loc nD τ sig) → Buf (Elt Ideal) ℓ) (c : Dev nD) : Mat 327680 138 :=
  layer 138 138 (agg138 (m ((c : Thread nD τ).loc main_arg1))) (H2 m c) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19))

/-- After call 3 its output buffer holds `H3`. -/
theorem out3 (c : Dev nD) : W6 m ρ c (Proc.devRef .tc main_v45) = H3 m c := by
  refine (W6_arr m ρ c 8).trans ((Layer3.final (V5 m ρ) c).trans ?_)
  unfold Layer3.result H3 layer
  have e0 : (V5 m ρ c main_v31 : S327680x138.Idx → EReal) = H2 m c := (keep2 (W4 m ρ c) main_v31 (by decide)).trans (out2 m ρ c)
  have e1 : (V5 m ρ c main_v41 : S327680x138.Idx → EReal) = agg138 (m ((c : Thread nD τ).loc main_arg1)) (H2 m c) := (ops2_sums (W4 m ρ c)).trans (by rw [out2 m ρ c, src4 m ρ c, dst4 m ρ c]; rfl)
  have e2 : (V5 m ρ c main_arg14 : S138x138.Idx → EReal) = (m ((c : Thread nD τ).loc main_arg14)) := W5_same m ρ c main_arg14 (by decide) (by decide) (by decide) (by decide) (by decide)
  have e3 : (fun q => (V5 m ρ c main_v42 : S1x138.Idx → EReal) (ix2 0 q)) = fun q => (m ((c : Thread nD τ).loc main_arg15)) (ix1 q) := funext fun q => by
    rw [show (V5 m ρ c main_v42 : S1x138.Idx → EReal) = shapeCast S1x138 (m ((c : Thread nD τ).loc main_arg15)) shapeCasts_S138_S1x138 from
      (ops2_bias0 (W4 m ρ c)).trans (congrArg (fun v => shapeCast S1x138 v shapeCasts_S138_S1x138) (W4_same m ρ c main_arg15 (by decide) (by decide) (by decide) (by decide)))]
    exact row_of_vec 138 _ _ q
  have e4 : (V5 m ρ c main_arg16 : S138x138.Idx → EReal) = (m ((c : Thread nD τ).loc main_arg16)) := W5_same m ρ c main_arg16 (by decide) (by decide) (by decide) (by decide) (by decide)
  have e5 : (fun q => (V5 m ρ c main_v43 : S1x138.Idx → EReal) (ix2 0 q)) = fun q => (m ((c : Thread nD τ).loc main_arg17)) (ix1 q) := funext fun q => by
    rw [show (V5 m ρ c main_v43 : S1x138.Idx → EReal) = shapeCast S1x138 (m ((c : Thread nD τ).loc main_arg17)) shapeCasts_S138_S1x138 from
      (ops2_bias1 (W4 m ρ c)).trans (congrArg (fun v => shapeCast S1x138 v shapeCasts_S138_S1x138) (W4_same m ρ c main_arg17 (by decide) (by decide) (by decide) (by decide)))]
    exact row_of_vec 138 _ _ q
  have e6 : (V5 m ρ c main_arg18 : S138x138.Idx → EReal) = (m ((c : Thread nD τ).loc main_arg18)) := W5_same m ρ c main_arg18 (by decide) (by decide) (by decide) (by decide) (by decide)
  have e7 : (fun q => (V5 m ρ c main_v44 : S1x138.Idx → EReal) (ix2 0 q)) = fun q => (m ((c : Thread nD τ).loc main_arg19)) (ix1 q) := funext fun q => by
    rw [show (V5 m ρ c main_v44 : S1x138.Idx → EReal) = shapeCast S1x138 (m ((c : Thread nD τ).loc main_arg19)) shapeCasts_S138_S1x138 from
      (ops2_bias2 (W4 m ρ c)).trans (congrArg (fun v => shapeCast S1x138 v shapeCasts_S138_S1x138) (W4_same m ρ c main_arg19 (by decide) (by decide) (by decide) (by decide)))]
    exact row_of_vec 138 _ _ q
  rw [e0, e1, e2, e3, e4, e5, e6, e7]

/-- Layer 4's output: the row formula over every node, of layer 3's output, its neighbour sums and the layer's parameters. -/
def H4 (m : (ℓ : Loc nD τ sig) → Buf (Elt Ideal) ℓ) (c : Dev nD) : Mat 327680 128 :=
  layer 138 128 (agg138 (m ((c : Thread nD τ).loc main_arg1))) (H3 m c) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))

/-- After call 4 its output buffer holds `H4`. -/
theorem out4 (c : Dev nD) : W8 m ρ c (Proc.devRef .tc main_v59) = H4 m c := by
  refine (W8_arr m ρ c 8).trans ((Layer4.final (V7 m ρ) c).trans ?_)
  unfold Layer4.result H4 layer
  have e0 : (V7 m ρ c main_v45 : S327680x138.Idx → EReal) = H3 m c := (keep3 (W6 m ρ c) main_v45 (by decide)).trans (out3 m ρ c)
  have e1 : (V7 m ρ c main_v55 : S327680x138.Idx → EReal) = agg138 (m ((c : Thread nD τ).loc main_arg1)) (H3 m c) := (ops3_sums (W6 m ρ c)).trans (by rw [out3 m ρ c, src6 m ρ c, dst6 m ρ c]; rfl)
  have e2 : (V7 m ρ c main_arg20 : S138x128.Idx → EReal) = (m ((c : Thread nD τ).loc main_arg20)) := W7_same m ρ c main_arg20 (by decide) (by decide) (by decide) (by decide) (by decide) (by decide) (by decide)
  have e3 : (fun q => (V7 m ρ c main_v56 : S1x128.Idx → EReal) (ix2 0 q)) = fun q => (m ((c : Thread nD τ).loc main_arg21)) (ix1 q) := funext fun q => by
    rw [show (V7 m ρ c main_v56 : S1x128.Idx → EReal) = shapeCast S1x128 (m ((c : Thread nD τ).loc main_arg21)) shapeCasts_S128_S1x128 from
      (ops3_bias0 (W6 m ρ c)).trans (congrArg (fun v => shapeCast S1x128 v shapeCasts_S128_S1x128) (W6_same m ρ c main_arg21 (by decide) (by decide) (by decide) (by decide) (by decide) (by decide)))]
    exact row_of_vec 128 _ _ q
  have e4 : (V7 m ρ c main_arg22 : S138x128.Idx → EReal) = (m ((c : Thread nD τ).loc main_arg22)) := W7_same m ρ c main_arg22 (by decide) (by decide) (by decide) (by decide) (by decide) (by decide) (by decide)
  have e5 : (fun q => (V7 m ρ c main_v57 : S1x128.Idx → EReal) (ix2 0 q)) = fun q => (m ((c : Thread nD τ).loc main_arg23)) (ix1 q) := funext fun q => by
    rw [show (V7 m ρ c main_v57 : S1x128.Idx → EReal) = shapeCast S1x128 (m ((c : Thread nD τ).loc main_arg23)) shapeCasts_S128_S1x128 from
      (ops3_bias1 (W6 m ρ c)).trans (congrArg (fun v => shapeCast S1x128 v shapeCasts_S128_S1x128) (W6_same m ρ c main_arg23 (by decide) (by decide) (by decide) (by decide) (by decide) (by decide)))]
    exact row_of_vec 128 _ _ q
  have e6 : (V7 m ρ c main_arg24 : S128x128.Idx → EReal) = (m ((c : Thread nD τ).loc main_arg24)) := W7_same m ρ c main_arg24 (by decide) (by decide) (by decide) (by decide) (by decide) (by decide) (by decide)
  have e7 : (fun q => (V7 m ρ c main_v58 : S1x128.Idx → EReal) (ix2 0 q)) = fun q => (m ((c : Thread nD τ).loc main_arg25)) (ix1 q) := funext fun q => by
    rw [show (V7 m ρ c main_v58 : S1x128.Idx → EReal) = shapeCast S1x128 (m ((c : Thread nD τ).loc main_arg25)) shapeCasts_S128_S1x128 from
      (ops3_bias2 (W6 m ρ c)).trans (congrArg (fun v => shapeCast S1x128 v shapeCasts_S128_S1x128) (W6_same m ρ c main_arg25 (by decide) (by decide) (by decide) (by decide) (by decide) (by decide)))]
    exact row_of_vec 128 _ _ q
  rw [e0, e1, e2, e3, e4, e5, e6, e7]

/-! ## The result -/

/-- The last two stretches reshape and pad call 4's output. -/
theorem tail_eq (c : Dev nD) : W10 m ρ c (Proc.devRef .tc main_v61) = tail (W8 m ρ c (Proc.devRef .tc main_v59)) := by
  show StableHlo.after hostOps4_1 (StableHlo.after hostOps4 (W8 m ρ c)) (Proc.devRef .tc main_v61) = _
  dsimp only [hostOps4_1, hostOps4]
  after_results
  rfl

/-- The result buffer ends at the network function of the launch contents, reshaped and padded. -/
theorem value (c : Dev nD) :
    W10 m ρ c (Proc.devRef .tc main_v61)
      = tail (net (agg79 (m ((c : Thread nD τ).loc main_arg1))) (agg138 (m ((c : Thread nD τ).loc main_arg1))) (m ((c : Thread nD τ).loc main_arg0))
          (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))) :=
  (tail_eq m ρ c).trans (congrArg tail ((out4 m ρ c).trans rfl))

end Cert.KernelIdeal.Net

end
-- ==== Proof.RefNet.lean ====
/-
  The whole-array program's result, layer by layer.

  The program's result is printed as one closed term of its arguments. Read from the inside out it is four layers in
  the whole-array spelling, each fed the previous layer's output and that output's neighbour sums, then the reshape to
  graphs of 40 nodes and the padding to 45. Each whole-array layer is, entry by entry, the row formula of the node's
  row (`GinRow.host_apply`), so the term under the reshape is the network function `GinNet.net`.
-/
import proofs.«138013_j40029095198816_1_alg».proof.Proof.Gen.ReferenceIdeal.Run
import proofs.«138013_j40029095198816_1_alg».proof.Proof.NetSpec

set_option maxRecDepth 16384

noncomputable section

namespace Cert.ReferenceIdeal.Net

open Cert.ReferenceIdeal Cert.ReferenceIdeal.Gen Idealize.ShloMosaic Idealize.ShloMosaic.TcCoe Idealize.ShloMosaic.ValueIdx
open Idealize.SL.Sem Cert.GinRow Cert.GinNet

/-- The source node of every edge: row 0 of the edge array. -/
def srcOf (e : (⟨S2x1310720, .i32⟩ : BufTy).Contents (Elt Ideal)) : (⟨S1310720, .i32⟩ : BufTy).Contents (Elt Ideal) :=
  shapeCast _ (extractStridedSlice S1x1310720 ![0, 0] e slices_S2x1310720_S1x1310720_0_0) shapeCasts_S1x1310720_S1310720

/-- The target node of every edge: row 1 of the edge array. -/
def dstOf (e : (⟨S2x1310720, .i32⟩ : BufTy).Contents (Elt Ideal)) : (⟨S1310720, .i32⟩ : BufTy).Contents (Elt Ideal) :=
  shapeCast _ (extractStridedSlice S1x1310720 ![1, 0] e slices_S2x1310720_S1x1310720_1_0) shapeCasts_S1x1310720_S1310720

/-- The neighbour sums of a 79-feature array, from the edges' sources `s` and targets `d`: the source rows gathered (a
    negative source index counted from the end), then added into the target rows of a zero array. -/
def sums79 (s d : (⟨S1310720, .i32⟩ : BufTy).Contents (Elt Ideal)) (x : FVec Ideal S327680x79 .f32) : FVec Ideal S327680x79 .f32 :=
  Host.scatterAdd scatter_S327680x79_S1310720x1_S1310720x79_1_0_0_1 (broadcastInDim S327680x79 ![] bcast_S_S327680x79 (constant S_ .f32 0x00000000#32)) (broadcastInDim S1310720x1 ![0] bcast_S1310720_S1310720x1_0 d) (Host.gather gather_S327680x79_S1310720x1_S1310720x79_1_0_n_n_0_1_179 x (broadcastInDim S1310720x1 ![0] bcast_S1310720_S1310720x1_0 (select (cmpi .slt s (broadcastInDim S1310720 ![] bcast_S_S1310720 (constantI S_ 32 0#32))) (addi s (broadcastInDim S1310720 ![] bcast_S_S1310720 (constantI S_ 32 327680#32))) s)))

/-- The same for a 138-feature array. -/
def sums138 (s d : (⟨S1310720, .i32⟩ : BufTy).Contents (Elt Ideal)) (x : FVec Ideal S327680x138 .f32) : FVec Ideal S327680x138 .f32 :=
  Host.scatterAdd scatter_S327680x138_S1310720x1_S1310720x138_1_0_0_1 (broadcastInDim S327680x138 ![] bcast_S_S327680x138 (constant S_ .f32 0x00000000#32)) (broadcastInDim S1310720x1 ![0] bcast_S1310720_S1310720x1_0 d) (Host.gather gather_S327680x138_S1310720x1_S1310720x138_1_0_n_n_0_1_1138 x (broadcastInDim S1310720x1 ![0] bcast_S1310720_S1310720x1_0 (select (cmpi .slt s (broadcastInDim S1310720 ![] bcast_S_S1310720 (constantI S_ 32 0#32))) (addi s (broadcastInDim S1310720 ![] bcast_S_S1310720 (constantI S_ 32 327680#32))) s)))

/-- Neighbour sums from the edge array itself. -/
def agg79 (e : (⟨S2x1310720, .i32⟩ : BufTy).Contents (Elt Ideal)) (x : FVec Ideal S327680x79 .f32) : FVec Ideal S327680x79 .f32 :=
  sums79 (srcOf e) (dstOf e) x
def agg138 (e : (⟨S2x1310720, .i32⟩ : BufTy).Contents (Elt Ideal)) (x : FVec Ideal S327680x138 .f32) : FVec Ideal S327680x138 .f32 :=
  sums138 (srcOf e) (dstOf e) x

/-- One layer in the whole-array spelling, 79 features in, 138 out. -/
def hostLayer79_138 (x A : FVec Ideal S327680x79 .f32) (Wr : FVec Ideal S79x138 .f32) (br : FVec Ideal S138 .f32) (Wa : FVec Ideal S79x138 .f32)
    (ba : FVec Ideal S138 .f32) (Wb : FVec Ideal S138x138 .f32) (bb : FVec Ideal S138 .f32) : FVec Ideal S327680x138 .f32 :=
  addf (addf (Host.dotGeneral dot_S327680x79_S79x138_S327680x138_1_0_0_1_n_n none x Wr) (broadcastInDim S327680x138 ![0, 1] bcast_S1x138_S327680x138_0_1 (broadcastInDim S1x138 ![1] bcast_S138_S1x138_1 br))) (addf (Host.dotGeneral dot_S327680x138_S138x138_S327680x138_1_0_0_1_n_n none (maximumf (addf (Host.dotGeneral dot_S327680x79_S79x138_S327680x138_1_0_0_1_n_n none (addf x A) Wa) (broadcastInDim S327680x138 ![0, 1] bcast_S1x138_S327680x138_0_1 (broadcastInDim S1x138 ![1] bcast_S138_S1x138_1 ba))) (broadcastInDim S327680x138 ![] bcast_S_S327680x138 (constant S_ .f32 0x00000000#32))) Wb) (broadcastInDim S327680x138 ![0, 1] bcast_S1x138_S327680x138_0_1 (broadcastInDim S1x138 ![1] bcast_S138_S1x138_1 bb)))

/-- Entry by entry it is the row formula of the node's row. -/
theorem hostLayer79_138_eq (x A : FVec Ideal S327680x79 .f32) (Wr : FVec Ideal S79x138 .f32) (br : FVec Ideal S138 .f32) (Wa : FVec Ideal S79x138 .f32)
    (ba : FVec Ideal S138 .f32) (Wb : FVec Ideal S138x138 .f32) (bb : FVec Ideal S138 .f32) :
    hostLayer79_138 x A Wr br Wa ba Wb bb
      = ginRows 327680 79 138 x A Wr (fun q => br (ix1 q)) Wa (fun q => ba (ix1 q)) Wb (fun q => bb (ix1 q)) := by
  funext i
  obtain ⟨p, q, rfl⟩ : ∃ (p : Fin 327680) (q : Fin 138), i = ix2 p q := ⟨i 0, i 1, eq_ix2 i⟩
  unfold hostLayer79_138
  exact host_apply 327680 79 138 _ _ _ x A Wr br Wa ba Wb bb p q

/-- One layer in the whole-array spelling, 138 features in, 138 out. -/
def hostLayer138_138 (x A : FVec Ideal S327680x138 .f32) (Wr : FVec Ideal S138x138 .f32) (br : FVec Ideal S138 .f32) (Wa : FVec Ideal S138x138 .f32)
    (ba : FVec Ideal S138 .f32) (Wb : FVec Ideal S138x138 .f32) (bb : FVec Ideal S138 .f32) : FVec Ideal S327680x138 .f32 :=
  addf (addf (Host.dotGeneral dot_S327680x138_S138x138_S327680x138_1_0_0_1_n_n none x Wr) (broadcastInDim S327680x138 ![0, 1] bcast_S1x138_S327680x138_0_1 (broadcastInDim S1x138 ![1] bcast_S138_S1x138_1 br))) (addf (Host.dotGeneral dot_S327680x138_S138x138_S327680x138_1_0_0_1_n_n none (maximumf (addf (Host.dotGeneral dot_S327680x138_S138x138_S327680x138_1_0_0_1_n_n none (addf x A) Wa) (broadcastInDim S327680x138 ![0, 1] bcast_S1x138_S327680x138_0_1 (broadcastInDim S1x138 ![1] bcast_S138_S1x138_1 ba))) (broadcastInDim S327680x138 ![] bcast_S_S327680x138 (constant S_ .f32 0x00000000#32))) Wb) (broadcastInDim S327680x138 ![0, 1] bcast_S1x138_S327680x138_0_1 (broadcastInDim S1x138 ![1] bcast_S138_S1x138_1 bb)))

/-- Entry by entry it is the row formula of the node's row. -/
theorem hostLayer138_138_eq (x A : FVec Ideal S327680x138 .f32) (Wr : FVec Ideal S138x138 .f32) (br : FVec Ideal S138 .f32) (Wa : FVec Ideal S138x138 .f32)
    (ba : FVec Ideal S138 .f32) (Wb : FVec Ideal S138x138 .f32) (bb : FVec Ideal S138 .f32) :
    hostLayer138_138 x A Wr br Wa ba Wb bb
      = ginRows 327680 138 138 x A Wr (fun q => br (ix1 q)) Wa (fun q => ba (ix1 q)) Wb (fun q => bb (ix1 q)) := by
  funext i
  obtain ⟨p, q, rfl⟩ : ∃ (p : Fin 327680) (q : Fin 138), i = ix2 p q := ⟨i 0, i 1, eq_ix2 i⟩
  unfold hostLayer138_138
  exact host_apply 327680 138 138 _ _ _ x A Wr br Wa ba Wb bb p q

/-- One layer in the whole-array spelling, 138 features in, 128 out. -/
def hostLayer138_128 (x A : FVec Ideal S327680x138 .f32) (Wr : FVec Ideal S138x128 .f32) (br : FVec Ideal S128 .f32) (Wa : FVec Ideal S138x128 .f32)
    (ba : FVec Ideal S128 .f32) (Wb : FVec Ideal S128x128 .f32) (bb : FVec Ideal S128 .f32) : FVec Ideal S327680x128 .f32 :=
  addf (addf (Host.dotGeneral dot_S327680x138_S138x128_S327680x128_1_0_0_1_n_n none x Wr) (broadcastInDim S327680x128 ![0, 1] bcast_S1x128_S327680x128_0_1 (broadcastInDim S1x128 ![1] bcast_S128_S1x128_1 br))) (addf (Host.dotGeneral dot_S327680x128_S128x128_S327680x128_1_0_0_1_n_n none (maximumf (addf (Host.dotGeneral dot_S327680x138_S138x128_S327680x128_1_0_0_1_n_n none (addf x A) Wa) (broadcastInDim S327680x128 ![0, 1] bcast_S1x128_S327680x128_0_1 (broadcastInDim S1x128 ![1] bcast_S128_S1x128_1 ba))) (broadcastInDim S327680x128 ![] bcast_S_S327680x128 (constant S_ .f32 0x00000000#32))) Wb) (broadcastInDim S327680x128 ![0, 1] bcast_S1x128_S327680x128_0_1 (broadcastInDim S1x128 ![1] bcast_S128_S1x128_1 bb)))

/-- Entry by entry it is the row formula of the node's row. -/
theorem hostLayer138_128_eq (x A : FVec Ideal S327680x138 .f32) (Wr : FVec Ideal S138x128 .f32) (br : FVec Ideal S128 .f32) (Wa : FVec Ideal S138x128 .f32)
    (ba : FVec Ideal S128 .f32) (Wb : FVec Ideal S128x128 .f32) (bb : FVec Ideal S128 .f32) :
    hostLayer138_128 x A Wr br Wa ba Wb bb
      = ginRows 327680 138 128 x A Wr (fun q => br (ix1 q)) Wa (fun q => ba (ix1 q)) Wb (fun q => bb (ix1 q)) := by
  funext i
  obtain ⟨p, q, rfl⟩ : ∃ (p : Fin 327680) (q : Fin 128), i = ix2 p q := ⟨i 0, i 1, eq_ix2 i⟩
  unfold hostLayer138_128
  exact host_apply 327680 138 128 _ _ _ x A Wr br Wa ba Wb bb p q

/-- The last two operations: 327680 nodes as 8192 graphs of 40, each padded with five zero rows. -/
def tail (h : FVec Ideal S327680x128 .f32) : FVec Ideal S8192x45x128 .f32 :=
  pad S8192x45x128 ![0, 0, 0] ![0, 5, 0] ![0, 0, 0] (shapeCast _ h shapeCasts_S327680x128_S8192x40x128) (sitofp .f32 (constantI S_ 32 0#32)) pads_S8192x40x128_S8192x45x128_000_050_000 h_S_

/-- A layer fed its own input's neighbour sums. -/
def step79 (e : (⟨S2x1310720, .i32⟩ : BufTy).Contents (Elt Ideal)) (x : FVec Ideal S327680x79 .f32) (Wr : FVec Ideal S79x138 .f32) (br : FVec Ideal S138 .f32) (Wa : FVec Ideal S79x138 .f32) (ba : FVec Ideal S138 .f32) (Wb : FVec Ideal S138x138 .f32) (bb : FVec Ideal S138 .f32) : FVec Ideal S327680x138 .f32 := hostLayer79_138 x (agg79 e x) Wr br Wa ba Wb bb
def step138 (e : (⟨S2x1310720, .i32⟩ : BufTy).Contents (Elt Ideal)) (x : FVec Ideal S327680x138 .f32) (Wr : FVec Ideal S138x138 .f32) (br : FVec Ideal S138 .f32) (Wa : FVec Ideal S138x138 .f32) (ba : FVec Ideal S138 .f32) (Wb : FVec Ideal S138x138 .f32) (bb : FVec Ideal S138 .f32) : FVec Ideal S327680x138 .f32 := hostLayer138_138 x (agg138 e x) Wr br Wa ba Wb bb
def step128 (e : (⟨S2x1310720, .i32⟩ : BufTy).Contents (Elt Ideal)) (x : FVec Ideal S327680x138 .f32) (Wr : FVec Ideal S138x128 .f32) (br : FVec Ideal S128 .f32) (Wa : FVec Ideal S138x128 .f32) (ba : FVec Ideal S128 .f32) (Wb : FVec Ideal S128x128 .f32) (bb : FVec Ideal S128 .f32) : FVec Ideal S327680x128 .f32 := hostLayer138_128 x (agg138 e x) Wr br Wa ba Wb bb

set_option maxHeartbeats 4000000 in
/-- The printed result term is the four steps in a row, reshaped and padded. -/
theorem res_steps (m : (ℓ : Loc nD τ sig) → Buf (Elt Ideal) ℓ) (c : Dev nD) :
    Value.res_main_v105 m c
      = tail (step128 (m ((c.tc : Thread nD τ).loc main_arg1))
          (step138 (m ((c.tc : Thread nD τ).loc main_arg1))
            (step138 (m ((c.tc : Thread nD τ).loc main_arg1))
              (step79 (m ((c.tc : Thread nD τ).loc main_arg1)) (m ((c.tc : Thread nD τ).loc main_arg0))
                (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
              (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
            (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
          (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) := by
  unfold Value.res_main_v105
  rfl

/-- So it is the network function, reshaped and padded. -/
theorem res_net (m : (ℓ : Loc nD τ sig) → Buf (Elt Ideal) ℓ) (c : Dev nD) :
    Value.res_main_v105 m c
      = tail (net (agg79 (m ((c.tc : Thread nD τ).loc main_arg1))) (agg138 (m ((c.tc : Thread nD τ).loc main_arg1)))
          (m ((c.tc : Thread nD τ).loc main_arg0))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))) := by
  rw [res_steps]
  unfold step128 step138 step79
  rw [hostLayer138_128_eq, hostLayer138_138_eq, hostLayer138_138_eq, hostLayer79_138_eq]
  rfl

end Cert.ReferenceIdeal.Net

end
-- ==== Proof.lean ====
/-
  A four-layer graph-isomorphism network over 327680 nodes and 1310720 edges, computed two ways, gives the same array
  on the extended reals.

  Per layer, with `x` the node features and `a` the sum over each node's incoming edges of the source node's features,
  both programs compute for node `p`

      (x_p · Wr + br) + (max((x_p + a_p) · W1 + b1, 0) · W2 + b2),

  then feed the result to the next layer; after the fourth layer both view the nodes as 8192 graphs of 40 and pad each to
  45 rows. One program does the dense part of a layer in a blocked call over 80 blocks of 4096 nodes (matrix products into
  zero accumulators, biases as rows, changes of float format around each product); the other does it with whole-array
  contractions. The neighbour sums are the same host operations in both.

  On the extended reals a change of float format is the identity and both kinds of product are the plain sum over the
  shared axis, so per node both are the same sums in the same grouping (`LibGinRow`); the blocks cover the nodes (`Layer1`
  … `Layer4`); the buffers each call reads reach it unchanged (`Fold`); the whole-array program's printed result is the
  same four layers (`RefNet`). No law of arithmetic is used, so the inputs' finiteness is never needed. The three frames
  are the generated ones; the idealization rewrote nothing, so `preserves` is trivial.
-/
import proofs.«138013_j40029095198816_1_alg».proof.Defs
import proofs.«138013_j40029095198816_1_alg».proof.Proof.Gen.Kernel
import proofs.«138013_j40029095198816_1_alg».proof.Proof.Gen.Kernel.Skeleton
import proofs.«138013_j40029095198816_1_alg».proof.Proof.Gen.Kernel.Launch
import proofs.«138013_j40029095198816_1_alg».proof.Proof.Gen.Kernel.Points
import proofs.«138013_j40029095198816_1_alg».proof.Proof.Gen.Kernel.Frame
import proofs.«138013_j40029095198816_1_alg».proof.Proof.Gen.KernelIdeal
import proofs.«138013_j40029095198816_1_alg».proof.Proof.Gen.KernelIdeal.Skeleton
import proofs.«138013_j40029095198816_1_alg».proof.Proof.Gen.KernelIdeal.Launch
import proofs.«138013_j40029095198816_1_alg».proof.Proof.Gen.KernelIdeal.Points
import proofs.«138013_j40029095198816_1_alg».proof.Proof.Gen.KernelIdeal.Frame
import proofs.«138013_j40029095198816_1_alg».proof.Proof.Gen.ReferenceIdeal
import proofs.«138013_j40029095198816_1_alg».proof.Proof.Gen.Pre_finite_inputs
import proofs.«138013_j40029095198816_1_alg».proof.Proof.Gen.ReferenceIdeal.Run
import proofs.«138013_j40029095198816_1_alg».proof.Proof.KRun
import proofs.«138013_j40029095198816_1_alg».proof.Proof.Fold
import proofs.«138013_j40029095198816_1_alg».proof.Proof.RefNet
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The whole-array program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The blocked program's run: the result is the network function of the launch contents, reshaped and padded; the
    arguments end as launched. -/
theorem blocked_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v61) = Cert.KernelIdeal.Net.tail (Cert.GinNet.net (Cert.KernelIdeal.Net.agg79 (m ((c.tc : Thread Cert.KernelIdeal.nD Cert.KernelIdeal.τ).loc Cert.KernelIdeal.main_arg1))) (Cert.KernelIdeal.Net.agg138 (m ((c.tc : Thread Cert.KernelIdeal.nD Cert.KernelIdeal.τ).loc Cert.KernelIdeal.main_arg1))) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)) :=
  (θ_run Cert.KernelIdeal.defs _ _).mono (fun r h c =>
    ⟨(h c Cert.KernelIdeal.main_v61 (by decide)).trans (Cert.KernelIdeal.Net.value m ρ c),
      (h c Cert.KernelIdeal.main_arg0 (by decide)).trans (Cert.KernelIdeal.Gen.W10_main_arg0 m ρ c),
      (h c Cert.KernelIdeal.main_arg1 (by decide)).trans (Cert.KernelIdeal.Gen.W10_main_arg1 m ρ c),
      (h c Cert.KernelIdeal.main_arg2 (by decide)).trans (Cert.KernelIdeal.Gen.W10_main_arg2 m ρ c),
      (h c Cert.KernelIdeal.main_arg3 (by decide)).trans (Cert.KernelIdeal.Gen.W10_main_arg3 m ρ c),
      (h c Cert.KernelIdeal.main_arg4 (by decide)).trans (Cert.KernelIdeal.Gen.W10_main_arg4 m ρ c),
      (h c Cert.KernelIdeal.main_arg5 (by decide)).trans (Cert.KernelIdeal.Gen.W10_main_arg5 m ρ c),
      (h c Cert.KernelIdeal.main_arg6 (by decide)).trans (Cert.KernelIdeal.Gen.W10_main_arg6 m ρ c),
      (h c Cert.KernelIdeal.main_arg7 (by decide)).trans (Cert.KernelIdeal.Gen.W10_main_arg7 m ρ c),
      (h c Cert.KernelIdeal.main_arg8 (by decide)).trans (Cert.KernelIdeal.Gen.W10_main_arg8 m ρ c),
      (h c Cert.KernelIdeal.main_arg9 (by decide)).trans (Cert.KernelIdeal.Gen.W10_main_arg9 m ρ c),
      (h c Cert.KernelIdeal.main_arg10 (by decide)).trans (Cert.KernelIdeal.Gen.W10_main_arg10 m ρ c),
      (h c Cert.KernelIdeal.main_arg11 (by decide)).trans (Cert.KernelIdeal.Gen.W10_main_arg11 m ρ c),
      (h c Cert.KernelIdeal.main_arg12 (by decide)).trans (Cert.KernelIdeal.Gen.W10_main_arg12 m ρ c),
      (h c Cert.KernelIdeal.main_arg13 (by decide)).trans (Cert.KernelIdeal.Gen.W10_main_arg13 m ρ c),
      (h c Cert.KernelIdeal.main_arg14 (by decide)).trans (Cert.KernelIdeal.Gen.W10_main_arg14 m ρ c),
      (h c Cert.KernelIdeal.main_arg15 (by decide)).trans (Cert.KernelIdeal.Gen.W10_main_arg15 m ρ c),
      (h c Cert.KernelIdeal.main_arg16 (by decide)).trans (Cert.KernelIdeal.Gen.W10_main_arg16 m ρ c),
      (h c Cert.KernelIdeal.main_arg17 (by decide)).trans (Cert.KernelIdeal.Gen.W10_main_arg17 m ρ c),
      (h c Cert.KernelIdeal.main_arg18 (by decide)).trans (Cert.KernelIdeal.Gen.W10_main_arg18 m ρ c),
      (h c Cert.KernelIdeal.main_arg19 (by decide)).trans (Cert.KernelIdeal.Gen.W10_main_arg19 m ρ c),
      (h c Cert.KernelIdeal.main_arg20 (by decide)).trans (Cert.KernelIdeal.Gen.W10_main_arg20 m ρ c),
      (h c Cert.KernelIdeal.main_arg21 (by decide)).trans (Cert.KernelIdeal.Gen.W10_main_arg21 m ρ c),
      (h c Cert.KernelIdeal.main_arg22 (by decide)).trans (Cert.KernelIdeal.Gen.W10_main_arg22 m ρ c),
      (h c Cert.KernelIdeal.main_arg23 (by decide)).trans (Cert.KernelIdeal.Gen.W10_main_arg23 m ρ c),
      (h c Cert.KernelIdeal.main_arg24 (by decide)).trans (Cert.KernelIdeal.Gen.W10_main_arg24 m ρ c),
      (h c Cert.KernelIdeal.main_arg25 (by decide)).trans (Cert.KernelIdeal.Gen.W10_main_arg25 m ρ c)⟩)
    (Cert.KernelIdeal.Net.run_fold m ρ)

set_option maxHeartbeats 1600000 in
/-- Both programs end with the network function of the same arguments, reshaped and padded. -/
theorem algebraic : Cert.algebraic_KernelIdeal_ReferenceIdeal := by
  intro m ρ m' ρ' _ hagree
  refine ⟨fun c => Cert.KernelIdeal.Net.tail (Cert.GinNet.net (Cert.KernelIdeal.Net.agg79 (m ((c.tc : Thread Cert.KernelIdeal.nD Cert.KernelIdeal.τ).loc Cert.KernelIdeal.main_arg1))) (Cert.KernelIdeal.Net.agg138 (m ((c.tc : Thread Cert.KernelIdeal.nD Cert.KernelIdeal.τ).loc Cert.KernelIdeal.main_arg1))) (m ((c.tc : Thread Cert.KernelIdeal.nD Cert.KernelIdeal.τ).loc Cert.KernelIdeal.main_arg0))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))), blocked_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Net.res_net]
  obtain ⟨a0, a1, a2, a3, a4, a5, a6, a7, a8, a9, a10, a11, a12, a13, a14, a15, a16, a17, a18, a19, a20, a21, a22, a23, a24, a25⟩ := hagree c
  simp only [a0, a1, a2, a3, a4, a5, a6, a7, a8, a9, a10, a11, a12, a13, a14, a15, a16, a17, a18, a19, a20, a21, a22, a23, a24, a25]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
